-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v101)) (v2 : (c : Dev Cert.KernelIdeal.nD) → Buf (Elt Ideal) ((c.tc : Thread Cert.KernelIdeal.nD Cert.KernelIdeal.τ).loc Cert.KernelIdeal.main_v153)) (v3 : (c : Dev Cert.KernelIdeal.nD) → Buf (Elt Ideal) ((c.tc : Thread Cert.KernelIdeal.nD Cert.KernelIdeal.τ).loc Cert.KernelIdeal.main_v162)) (v4 : (c : Dev Cert.KernelIdeal.nD) → Buf (Elt Ideal) ((c.tc : Thread Cert.KernelIdeal.nD Cert.KernelIdeal.τ).loc Cert.KernelIdeal.main_v165)) (v5 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_v153) = v2 c
          ∧ r.2.mem ((c.tc : Thread Cert.KernelIdeal.nD Cert.KernelIdeal.τ).loc Cert.KernelIdeal.main_v162) = v3 c
          ∧ r.2.mem ((c.tc : Thread Cert.KernelIdeal.nD Cert.KernelIdeal.τ).loc Cert.KernelIdeal.main_v165) = v4 c
          ∧ r.2.mem ((c.tc : Thread Cert.KernelIdeal.nD Cert.KernelIdeal.τ).loc Cert.KernelIdeal.main_v168) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_v165) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000 : Shape := ⟨1, ![300000]⟩
abbrev S300000x128 : Shape := ⟨2, ![300000, 128]⟩
abbrev S500000 : Shape := ⟨1, ![500000]⟩
abbrev S2x8000000 : Shape := ⟨2, ![2, 8000000]⟩
abbrev S8000000 : Shape := ⟨1, ![8000000]⟩
abbrev S_ : Shape := ⟨0, ![]⟩

class Facts : Prop where
  bcast_S_S300000x128 : S_.BroadcastsInDim S300000x128 (![] : Fin 0 → Fin S300000x128.rank)
  reducesTo_S300000x128_S_d0_1 : S300000x128.ReducesTo [0, 1] S_
  h_S_ : 0 < S_.numel
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : IVec S300000 32) (main_arg1 : IVec S300000 32) (main_arg2 : IVec S300000 32) (main_arg3 : FVec F S300000x128 .f32) (main_arg4 : FVec F S300000x128 .f32) (main_arg5 : IVec S500000 32) (main_arg6 : IVec S2x8000000 32) (main_arg7 : FVec F S8000000 .f32) : IVec S_ 1 :=
  let main_v0 : FVec F S300000x128 .f32 := Host.absf main_arg3
  let main_cst : FVec F S_ .f32 := constant S_ .f32 0x7F800000#32
  let main_v1 : FVec F S300000x128 .f32 := broadcastInDim S300000x128 ![] bcast_S_S300000x128 main_cst
  let main_v2 : IVec S300000x128 1 := cmpf .olt main_v0 main_v1
  let main_c : IVec S_ 1 := constantI S_ 1 1#1
  let main_v3 : IVec S_ 1 := (fun x v => Host.reduce IntOp.andi x v reducesTo_S300000x128_S_d0_1 h_S_) main_v2 main_c
  let main_v4 : FVec F S300000x128 .f32 := Host.absf main_arg4
  let main_cst_0 : FVec F S_ .f32 := constant S_ .f32 0x7F800000#32
  let main_v5 : FVec F S300000x128 .f32 := broadcastInDim S300000x128 ![] bcast_S_S300000x128 main_cst_0
  let main_v6 : IVec S300000x128 1 := cmpf .olt main_v4 main_v5
  let main_c_1 : IVec S_ 1 := constantI S_ 1 1#1
  let main_v7 : IVec S_ 1 := (fun x v => Host.reduce IntOp.andi x v reducesTo_S300000x128_S_d0_1 h_S_) main_v6 main_c_1
  let main_v8 : IVec S_ 1 := andi main_v3 main_v7
  let main_v9 : FVec F S8000000 .f32 := Host.absf main_arg7
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  main_v13
-- ==== Kernel.lean ====
abbrev S300000 : Shape := ⟨1, ![300000]⟩
abbrev S300000x128 : Shape := ⟨2, ![300000, 128]⟩
abbrev S500000 : Shape := ⟨1, ![500000]⟩
abbrev S2x8000000 : Shape := ⟨2, ![2, 8000000]⟩
abbrev S8000000 : Shape := ⟨1, ![8000000]⟩
abbrev S_ : Shape := ⟨0, ![]⟩
abbrev S300000x1 : Shape := ⟨2, ![300000, 1]⟩
abbrev S500000x1 : Shape := ⟨2, ![500000, 1]⟩
abbrev S500000x128 : Shape := ⟨2, ![500000, 128]⟩
abbrev S4000x128 : Shape := ⟨2, ![4000, 128]⟩
abbrev S4000x1 : Shape := ⟨2, ![4000, 1]⟩
abbrev S600001x128 : Shape := ⟨2, ![600001, 128]⟩
abbrev S600000x128 : Shape := ⟨2, ![600000, 128]⟩
abbrev S600001 : Shape := ⟨1, ![600001]⟩
abbrev S600000 : Shape := ⟨1, ![600000]⟩
abbrev S600000x1 : Shape := ⟨2, ![600000, 1]⟩
abbrev S1x8000000 : Shape := ⟨2, ![1, 8000000]⟩
abbrev S8000000x1 : Shape := ⟨2, ![8000000, 1]⟩
abbrev S8000000x2 : Shape := ⟨2, ![8000000, 2]⟩
abbrev S8000001x2 : Shape := ⟨2, ![8000001, 2]⟩
abbrev S8000001 : Shape := ⟨1, ![8000001]⟩
abbrev S1 : Shape := ⟨1, ![1]⟩

abbrev nBuf : Space → Nat
  | .hbm => 248
  | .vmem => 10
  | .smem => 0
  | _ => 0

abbrev hbmTy0_0 (i : Nat) : BufTy := match i % 128 with
  | 0 => ⟨S300000, .i32⟩
  | 1 => ⟨S300000, .i32⟩
  | 2 => ⟨S300000, .i32⟩
  | 3 => ⟨S300000x128, .f32⟩
  | 4 => ⟨S300000x128, .f32⟩
  | 5 => ⟨S500000, .i32⟩
  | 6 => ⟨S2x8000000, .i32⟩
  | 7 => ⟨S8000000, .f32⟩
  | 8 => ⟨S_, .i1⟩
  | 9 => ⟨S500000, .i1⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S_, .i1⟩
  | 19 => ⟨S300000, .i1⟩
  | 20 => ⟨S500000, .i1⟩
  | 21 => ⟨S_, .i1⟩
  | 22 => ⟨S500000, .i1⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S_, .i1⟩
  | 32 => ⟨S300000, .i1⟩
  | 33 => ⟨S500000, .i1⟩
  | 34 => ⟨S_, .i32⟩
  | 35 => ⟨S500000, .i32⟩
  | 36 => ⟨S300000, .i32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S500000, .i32⟩
  | 46 => ⟨S_, .i32⟩
  | 47 => ⟨S500000, .i32⟩
  | 48 => ⟨S300000, .i32⟩
  | 49 => ⟨S_, .i32⟩
  | 50 => ⟨S300000, .i32⟩
  | 51 => ⟨S300000, .i1⟩
  | 52 => ⟨S_, .i32⟩
  | 53 => ⟨S300000, .i32⟩
  | 54 => ⟨S300000, .i32⟩
  | 55 => ⟨S300000, .i32⟩
  | 56 => ⟨S300000x1, .i32⟩
  | 57 => ⟨S500000, .i32⟩
  | 58 => ⟨S500000, .i1⟩
  | 59 => ⟨S500000, .i32⟩
  | 60 => ⟨S500000, .i32⟩
  | 61 => ⟨S_, .i32⟩
  | 62 => ⟨S500000, .i32⟩
  | 63 => ⟨S500000, .i32⟩
  | 64 => ⟨S500000, .i32⟩
  | 65 => ⟨S500000x1, .i32⟩
  | 66 => ⟨S300000x128, .bf16⟩
  | 67 => ⟨S300000x128, .bf16⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x128, .bf16⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x128, .bf16⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x128, .bf16⟩
  | 95 => ⟨S500000x128, .f32⟩
  | 96 => ⟨S500000, .i32⟩
  | 97 => ⟨S_, .i32⟩
  | 98 => ⟨S_, .i32⟩
  | 99 => ⟨S500000, .i32⟩
  | 100 => ⟨S_, .i32⟩
  | 101 => ⟨S500000, .i32⟩
  | 102 => ⟨S500000, .i32⟩
  | 103 => ⟨S_, .i32⟩
  | 104 => ⟨S_, .i32⟩
  | 105 => ⟨S500000, .i32⟩
  | 106 => ⟨S500000, .i32⟩
  | 107 => ⟨S_, .f32⟩
  | 108 => ⟨S600001x128, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S600001x128, .f32⟩
  | 118 => ⟨S600000x128, .f32⟩
  | 119 => ⟨S_, .i32⟩
  | 120 => ⟨S600001, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S300000, .i32⟩

abbrev hbmTy0_1 (i : Nat) : BufTy := match i % 128 with
  | 0 => ⟨S500000, .i32⟩
  | 1 => ⟨S500000x1, .i32⟩
  | 2 => ⟨S600001, .i32⟩
  | 3 => ⟨S600000, .i32⟩
  | 4 => ⟨S_, .i32⟩
  | 5 => ⟨S600000, .i32⟩
  | 6 => ⟨S600000, .i1⟩
  | 7 => ⟨S_, .i32⟩
  | 8 => ⟨S_, .i32⟩
  | 9 => ⟨S_, .i32⟩
  | 10 => ⟨S600000, .i32⟩
  | 11 => ⟨S600000, .i32⟩
  | 12 => ⟨S_, .i32⟩
  | 13 => ⟨S600000, .i32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000, .i32⟩
  | 24 => ⟨S_, .i32⟩
  | 25 => ⟨S_, .i32⟩
  | 26 => ⟨S600000, .i32⟩
  | 27 => ⟨S600000, .i32⟩
  | 28 => ⟨S_, .i32⟩
  | 29 => ⟨S_, .i32⟩
  | 30 => ⟨S500000, .i32⟩
  | 31 => ⟨S500000, .i32⟩
  | 32 => ⟨S1x8000000, .i32⟩
  | 33 => ⟨S8000000, .i32⟩
  | 34 => ⟨S1x8000000, .i32⟩
  | 35 => ⟨S8000000, .i32⟩
  | 36 => ⟨S_, .i32⟩
  | 37 => ⟨S8000000, .i32⟩
  | 38 => ⟨S8000000, .i1⟩
  | 39 => ⟨S_, .i32⟩
  | 40 => ⟨S8000000, .i32⟩
  | 41 => ⟨S8000000, .i32⟩
  | 42 => ⟨S8000000, .i32⟩
  | 43 => ⟨S8000000x1, .i32⟩
  | 44 => ⟨S8000000, .i1⟩
  | 45 => ⟨S_, .i32⟩
  | 46 => ⟨S8000000, .i32⟩
  | 47 => ⟨S8000000, .i1⟩
  | 48 => ⟨S_, .i32⟩
  | 49 => ⟨S8000000, .i32⟩
  | 50 => ⟨S8000000, .i32⟩
  | 51 => ⟨S8000000, .i32⟩
  | 52 => ⟨S8000000x1, .i32⟩
  | 53 => ⟨S8000000, .i1⟩
  | 54 => ⟨S8000000, .i1⟩
  | 55 => ⟨S8000000, .i32⟩
  | 56 => ⟨S_, .i32⟩
  | 57 => ⟨S_, .i32⟩
  | 58 => ⟨S8000000, .i32⟩
  | 59 => ⟨S_, .i32⟩
  | 60 => ⟨S8000000, .i32⟩
  | 61 => ⟨S8000000, .i32⟩
  | 62 => ⟨S_, .i32⟩
  | 63 => ⟨S_, .i32⟩
  | 64 => ⟨S8000000, .i32⟩
  | 65 => ⟨S8000000, .i32⟩
  | 66 => ⟨S_, .i32⟩
  | 67 => ⟨S8000000, .i32⟩
  | 68 => ⟨S8000000, .i1⟩
  | 69 => ⟨S_, .i32⟩
  | 70 => ⟨S8000000, .i32⟩
  | 71 => ⟨S8000000, .i32⟩
  | 72 => ⟨S8000000, .i32⟩
  | 73 => ⟨S8000000x1, .i32⟩
  | 74 => ⟨S8000000, .i32⟩
  | 75 => ⟨S_, .i32⟩
  | 76 => ⟨S8000000, .i32⟩
  | 77 => ⟨S8000000, .i1⟩
  | 78 => ⟨S_, .i32⟩
  | 79 => ⟨S8000000, .i32⟩
  | 80 => ⟨S8000000, .i32⟩
  | 81 => ⟨S8000000, .i32⟩
  | 82 => ⟨S8000000x1, .i32⟩
  | 83 => ⟨S8000000, .i32⟩
  | 84 => ⟨S8000000x1, .i32⟩
  | 85 => ⟨S8000000x1, .i32⟩
  | 86 => ⟨S8000000x2, .i32⟩
  | 87 => ⟨S_, .i32⟩
  | 88 => ⟨S8000001x2, .i32⟩
  | 89 => ⟨S_, .i32⟩
  | 90 => ⟨S8000000, .i32⟩
  | 91 => ⟨S8000000, .i1⟩
  | 92 => ⟨S_, .i32⟩
  | 93 => ⟨S8000000, .i32⟩
  | 94 => ⟨S8000000, .i32⟩
  | 95 => ⟨S8000000, .i32⟩
  | 96 => ⟨S8000000x1, .i32⟩
  | 97 => ⟨S8000001x2, .i32⟩
  | 98 => ⟨S8000000x2, .i32⟩
  | 99 => ⟨S2x8000000, .i32⟩
  | 100 => ⟨S_, .f32⟩
  | 101 => ⟨S8000001, .f32⟩
  | 102 => ⟨S_, .i32⟩
  | 103 => ⟨S8000000, .i32⟩
  | 104 => ⟨S8000000, .i1⟩
  | 105 => ⟨S_, .i32⟩
  | 106 => ⟨S8000000, .i32⟩
  | 107 => ⟨S8000000, .i32⟩
  | 108 => ⟨S8000000, .i32⟩
  | 109 => ⟨S8000000x1, .i32⟩
  | 110 => ⟨S8000001, .f32⟩
  | 111 => ⟨S8000000, .f32⟩
  | 112 => ⟨S1, .i32⟩
  | 113 => ⟨S_, .i32⟩
  | 114 => ⟨S_, .i32⟩
  | 115 => ⟨S_, .i32⟩
  | 116 => ⟨S1, .i32⟩
  | 117 => ⟨S_, .i32⟩
  | 118 => ⟨S_, .i32⟩
  | 119 => ⟨S_, .i32⟩
  | _ => ⟨S300000, .i32⟩

abbrev hbmTy (i : Nat) : BufTy := match i / 128 with
  | 0 => hbmTy0_0 i
  | 1 => hbmTy0_1 i
  | _ => ⟨S300000, .i32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x1, .i32⟩
  | .local _ .vmem, ⟨7, _⟩ => ⟨S4000x1, .i32⟩
  | .local _ .vmem, ⟨8, _⟩ => ⟨S4000x128, .f32⟩
  | .local _ .vmem, ⟨9, _⟩ => ⟨S4000x128, .f32⟩
  | _, _ => ⟨S300000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_c_7 : Ref sig .tc := ⟨.hbm, 34, rfl⟩
abbrev main_v18 : Ref sig .tc := ⟨.hbm, 35, rfl⟩
abbrev main_v19 : Ref sig .tc := ⟨.hbm, 36, rfl⟩
abbrev main_c_8 : Ref sig .tc := ⟨.hbm, 37, rfl⟩
abbrev main_v20 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_10 : Ref sig .tc := ⟨.hbm, 46, rfl⟩
abbrev main_v27 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_v30 : Ref sig .tc := ⟨.hbm, 51, rfl⟩
abbrev main_c_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_14 : Ref sig .tc := ⟨.hbm, 68, rfl⟩
abbrev main_v45 : Ref sig .tc := ⟨.hbm, 69, rfl⟩
abbrev main_v46 : Ref sig .tc := ⟨.hbm, 70, rfl⟩
abbrev main_c_15 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_16 : Ref sig .tc := ⟨.hbm, 77, rfl⟩
abbrev main_v52 : Ref sig .tc := ⟨.hbm, 78, rfl⟩
abbrev main_v53 : Ref sig .tc := ⟨.hbm, 79, rfl⟩
abbrev main_c_17 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_18 : Ref sig .tc := ⟨.hbm, 86, rfl⟩
abbrev main_v59 : Ref sig .tc := ⟨.hbm, 87, rfl⟩
abbrev main_v60 : Ref sig .tc := ⟨.hbm, 88, rfl⟩
abbrev main_c_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call0_call0_c : Ref sig .tc := ⟨.hbm, 97, rfl⟩
abbrev main_call0_call0_v0 : Ref sig .tc := ⟨.hbm, 98, rfl⟩
abbrev main_v68 : Ref sig .tc := ⟨.hbm, 99, rfl⟩
abbrev main_c_20 : Ref sig .tc := ⟨.hbm, 100, rfl⟩
abbrev main_v69 : Ref sig .tc := ⟨.hbm, 101, rfl⟩
abbrev main_v70 : Ref sig .tc := ⟨.hbm, 102, rfl⟩
abbrev main_c_21 : Ref sig .tc := ⟨.hbm, 103, rfl⟩
abbrev main_call1_v0 : Ref sig .tc := ⟨.hbm, 104, rfl⟩
abbrev main_call1_v1 : Ref sig .tc := ⟨.hbm, 105, rfl⟩
abbrev main_v71 : Ref sig .tc := ⟨.hbm, 106, rfl⟩
abbrev main_cst : Ref sig .tc := ⟨.hbm, 107, rfl⟩
abbrev main_v72 : Ref sig .tc := ⟨.hbm, 108, rfl⟩
abbrev main_c_22 : Ref sig .tc := ⟨.hbm, 109, rfl⟩
abbrev main_v73 : Ref sig .tc := ⟨.hbm, 110, rfl⟩
abbrev main_v74 : Ref sig .tc := ⟨.hbm, 111, rfl⟩
abbrev main_c_23 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_24 : Ref sig .tc := ⟨.hbm, 119, rfl⟩
abbrev main_v81 : Ref sig .tc := ⟨.hbm, 120, rfl⟩
abbrev main_v82 : Ref sig .tc := ⟨.hbm, 121, rfl⟩
abbrev main_c_25 : Ref sig .tc := ⟨.hbm, 122, rfl⟩
abbrev main_v83 : Ref sig .tc := ⟨.hbm, 123, rfl⟩
abbrev main_v84 : Ref sig .tc := ⟨.hbm, 124, rfl⟩
abbrev main_c_26 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_27 : Ref sig .tc := ⟨.hbm, 132, rfl⟩
abbrev main_v91 : Ref sig .tc := ⟨.hbm, 133, rfl⟩
abbrev main_v92 : Ref sig .tc := ⟨.hbm, 134, rfl⟩
abbrev main_c_28 : Ref sig .tc := ⟨.hbm, 135, rfl⟩
abbrev main_c_29 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v93 : Ref sig .tc := ⟨.hbm, 142, rfl⟩
abbrev main_c_30 : Ref sig .tc := ⟨.hbm, 143, rfl⟩
abbrev main_v94 : Ref sig .tc := ⟨.hbm, 144, rfl⟩
abbrev main_v95 : Ref sig .tc := ⟨.hbm, 145, rfl⟩
abbrev main_c_31 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_32 : Ref sig .tc := ⟨.hbm, 152, rfl⟩
abbrev main_call3_v0 : Ref sig .tc := ⟨.hbm, 153, rfl⟩
abbrev main_call3_v1 : Ref sig .tc := ⟨.hbm, 154, rfl⟩
abbrev main_v101 : Ref sig .tc := ⟨.hbm, 155, rfl⟩
abbrev main_c_33 : Ref sig .tc := ⟨.hbm, 156, rfl⟩
abbrev main_call4_v0 : Ref sig .tc := ⟨.hbm, 157, rfl⟩
abbrev main_call4_v1 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_34 : Ref sig .tc := ⟨.hbm, 164, rfl⟩
abbrev main_v107 : Ref sig .tc := ⟨.hbm, 165, rfl⟩
abbrev main_v108 : Ref sig .tc := ⟨.hbm, 166, rfl⟩
abbrev main_c_35 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_c_36 : Ref sig .tc := ⟨.hbm, 173, rfl⟩
abbrev main_v114 : Ref sig .tc := ⟨.hbm, 174, rfl⟩
abbrev main_v115 : Ref sig .tc := ⟨.hbm, 175, rfl⟩
abbrev main_c_37 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_call5_call0_c : Ref sig .tc := ⟨.hbm, 184, rfl⟩
abbrev main_call5_call0_v0 : Ref sig .tc := ⟨.hbm, 185, rfl⟩
abbrev main_v123 : Ref sig .tc := ⟨.hbm, 186, rfl⟩
abbrev main_c_38 : Ref sig .tc := ⟨.hbm, 187, rfl⟩
abbrev main_v124 : Ref sig .tc := ⟨.hbm, 188, rfl⟩
abbrev main_v125 : Ref sig .tc := ⟨.hbm, 189, rfl⟩
abbrev main_c_39 : Ref sig .tc := ⟨.hbm, 190, rfl⟩
abbrev main_call6_v0 : Ref sig .tc := ⟨.hbm, 191, rfl⟩
abbrev main_call6_v1 : Ref sig .tc := ⟨.hbm, 192, rfl⟩
abbrev main_v126 : Ref sig .tc := ⟨.hbm, 193, rfl⟩
abbrev main_c_40 : Ref sig .tc := ⟨.hbm, 194, rfl⟩
abbrev main_v127 : Ref sig .tc := ⟨.hbm, 195, rfl⟩
abbrev main_v128 : Ref sig .tc := ⟨.hbm, 196, rfl⟩
abbrev main_c_41 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_c_42 : Ref sig .tc := ⟨.hbm, 203, rfl⟩
abbrev main_v134 : Ref sig .tc := ⟨.hbm, 204, rfl⟩
abbrev main_v135 : Ref sig .tc := ⟨.hbm, 205, rfl⟩
abbrev main_c_43 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_c_44 : Ref sig .tc := ⟨.hbm, 215, rfl⟩
abbrev main_v144 : Ref sig .tc := ⟨.hbm, 216, rfl⟩
abbrev main_c_45 : Ref sig .tc := ⟨.hbm, 217, rfl⟩
abbrev main_v145 : Ref sig .tc := ⟨.hbm, 218, rfl⟩
abbrev main_v146 : Ref sig .tc := ⟨.hbm, 219, rfl⟩
abbrev main_c_46 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_cst_47 : Ref sig .tc := ⟨.hbm, 228, rfl⟩
abbrev main_v154 : Ref sig .tc := ⟨.hbm, 229, rfl⟩
abbrev main_c_48 : Ref sig .tc := ⟨.hbm, 230, rfl⟩
abbrev main_v155 : Ref sig .tc := ⟨.hbm, 231, rfl⟩
abbrev main_v156 : Ref sig .tc := ⟨.hbm, 232, rfl⟩
abbrev main_c_49 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_c_50 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_c_51 : Ref sig .tc := ⟨.hbm, 246, rfl⟩
abbrev main_v168 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S500000 : S_.BroadcastsInDim S500000 (![] : Fin 0 → Fin S500000.rank)
  bcast_S_S300000 : S_.BroadcastsInDim S300000 (![] : Fin 0 → Fin S300000.rank)
  bcast_S300000_S300000x1_0 : S300000.BroadcastsInDim S300000x1 (![0] : Fin 1 → Fin S300000x1.rank)
  natLt_1_32 : 1 < 32
  shapeCasts_S500000_S500000x1 : S500000.ShapeCasts S500000x1
  bitsLt_bf16_f32 : FTy.bits .bf16 < FTy.bits .f32
  bcast_S500000_S500000x1_0 : S500000.BroadcastsInDim S500000x1 (![0] : Fin 1 → Fin S500000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bcast_S_S_ : S_.BroadcastsInDim S_ (![] : Fin 0 → Fin S_.rank)
  reduceWindows_S500000_S500000_w500000s1p499999_0 : S500000.ReduceWindows (![500000] : Fin 1 → Nat) ![1] ![499999] ![0] S500000
  h_S_ : 0 < S_.numel
  bcast_S_S600001x128 : S_.BroadcastsInDim S600001x128 (![] : Fin 0 → Fin S600001x128.rank)
  slices_S600001x128_S600000x128_0_0 : S600001x128.Slices ![0, 0] S600000x128
  bcast_S_S600001 : S_.BroadcastsInDim S600001 (![] : Fin 0 → Fin S600001.rank)
  slices_S600001_S600000_0 : S600001.Slices ![0] S600000
  bcast_S_S600000 : S_.BroadcastsInDim S600000 (![] : Fin 0 → Fin S600000.rank)
  bcast_S600000_S600000x1_0 : S600000.BroadcastsInDim S600000x1 (![0] : Fin 1 → Fin S600000x1.rank)
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  reduceWindows_S8000000_S8000000_w8000000s1p7999999_0 : S8000000.ReduceWindows (![8000000] : Fin 1 → Nat) ![1] ![7999999] ![0] S8000000
  concatenates_S8000000x1_S8000000x1_S8000000x2_d1 : Shape.Concatenates [S8000000x1, S8000000x1] S8000000x2 1
  bcast_S_S8000001x2 : S_.BroadcastsInDim S8000001x2 (![] : Fin 0 → Fin S8000001x2.rank)
  slices_S8000001x2_S8000000x2_0_0 : S8000001x2.Slices ![0, 0] S8000000x2
  transposes_S8000000x2_S2x8000000_1_0 : S8000000x2.Transposes [1, 0] S2x8000000
  bcast_S_S8000001 : S_.BroadcastsInDim S8000001 (![] : Fin 0 → Fin S8000001.rank)
  slices_S8000001_S8000000_0 : S8000001.Slices ![0] S8000000
  slices_S500000_S1_499999 : S500000.Slices ![499999] S1
  shapeCasts_S1_S_ : S1.ShapeCasts S_
  slices_S8000000_S1_7999999 : S8000000.Slices ![7999999] S1
  scatter_S500000_S300000x1_S300000_n_0_0_1_wf : ScatterDims.WF S500000 S300000x1 S300000 [] [0] [0] 1
  gather_S300000x128_S500000x1_S500000x128_1_0_n_n_0_1_1128_wf : GatherDims.WF S300000x128 S500000x1 S500000x128 [1] [0] [] [0] [] 1 ![1, 128]
  scatter_S600001x128_S500000x1_S500000x128_1_0_0_1_wf : ScatterDims.WF S600001x128 S500000x1 S500000x128 [1] [0] [0] 1
  scatter_S600001_S500000x1_S500000_n_0_0_1_wf : ScatterDims.WF S600001 S500000x1 S500000 [] [0] [0] 1
  gather_S500000_S600000x1_S600000_n_0_n_n_0_1_1_wf : GatherDims.WF S500000 S600000x1 S600000 [] [0] [] [0] [] 1 ![1]
  gather_S500000_S8000000x1_S8000000_n_0_n_n_0_1_1_wf : GatherDims.WF S500000 S8000000x1 S8000000 [] [0] [] [0] [] 1 ![1]
  scatter_S8000001x2_S8000000x1_S8000000x2_1_0_0_1_wf : ScatterDims.WF S8000001x2 S8000000x1 S8000000x2 [1] [0] [0] 1
  scatter_S8000001_S8000000x1_S8000000_n_0_0_1_wf : ScatterDims.WF S8000001 S8000000x1 S8000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .bf16 = 32 ∨ (Rect.block (s := S500000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S500000x1.size a
  hwx0_3 : ∀ i : grid0.Coords, EltTy.bits .i32 = 32 ∨ (Rect.block (s := S500000x1) S4000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S500000x128.size a
  hwx0_4 : ∀ i : grid0.Coords, EltTy.bits .f32 = 32 ∨ (Rect.block (s := S500000x128) S4000x128.size (cc0_transform_4 i) (hinb0_4 i)).WholeWords (EltTy.packing .f32)

variable [Facts₀]

def scatter_S500000_S300000x1_S300000_n_0_0_1 : ScatterDims S500000 S300000x1 S300000 where
  updateWindowDims := []
  insertedWindowDims := [0]
  scatterDimsToOperandDims := [0]
  indexVectorDim := 1
  wf := scatter_S500000_S300000x1_S300000_n_0_0_1_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def scatter_S600001x128_S500000x1_S500000x128_1_0_0_1 : ScatterDims S600001x128 S500000x1 S500000x128 where
  updateWindowDims := [1]
  insertedWindowDims := [0]
  scatterDimsToOperandDims := [0]
  indexVectorDim := 1
  wf := scatter_S600001x128_S500000x1_S500000x128_1_0_0_1_wf
def scatter_S600001_S500000x1_S500000_n_0_0_1 : ScatterDims S600001 S500000x1 S500000 where
  updateWindowDims := []
  insertedWindowDims := [0]
  scatterDimsToOperandDims := [0]
  indexVectorDim := 1
  wf := scatter_S600001_S500000x1_S500000_n_0_0_1_wf
def gather_S500000_S600000x1_S600000_n_0_n_n_0_1_1 : GatherDims S500000 S600000x1 S600000 where
  offsetDims := []
  collapsedSliceDims := [0]
  operandBatchingDims := []
  startIndicesBatchingDims := []
  startIndexMap := [0]
  indexVectorDim := 1
  sliceSizes := ![1]
  wf := gather_S500000_S600000x1_S600000_n_0_n_n_0_1_1_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def scatter_S8000001x2_S8000000x1_S8000000x2_1_0_0_1 : ScatterDims S8000001x2 S8000000x1 S8000000x2 where
  updateWindowDims := [1]
  insertedWindowDims := [0]
  scatterDimsToOperandDims := [0]
  indexVectorDim := 1
  wf := scatter_S8000001x2_S8000000x1_S8000000x2_1_0_0_1_wf
def scatter_S8000001_S8000000x1_S8000000_n_0_0_1 : ScatterDims S8000001 S8000000x1 S8000000 where
  updateWindowDims := []
  insertedWindowDims := [0]
  scatterDimsToOperandDims := [0]
  indexVectorDim := 1
  wf := scatter_S8000001_S8000000x1_S8000000_n_0_0_1_wf

abbrev win0_0 : Pipeline.Window sig grid0 :=
  Pipeline.Window.ofSpec (Memref.whole main_v51) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v66) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S300000 : Shape := ⟨1, ![300000]⟩
abbrev S300000x128 : Shape := ⟨2, ![300000, 128]⟩
abbrev S500000 : Shape := ⟨1, ![500000]⟩
abbrev S2x8000000 : Shape := ⟨2, ![2, 8000000]⟩
abbrev S8000000 : Shape := ⟨1, ![8000000]⟩
abbrev S_ : Shape := ⟨0, ![]⟩
abbrev S300000x1 : Shape := ⟨2, ![300000, 1]⟩
abbrev S500000x1 : Shape := ⟨2, ![500000, 1]⟩
abbrev S500000x128 : Shape := ⟨2, ![500000, 128]⟩
abbrev S600001x128 : Shape := ⟨2, ![600001, 128]⟩
abbrev S600000x128 : Shape := ⟨2, ![600000, 128]⟩
abbrev S600001 : Shape := ⟨1, ![600001]⟩
abbrev S600000 : Shape := ⟨1, ![600000]⟩
abbrev S600000x1 : Shape := ⟨2, ![600000, 1]⟩
abbrev S1x8000000 : Shape := ⟨2, ![1, 8000000]⟩
abbrev S8000000x1 : Shape := ⟨2, ![8000000, 1]⟩
abbrev S8000000x2 : Shape := ⟨2, ![8000000, 2]⟩
abbrev S8000001x2 : Shape := ⟨2, ![8000001, 2]⟩
abbrev S8000001 : Shape := ⟨1, ![8000001]⟩

abbrev nBuf : Space → Nat
  | .hbm => 247
  | .vmem => 0
  | .smem => 0
  | _ => 0

abbrev hbmTy0_0 (i : Nat) : BufTy := match i % 128 with
  | 0 => ⟨S300000, .i32⟩
  | 1 => ⟨S300000, .i32⟩
  | 2 => ⟨S300000, .i32⟩
  | 3 => ⟨S300000x128, .f32⟩
  | 4 => ⟨S300000x128, .f32⟩
  | 5 => ⟨S500000, .i32⟩
  | 6 => ⟨S2x8000000, .i32⟩
  | 7 => ⟨S8000000, .f32⟩
  | 8 => ⟨S_, .i1⟩
  | 9 => ⟨S500000, .i1⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S_, .i1⟩
  | 19 => ⟨S300000, .i1⟩
  | 20 => ⟨S500000, .i1⟩
  | 21 => ⟨S_, .i1⟩
  | 22 => ⟨S500000, .i1⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S_, .i1⟩
  | 32 => ⟨S300000, .i1⟩
  | 33 => ⟨S500000, .i1⟩
  | 34 => ⟨S_, .i32⟩
  | 35 => ⟨S500000, .i32⟩
  | 36 => ⟨S300000, .i32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S500000, .i32⟩
  | 46 => ⟨S_, .i32⟩
  | 47 => ⟨S500000, .i32⟩
  | 48 => ⟨S300000, .i32⟩
  | 49 => ⟨S_, .i32⟩
  | 50 => ⟨S300000, .i32⟩
  | 51 => ⟨S300000, .i1⟩
  | 52 => ⟨S_, .i32⟩
  | 53 => ⟨S300000, .i32⟩
  | 54 => ⟨S300000, .i32⟩
  | 55 => ⟨S300000, .i32⟩
  | 56 => ⟨S300000x1, .i32⟩
  | 57 => ⟨S500000, .i32⟩
  | 58 => ⟨S500000, .i1⟩
  | 59 => ⟨S500000, .i1⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x128, .f32⟩
  | 87 => ⟨S500000x1, .i1⟩
  | 88 => ⟨S500000x128, .f32⟩
  | 89 => ⟨S_, .f32⟩
  | 90 => ⟨S500000x128, .f32⟩
  | 91 => ⟨S500000x128, .f32⟩
  | 92 => ⟨S500000x1, .i1⟩
  | 93 => ⟨S500000x128, .i1⟩
  | 94 => ⟨S500000x128, .f32⟩
  | 95 => ⟨S500000x128, .i1⟩
  | 96 => ⟨S500000x128, .f32⟩
  | 97 => ⟨S500000, .i32⟩
  | 98 => ⟨S_, .i32⟩
  | 99 => ⟨S_, .i32⟩
  | 100 => ⟨S500000, .i32⟩
  | 101 => ⟨S_, .i32⟩
  | 102 => ⟨S500000, .i32⟩
  | 103 => ⟨S500000, .i32⟩
  | 104 => ⟨S_, .i32⟩
  | 105 => ⟨S_, .i32⟩
  | 106 => ⟨S500000, .i32⟩
  | 107 => ⟨S500000, .i32⟩
  | 108 => ⟨S_, .f32⟩
  | 109 => ⟨S600001x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S600001x128, .f32⟩
  | 119 => ⟨S600000x128, .f32⟩
  | 120 => ⟨S_, .i32⟩
  | 121 => ⟨S600001, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S300000, .i32⟩

abbrev hbmTy0_1 (i : Nat) : BufTy := match i % 128 with
  | 0 => ⟨S500000, .i32⟩
  | 1 => ⟨S500000, .i32⟩
  | 2 => ⟨S500000x1, .i32⟩
  | 3 => ⟨S600001, .i32⟩
  | 4 => ⟨S600000, .i32⟩
  | 5 => ⟨S_, .i32⟩
  | 6 => ⟨S600000, .i32⟩
  | 7 => ⟨S600000, .i1⟩
  | 8 => ⟨S_, .i32⟩
  | 9 => ⟨S_, .i32⟩
  | 10 => ⟨S_, .i32⟩
  | 11 => ⟨S600000, .i32⟩
  | 12 => ⟨S600000, .i32⟩
  | 13 => ⟨S_, .i32⟩
  | 14 => ⟨S600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .i32⟩
  | 25 => ⟨S_, .i32⟩
  | 26 => ⟨S_, .i32⟩
  | 27 => ⟨S600000, .i32⟩
  | 28 => ⟨S600000, .i32⟩
  | 29 => ⟨S_, .i32⟩
  | 30 => ⟨S_, .i32⟩
  | 31 => ⟨S500000, .i32⟩
  | 32 => ⟨S500000, .i32⟩
  | 33 => ⟨S1x8000000, .i32⟩
  | 34 => ⟨S8000000, .i32⟩
  | 35 => ⟨S1x8000000, .i32⟩
  | 36 => ⟨S8000000, .i32⟩
  | 37 => ⟨S_, .i32⟩
  | 38 => ⟨S8000000, .i32⟩
  | 39 => ⟨S8000000, .i1⟩
  | 40 => ⟨S_, .i32⟩
  | 41 => ⟨S8000000, .i32⟩
  | 42 => ⟨S8000000, .i32⟩
  | 43 => ⟨S8000000, .i32⟩
  | 44 => ⟨S8000000x1, .i32⟩
  | 45 => ⟨S8000000, .i1⟩
  | 46 => ⟨S_, .i32⟩
  | 47 => ⟨S8000000, .i32⟩
  | 48 => ⟨S8000000, .i1⟩
  | 49 => ⟨S_, .i32⟩
  | 50 => ⟨S8000000, .i32⟩
  | 51 => ⟨S8000000, .i32⟩
  | 52 => ⟨S8000000, .i32⟩
  | 53 => ⟨S8000000x1, .i32⟩
  | 54 => ⟨S8000000, .i1⟩
  | 55 => ⟨S8000000, .i1⟩
  | 56 => ⟨S8000000, .i32⟩
  | 57 => ⟨S_, .i32⟩
  | 58 => ⟨S_, .i32⟩
  | 59 => ⟨S8000000, .i32⟩
  | 60 => ⟨S_, .i32⟩
  | 61 => ⟨S8000000, .i32⟩
  | 62 => ⟨S8000000, .i32⟩
  | 63 => ⟨S_, .i32⟩
  | 64 => ⟨S_, .i32⟩
  | 65 => ⟨S8000000, .i32⟩
  | 66 => ⟨S8000000, .i32⟩
  | 67 => ⟨S_, .i32⟩
  | 68 => ⟨S8000000, .i32⟩
  | 69 => ⟨S8000000, .i1⟩
  | 70 => ⟨S_, .i32⟩
  | 71 => ⟨S8000000, .i32⟩
  | 72 => ⟨S8000000, .i32⟩
  | 73 => ⟨S8000000, .i32⟩
  | 74 => ⟨S8000000x1, .i32⟩
  | 75 => ⟨S8000000, .i32⟩
  | 76 => ⟨S_, .i32⟩
  | 77 => ⟨S8000000, .i32⟩
  | 78 => ⟨S8000000, .i1⟩
  | 79 => ⟨S_, .i32⟩
  | 80 => ⟨S8000000, .i32⟩
  | 81 => ⟨S8000000, .i32⟩
  | 82 => ⟨S8000000, .i32⟩
  | 83 => ⟨S8000000x1, .i32⟩
  | 84 => ⟨S8000000, .i32⟩
  | 85 => ⟨S8000000x1, .i32⟩
  | 86 => ⟨S8000000x1, .i32⟩
  | 87 => ⟨S8000000x2, .i32⟩
  | 88 => ⟨S_, .i32⟩
  | 89 => ⟨S8000001x2, .i32⟩
  | 90 => ⟨S_, .i32⟩
  | 91 => ⟨S8000000, .i32⟩
  | 92 => ⟨S8000000, .i1⟩
  | 93 => ⟨S_, .i32⟩
  | 94 => ⟨S8000000, .i32⟩
  | 95 => ⟨S8000000, .i32⟩
  | 96 => ⟨S8000000, .i32⟩
  | 97 => ⟨S8000000x1, .i32⟩
  | 98 => ⟨S8000001x2, .i32⟩
  | 99 => ⟨S8000000x2, .i32⟩
  | 100 => ⟨S2x8000000, .i32⟩
  | 101 => ⟨S_, .f32⟩
  | 102 => ⟨S8000001, .f32⟩
  | 103 => ⟨S_, .i32⟩
  | 104 => ⟨S8000000, .i32⟩
  | 105 => ⟨S8000000, .i1⟩
  | 106 => ⟨S_, .i32⟩
  | 107 => ⟨S8000000, .i32⟩
  | 108 => ⟨S8000000, .i32⟩
  | 109 => ⟨S8000000, .i32⟩
  | 110 => ⟨S8000000x1, .i32⟩
  | 111 => ⟨S8000001, .f32⟩
  | 112 => ⟨S8000000, .f32⟩
  | 113 => ⟨S500000, .i32⟩
  | 114 => ⟨S_, .i32⟩
  | 115 => ⟨S_, .i32⟩
  | 116 => ⟨S8000000, .i32⟩
  | 117 => ⟨S_, .i32⟩
  | 118 => ⟨S_, .i32⟩
  | _ => ⟨S300000, .i32⟩

abbrev hbmTy (i : Nat) : BufTy := match i / 128 with
  | 0 => hbmTy0_0 i
  | 1 => hbmTy0_1 i
  | _ => ⟨S300000, .i32⟩

abbrev bufTy : (tb : Table) → Fin (tcTables nBuf tb) → BufTy
  | .hbm, ⟨i, _⟩ => hbmTy i
  | _, _ => ⟨S300000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_c_7 : Ref sig .tc := ⟨.hbm, 34, rfl⟩
abbrev main_v18 : Ref sig .tc := ⟨.hbm, 35, rfl⟩
abbrev main_v19 : Ref sig .tc := ⟨.hbm, 36, rfl⟩
abbrev main_c_8 : Ref sig .tc := ⟨.hbm, 37, rfl⟩
abbrev main_v20 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_10 : Ref sig .tc := ⟨.hbm, 46, rfl⟩
abbrev main_v27 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_v30 : Ref sig .tc := ⟨.hbm, 51, rfl⟩
abbrev main_c_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_13 : Ref sig .tc := ⟨.hbm, 60, rfl⟩
abbrev main_v38 : Ref sig .tc := ⟨.hbm, 61, rfl⟩
abbrev main_v39 : Ref sig .tc := ⟨.hbm, 62, rfl⟩
abbrev main_c_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_15 : Ref sig .tc := ⟨.hbm, 69, rfl⟩
abbrev main_v45 : Ref sig .tc := ⟨.hbm, 70, rfl⟩
abbrev main_v46 : Ref sig .tc := ⟨.hbm, 71, rfl⟩
abbrev main_c_16 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_17 : Ref sig .tc := ⟨.hbm, 78, rfl⟩
abbrev main_v52 : Ref sig .tc := ⟨.hbm, 79, rfl⟩
abbrev main_v53 : Ref sig .tc := ⟨.hbm, 80, rfl⟩
abbrev main_c_18 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call0_v0 : Ref sig .tc := ⟨.hbm, 93, rfl⟩
abbrev main_v64 : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_call2_call0_c : Ref sig .tc := ⟨.hbm, 98, rfl⟩
abbrev main_call2_call0_v0 : Ref sig .tc := ⟨.hbm, 99, rfl⟩
abbrev main_v67 : Ref sig .tc := ⟨.hbm, 100, rfl⟩
abbrev main_c_19 : Ref sig .tc := ⟨.hbm, 101, rfl⟩
abbrev main_v68 : Ref sig .tc := ⟨.hbm, 102, rfl⟩
abbrev main_v69 : Ref sig .tc := ⟨.hbm, 103, rfl⟩
abbrev main_c_20 : Ref sig .tc := ⟨.hbm, 104, rfl⟩
abbrev main_call3_v0 : Ref sig .tc := ⟨.hbm, 105, rfl⟩
abbrev main_call3_v1 : Ref sig .tc := ⟨.hbm, 106, rfl⟩
abbrev main_v70 : Ref sig .tc := ⟨.hbm, 107, rfl⟩
abbrev main_cst_21 : Ref sig .tc := ⟨.hbm, 108, rfl⟩
abbrev main_v71 : Ref sig .tc := ⟨.hbm, 109, rfl⟩
abbrev main_c_22 : Ref sig .tc := ⟨.hbm, 110, rfl⟩
abbrev main_v72 : Ref sig .tc := ⟨.hbm, 111, rfl⟩
abbrev main_v73 : Ref sig .tc := ⟨.hbm, 112, rfl⟩
abbrev main_c_23 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_24 : Ref sig .tc := ⟨.hbm, 120, rfl⟩
abbrev main_v80 : Ref sig .tc := ⟨.hbm, 121, rfl⟩
abbrev main_v81 : Ref sig .tc := ⟨.hbm, 122, rfl⟩
abbrev main_c_25 : Ref sig .tc := ⟨.hbm, 123, rfl⟩
abbrev main_v82 : Ref sig .tc := ⟨.hbm, 124, rfl⟩
abbrev main_v83 : Ref sig .tc := ⟨.hbm, 125, rfl⟩
abbrev main_c_26 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_27 : Ref sig .tc := ⟨.hbm, 133, rfl⟩
abbrev main_v90 : Ref sig .tc := ⟨.hbm, 134, rfl⟩
abbrev main_v91 : Ref sig .tc := ⟨.hbm, 135, rfl⟩
abbrev main_c_28 : Ref sig .tc := ⟨.hbm, 136, rfl⟩
abbrev main_c_29 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_v92 : Ref sig .tc := ⟨.hbm, 143, rfl⟩
abbrev main_c_30 : Ref sig .tc := ⟨.hbm, 144, rfl⟩
abbrev main_v93 : Ref sig .tc := ⟨.hbm, 145, rfl⟩
abbrev main_v94 : Ref sig .tc := ⟨.hbm, 146, rfl⟩
abbrev main_c_31 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_32 : Ref sig .tc := ⟨.hbm, 153, rfl⟩
abbrev main_call5_v0 : Ref sig .tc := ⟨.hbm, 154, rfl⟩
abbrev main_call5_v1 : Ref sig .tc := ⟨.hbm, 155, rfl⟩
abbrev main_v100 : Ref sig .tc := ⟨.hbm, 156, rfl⟩
abbrev main_c_33 : Ref sig .tc := ⟨.hbm, 157, rfl⟩
abbrev main_call6_v0 : Ref sig .tc := ⟨.hbm, 158, rfl⟩
abbrev main_call6_v1 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_c_34 : Ref sig .tc := ⟨.hbm, 165, rfl⟩
abbrev main_v106 : Ref sig .tc := ⟨.hbm, 166, rfl⟩
abbrev main_v107 : Ref sig .tc := ⟨.hbm, 167, rfl⟩
abbrev main_c_35 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_36 : Ref sig .tc := ⟨.hbm, 174, rfl⟩
abbrev main_v113 : Ref sig .tc := ⟨.hbm, 175, rfl⟩
abbrev main_v114 : Ref sig .tc := ⟨.hbm, 176, rfl⟩
abbrev main_c_37 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_call7_call0_c : Ref sig .tc := ⟨.hbm, 185, rfl⟩
abbrev main_call7_call0_v0 : Ref sig .tc := ⟨.hbm, 186, rfl⟩
abbrev main_v122 : Ref sig .tc := ⟨.hbm, 187, rfl⟩
abbrev main_c_38 : Ref sig .tc := ⟨.hbm, 188, rfl⟩
abbrev main_v123 : Ref sig .tc := ⟨.hbm, 189, rfl⟩
abbrev main_v124 : Ref sig .tc := ⟨.hbm, 190, rfl⟩
abbrev main_c_39 : Ref sig .tc := ⟨.hbm, 191, rfl⟩
abbrev main_call8_v0 : Ref sig .tc := ⟨.hbm, 192, rfl⟩
abbrev main_call8_v1 : Ref sig .tc := ⟨.hbm, 193, rfl⟩
abbrev main_v125 : Ref sig .tc := ⟨.hbm, 194, rfl⟩
abbrev main_c_40 : Ref sig .tc := ⟨.hbm, 195, rfl⟩
abbrev main_v126 : Ref sig .tc := ⟨.hbm, 196, rfl⟩
abbrev main_v127 : Ref sig .tc := ⟨.hbm, 197, rfl⟩
abbrev main_c_41 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_c_42 : Ref sig .tc := ⟨.hbm, 204, rfl⟩
abbrev main_v133 : Ref sig .tc := ⟨.hbm, 205, rfl⟩
abbrev main_v134 : Ref sig .tc := ⟨.hbm, 206, rfl⟩
abbrev main_c_43 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_c_44 : Ref sig .tc := ⟨.hbm, 216, rfl⟩
abbrev main_v143 : Ref sig .tc := ⟨.hbm, 217, rfl⟩
abbrev main_c_45 : Ref sig .tc := ⟨.hbm, 218, rfl⟩
abbrev main_v144 : Ref sig .tc := ⟨.hbm, 219, rfl⟩
abbrev main_v145 : Ref sig .tc := ⟨.hbm, 220, rfl⟩
abbrev main_c_46 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_cst_47 : Ref sig .tc := ⟨.hbm, 229, rfl⟩
abbrev main_v153 : Ref sig .tc := ⟨.hbm, 230, rfl⟩
abbrev main_c_48 : Ref sig .tc := ⟨.hbm, 231, rfl⟩
abbrev main_v154 : Ref sig .tc := ⟨.hbm, 232, rfl⟩
abbrev main_v155 : Ref sig .tc := ⟨.hbm, 233, rfl⟩
abbrev main_c_49 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_c_50 : Ref sig .tc := ⟨.hbm, 242, rfl⟩
abbrev main_v163 : Ref sig .tc := ⟨.hbm, 243, rfl⟩
abbrev main_v164 : Ref sig .tc := ⟨.hbm, 244, rfl⟩
abbrev main_c_51 : Ref sig .tc := ⟨.hbm, 245, rfl⟩
abbrev main_v165 : Ref sig .tc := ⟨.hbm, 246, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S300000 : S_.BroadcastsInDim S300000 (![] : Fin 0 → Fin S300000.rank)
  bcast_S300000_S300000x1_0 : S300000.BroadcastsInDim S300000x1 (![0] : Fin 1 → Fin S300000x1.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  natLt_1_32 : 1 < 32
  bcast_S_S_ : S_.BroadcastsInDim S_ (![] : Fin 0 → Fin S_.rank)
  reduceWindows_S500000_S500000_w500000s1p499999_0 : S500000.ReduceWindows (![500000] : Fin 1 → Nat) ![1] ![499999] ![0] S500000
  h_S_ : 0 < S_.numel
  bcast_S_S600001x128 : S_.BroadcastsInDim S600001x128 (![] : Fin 0 → Fin S600001x128.rank)
  slices_S600001x128_S600000x128_0_0 : S600001x128.Slices ![0, 0] S600000x128
  bcast_S_S600001 : S_.BroadcastsInDim S600001 (![] : Fin 0 → Fin S600001.rank)
  slices_S600001_S600000_0 : S600001.Slices ![0] S600000
  bcast_S_S600000 : S_.BroadcastsInDim S600000 (![] : Fin 0 → Fin S600000.rank)
  bcast_S600000_S600000x1_0 : S600000.BroadcastsInDim S600000x1 (![0] : Fin 1 → Fin S600000x1.rank)
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  reduceWindows_S8000000_S8000000_w8000000s1p7999999_0 : S8000000.ReduceWindows (![8000000] : Fin 1 → Nat) ![1] ![7999999] ![0] S8000000
  concatenates_S8000000x1_S8000000x1_S8000000x2_d1 : Shape.Concatenates [S8000000x1, S8000000x1] S8000000x2 1
  bcast_S_S8000001x2 : S_.BroadcastsInDim S8000001x2 (![] : Fin 0 → Fin S8000001x2.rank)
  slices_S8000001x2_S8000000x2_0_0 : S8000001x2.Slices ![0, 0] S8000000x2
  transposes_S8000000x2_S2x8000000_1_0 : S8000000x2.Transposes [1, 0] S2x8000000
  bcast_S_S8000001 : S_.BroadcastsInDim S8000001 (![] : Fin 0 → Fin S8000001.rank)
  slices_S8000001_S8000000_0 : S8000001.Slices ![0] S8000000
  reducesTo_S500000_S_d0 : S500000.ReducesTo [0] S_
  reducesTo_S8000000_S_d0 : S8000000.ReducesTo [0] S_
  scatter_S500000_S300000x1_S300000_n_0_0_1_wf : ScatterDims.WF S500000 S300000x1 S300000 [] [0] [0] 1
  gather_S300000x128_S500000x1_S500000x128_1_0_n_n_0_1_1128_wf : GatherDims.WF S300000x128 S500000x1 S500000x128 [1] [0] [] [0] [] 1 ![1, 128]
  scatter_S600001x128_S500000x1_S500000x128_1_0_0_1_wf : ScatterDims.WF S600001x128 S500000x1 S500000x128 [1] [0] [0] 1
  scatter_S600001_S500000x1_S500000_n_0_0_1_wf : ScatterDims.WF S600001 S500000x1 S500000 [] [0] [0] 1
  gather_S500000_S600000x1_S600000_n_0_n_n_0_1_1_wf : GatherDims.WF S500000 S600000x1 S600000 [] [0] [] [0] [] 1 ![1]
  gather_S500000_S8000000x1_S8000000_n_0_n_n_0_1_1_wf : GatherDims.WF S500000 S8000000x1 S8000000 [] [0] [] [0] [] 1 ![1]
  scatter_S8000001x2_S8000000x1_S8000000x2_1_0_0_1_wf : ScatterDims.WF S8000001x2 S8000000x1 S8000000x2 [1] [0] [0] 1
  scatter_S8000001_S8000000x1_S8000000_n_0_0_1_wf : ScatterDims.WF S8000001 S8000000x1 S8000000 [] [0] [0] 1

variable [Facts₀]

def scatter_S500000_S300000x1_S300000_n_0_0_1 : ScatterDims S500000 S300000x1 S300000 where
  updateWindowDims := []
  insertedWindowDims := [0]
  scatterDimsToOperandDims := [0]
  indexVectorDim := 1
  wf := scatter_S500000_S300000x1_S300000_n_0_0_1_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def scatter_S600001x128_S500000x1_S500000x128_1_0_0_1 : ScatterDims S600001x128 S500000x1 S500000x128 where
  updateWindowDims := [1]
  insertedWindowDims := [0]
  scatterDimsToOperandDims := [0]
  indexVectorDim := 1
  wf := scatter_S600001x128_S500000x1_S500000x128_1_0_0_1_wf
def scatter_S600001_S500000x1_S500000_n_0_0_1 : ScatterDims S600001 S500000x1 S500000 where
  updateWindowDims := []
  insertedWindowDims := [0]
  scatterDimsToOperandDims := [0]
  indexVectorDim := 1
  wf := scatter_S600001_S500000x1_S500000_n_0_0_1_wf
def gather_S500000_S600000x1_S600000_n_0_n_n_0_1_1 : GatherDims S500000 S600000x1 S600000 where
  offsetDims := []
  collapsedSliceDims := [0]
  operandBatchingDims := []
  startIndicesBatchingDims := []
  startIndexMap := [0]
  indexVectorDim := 1
  sliceSizes := ![1]
  wf := gather_S500000_S600000x1_S600000_n_0_n_n_0_1_1_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def scatter_S8000001x2_S8000000x1_S8000000x2_1_0_0_1 : ScatterDims S8000001x2 S8000000x1 S8000000x2 where
  updateWindowDims := [1]
  insertedWindowDims := [0]
  scatterDimsToOperandDims := [0]
  indexVectorDim := 1
  wf := scatter_S8000001x2_S8000000x1_S8000000x2_1_0_0_1_wf
def scatter_S8000001_S8000000x1_S8000000_n_0_0_1 : ScatterDims S8000001 S8000000x1 S8000000 where
  updateWindowDims := []
  insertedWindowDims := [0]
  scatterDimsToOperandDims := [0]
  indexVectorDim := 1
  wf := scatter_S8000001_S8000000x1_S8000000_n_0_0_1_wf

class Facts : Prop extends Facts₀ where

variable [Facts]
-- ==== Proof.KDataI.lean ====
/-
  The data of the one pallas_call of `Cert.KernelIdeal`'s @main, at any float instance.

  @main is 87 host operations, the call, and 152 host operations in fifteen stretches (a stretch ends
  where a module-local function is entered or left).  The call blends three gathered row tables
  g1, g2', g2 : [500000, 128] under a per-row code column [500000, 1] into one array [500000, 128],
  125 blocks of 4000 rows each, one per grid point.

  Here: the device's buffer contents when the call is entered (`V0`, `V`), the block of window `w`
  at grid point `t` (`iblk`), what the body leaves in the output's staging buffer as a function of the four
  input blocks (`out4`: one store of the whole block, its value the body's arithmetic `k0_pay1` of the four
  loads), and the per-point record of the run (`dats`): every input buffer still holds its block, the
  output buffer holds `out4` of the four blocks.
-/
import proofs.«138900_j62680752717907_2_alg».proof.Proof.Gen.KernelIdeal.Launch
import proofs.«138900_j62680752717907_2_alg».proof.Proof.Gen.KernelIdeal.Skeleton
import proofs.«138900_j62680752717907_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The host operations after the call, stretch by stretch, in program order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14]

/-- Core `c`'s buffer contents when the call is entered: the 87 host operations before it applied, in order, to
    the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`: rows 4000 t … 4000 t + 3999 of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 4000 × 128 block, and the whole 4000 × 1 code column, as rectangles. -/
abbrev rFeat : Rect S4000x128 := Rect.unit (s := S4000x128) ![0, 0] S4000x128.size inb_S4000x128_S4000x128_0_0
abbrev rCode : Rect S4000x1 := Rect.unit (s := S4000x1) ![0, 0] S4000x1.size inb_S4000x1_S4000x1_0_0

/-- The output's staging buffer after the body, from the four input blocks (g1, g2', g2, code): one store of the
    whole block whose value is the body's arithmetic of the four whole-block loads. -/
def out4 (x0 x1 x2 : Vec F S4000x128 .bf16) (x3 : Vec F S4000x1 .i32) : Vec F S4000x128 .f32 :=
  View.canon [⟨rFeat, k0_pay1 (View.ld x3 rCode) (View.ld x0 rFeat) (View.ld x1 rFeat) (View.ld x2 rFeat)⟩]

/-- The one store covers the block. -/
theorem cover4 (p0 : Vec F S4000x128 .f32) (y : S4000x128.Idx) :
    ∃ pc ∈ ([⟨rFeat, p0⟩] : List (View.Piece (Elt F) S4000x128 .f32)), y ∈ pc.1.set :=
  View.cover_of_tiled [⟨rFeat, p0⟩] S4000x128.size (by rfl) y

/-- The run's per-point record on core `c`: the arrays as the call finds them; after the body at point `t` each
    input buffer at its block and the output buffer at `out4` of the four blocks; nothing else of the core is
    touched, nothing is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

/-- The record's arrays are the contents at the call's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

end Cert.KernelIdeal.Hand

end
-- ==== Proof.KTailI.lean ====
/-
  @main of `Cert.KernelIdeal` around its one pallas_call: the host operations before the call and the fifteen
  stretches of host operations after it.

  No host operation allocates a buffer; every operation after the call touches unscoped TensorCore buffers only;
  none of them writes one of the call's five arrays (g1, g2', g2, the code column, the blended output), and no
  host operation at all writes one of @main's eight arguments: each operation writes its own result buffer
  only, and that buffer is none of these.  So @main reduces to the call continued by the later stretches, and the
  eight argument arrays end as launched.
-/
import proofs.«138900_j62680752717907_2_alg».proof.Proof.KDataI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- Every stretch after the call: its operations touch TensorCore buffers only, -/
theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub⟩
/-- and allocate nothing. -/
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh⟩

/-! ## @main around the call -/

/-- @main is the host operations before the call, the call, and the fifteen later stretches: it reduces to the call
    continued by those stretches, the call entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## The buffers the host operations leave alone -/

/-- The call's five arrays and @main's eight arguments. -/
abbrev kept : List (Ref sig .tc) :=
  [main_v51, main_v58, main_v65, main_v42, main_v66,
   main_arg0, main_arg1, main_arg2, main_arg3, main_arg4, main_arg5, main_arg6, main_arg7]

/-- The eight arguments. -/
abbrev args : List (Ref sig .tc) :=
  [main_arg0, main_arg1, main_arg2, main_arg3, main_arg4, main_arg5, main_arg6, main_arg7]

set_option maxHeartbeats 4000000 in
/-- No host operation before the call writes an argument (each writes its own result buffer, which is no argument). -/
theorem hostOps0_keeps : ∀ r ∈ args, (hostOps0 : List (HloOp τ sig (Elt F))).Forall fun op => Proc.devRef .tc r ∉ op.writes := by
  intro r hr
  simp only [args, List.mem_cons, List.mem_nil_iff, or_false] at hr
  rcases hr with rfl | rfl | rfl | rfl | rfl | rfl | rfl | rfl
  all_goals
    simp only [hostOps0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_keeps : ∀ r ∈ kept, (hostOps1 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_1_keeps : ∀ r ∈ kept, (hostOps1_1 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_2_keeps : ∀ r ∈ kept, (hostOps1_2 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_3_keeps : ∀ r ∈ kept, (hostOps1_3 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_4_keeps : ∀ r ∈ kept, (hostOps1_4 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_5_keeps : ∀ r ∈ kept, (hostOps1_5 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_6_keeps : ∀ r ∈ kept, (hostOps1_6 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_7_keeps : ∀ r ∈ kept, (hostOps1_7 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_7, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_8_keeps : ∀ r ∈ kept, (hostOps1_8 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_8, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_9_keeps : ∀ r ∈ kept, (hostOps1_9 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_9, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_10_keeps : ∀ r ∈ kept, (hostOps1_10 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_10, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_11_keeps : ∀ r ∈ kept, (hostOps1_11 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_11, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_12_keeps : ∀ r ∈ kept, (hostOps1_12 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_12, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_13_keeps : ∀ r ∈ kept, (hostOps1_13 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_13, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_14_keeps : ∀ r ∈ kept, (hostOps1_14 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_14, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- So no operation after the call does. -/
theorem tail_keeps (r : Ref sig .tc) (hr : r ∈ kept) :
    (tailOps : List (List (HloOp τ sig (Elt F)))).Forall fun ops => ops.Forall fun op => Proc.devRef .tc r ∉ op.writes :=
  ⟨hostOps1_keeps r hr, hostOps1_1_keeps r hr, hostOps1_2_keeps r hr, hostOps1_3_keeps r hr, hostOps1_4_keeps r hr, hostOps1_5_keeps r hr, hostOps1_6_keeps r hr, hostOps1_7_keeps r hr, hostOps1_8_keeps r hr, hostOps1_9_keeps r hr, hostOps1_10_keeps r hr, hostOps1_11_keeps r hr, hostOps1_12_keeps r hr, hostOps1_13_keeps r hr, hostOps1_14_keeps r hr⟩

/-- Each array of the call is one of the kept buffers. -/
theorem arr_mem_kept (w : Fin 5) : Pipeline.arrRef spec0 w ∈ kept := by
  fin_cases w <;> decide

/-! ## The three side conditions on the stretches after the call -/

/-- They touch the call's arrays and the buffers that bypass the call only (each operation's buffers are unscoped
    TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- They write no array of the call. -/
theorem sfx_keeps : ∀ ops ∈ (tailOps : List (List (HloOp τ sig (Elt F)))), ∀ op ∈ ops,
    ∀ w, Proc.devRef .tc (Pipeline.arrRef spec0 w) ∉ op.writes :=
  fun ops hops op hop w =>
    (List.forall_iff_forall_mem.mp ((List.forall_iff_forall_mem.mp (tail_keeps _ (arr_mem_kept w))) ops hops)) op hop

/-! ## The arguments, at the call's entry and at @main's end -/

/-- An argument is as launched when the call is entered, -/
theorem V_arg (c : Dev nD) (r : Ref sig .tc) (hr : r ∈ args) : V m c r = m ((c : Thread nD τ).loc r) :=
  StableHlo.after_of_forall_not_mem (b := Proc.devRef .tc r) _ _ (List.forall_iff_forall_mem.mp (by
    simp only [List.flatten_cons, List.flatten_nil, List.append_nil]
    exact hostOps0_keeps r hr))

/-- and, being no array of the call, after the later stretches too. -/
theorem W_arg (c : Dev nD) (r : Ref sig .tc) (hr : r ∈ args) (hk : r ∈ kept) (hne : ∀ w, Pipeline.arrRef spec0 w ≠ r) :
    Pipeline.afterTail₀ cfgs (dats m) 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact (List.forall_iff_forall_mem.mp ((List.forall_iff_forall_mem.mp (tail_keeps r hk)) ops hops)) op hop'),
    Pipeline.withArrays_of_ne _ c (V0 m c) _ r hne]
  exact V_arg m c r hr

theorem V_main_arg0 (c : Dev nD) : V m c main_arg0 = m ((c : Thread nD τ).loc main_arg0) :=
  V_arg m c main_arg0 (by decide)
theorem W_main_arg0 (c : Dev nD) :
    Pipeline.afterTail₀ cfgs (dats m) 0 (V0 m) tailOps c main_arg0 = m ((c : Thread nD τ).loc main_arg0) :=
  W_arg m c main_arg0 (by decide) (by decide) (by decide)

theorem V_main_arg1 (c : Dev nD) : V m c main_arg1 = m ((c : Thread nD τ).loc main_arg1) :=
  V_arg m c main_arg1 (by decide)
theorem W_main_arg1 (c : Dev nD) :
    Pipeline.afterTail₀ cfgs (dats m) 0 (V0 m) tailOps c main_arg1 = m ((c : Thread nD τ).loc main_arg1) :=
  W_arg m c main_arg1 (by decide) (by decide) (by decide)

theorem V_main_arg2 (c : Dev nD) : V m c main_arg2 = m ((c : Thread nD τ).loc main_arg2) :=
  V_arg m c main_arg2 (by decide)
theorem W_main_arg2 (c : Dev nD) :
    Pipeline.afterTail₀ cfgs (dats m) 0 (V0 m) tailOps c main_arg2 = m ((c : Thread nD τ).loc main_arg2) :=
  W_arg m c main_arg2 (by decide) (by decide) (by decide)

theorem V_main_arg3 (c : Dev nD) : V m c main_arg3 = m ((c : Thread nD τ).loc main_arg3) :=
  V_arg m c main_arg3 (by decide)
theorem W_main_arg3 (c : Dev nD) :
    Pipeline.afterTail₀ cfgs (dats m) 0 (V0 m) tailOps c main_arg3 = m ((c : Thread nD τ).loc main_arg3) :=
  W_arg m c main_arg3 (by decide) (by decide) (by decide)

theorem V_main_arg4 (c : Dev nD) : V m c main_arg4 = m ((c : Thread nD τ).loc main_arg4) :=
  V_arg m c main_arg4 (by decide)
theorem W_main_arg4 (c : Dev nD) :
    Pipeline.afterTail₀ cfgs (dats m) 0 (V0 m) tailOps c main_arg4 = m ((c : Thread nD τ).loc main_arg4) :=
  W_arg m c main_arg4 (by decide) (by decide) (by decide)

theorem V_main_arg5 (c : Dev nD) : V m c main_arg5 = m ((c : Thread nD τ).loc main_arg5) :=
  V_arg m c main_arg5 (by decide)
theorem W_main_arg5 (c : Dev nD) :
    Pipeline.afterTail₀ cfgs (dats m) 0 (V0 m) tailOps c main_arg5 = m ((c : Thread nD τ).loc main_arg5) :=
  W_arg m c main_arg5 (by decide) (by decide) (by decide)

theorem V_main_arg6 (c : Dev nD) : V m c main_arg6 = m ((c : Thread nD τ).loc main_arg6) :=
  V_arg m c main_arg6 (by decide)
theorem W_main_arg6 (c : Dev nD) :
    Pipeline.afterTail₀ cfgs (dats m) 0 (V0 m) tailOps c main_arg6 = m ((c : Thread nD τ).loc main_arg6) :=
  W_arg m c main_arg6 (by decide) (by decide) (by decide)

theorem V_main_arg7 (c : Dev nD) : V m c main_arg7 = m ((c : Thread nD τ).loc main_arg7) :=
  V_arg m c main_arg7 (by decide)
theorem W_main_arg7 (c : Dev nD) :
    Pipeline.afterTail₀ cfgs (dats m) 0 (V0 m) tailOps c main_arg7 = m ((c : Thread nD τ).loc main_arg7) :=
  W_arg m c main_arg7 (by decide) (by decide) (by decide)

end Cert.KernelIdeal.Hand

end
-- ==== Proof.KBodyI.lean ====
/-
  The body of `Cert.KernelIdeal`'s one pallas_call at a grid point.

  At point `t` the body is called on the five windows' current staging buffers.  Each of the four input buffers
  holds its window's block there (rows 4000 t … 4000 t + 3999 of its array): every input is fetched at every point,
  and the body leaves an input buffer as it found it.  The body loads the code block and the three table blocks
  whole, loads the output buffer (a value it never uses), and stores one whole block: its arithmetic of the four
  loads.  So it returns the input buffers unchanged and the output buffer at `out4` of the four blocks.
-/
import proofs.«138900_j62680752717907_2_alg».proof.Proof.KDataI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input buffer holds its block -/

/-- Input window 0's current staging buffer holds its block at every point, for any record whose array is the
    entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0 (c : Dev nD) (t : Fin cfg0.N) (d) : (dats m 0 c).before 0 t d = iblk m c 0 t :=
  before0_of m (dats m 0 c) (A_eq m c 0) (after0 m c) t d

/-- Input window 1's current staging buffer holds its block at every point, for any record whose array is the
    entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1 (c : Dev nD) (t : Fin cfg0.N) (d) : (dats m 0 c).before 1 t d = iblk m c 1 t :=
  before1_of m (dats m 0 c) (A_eq m c 1) (after1 m c) t d

/-- Input window 2's current staging buffer holds its block at every point, for any record whose array is the
    entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2 (c : Dev nD) (t : Fin cfg0.N) (d) : (dats m 0 c).before 2 t d = iblk m c 2 t :=
  before2_of m (dats m 0 c) (A_eq m c 2) (after2 m c) t d

/-- Input window 3's current staging buffer holds its block at every point, for any record whose array is the
    entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3 (c : Dev nD) (t : Fin cfg0.N) (d) : (dats m 0 c).before 3 t d = iblk m c 3 t :=
  before3_of m (dats m 0 c) (A_eq m c 3) (after3 m c) t d

/-! ## The body's triple -/

set_option maxHeartbeats 1000000 in
/-- The body on whole staging buffers, the four inputs' at contents `x0 … x3` and the output's at anything, runs to
    the continuation holding the inputs' as they were and the output's at `out4` of them. -/
theorem sound_kernel (c : Dev nD) (E : Set ℕ) (i : grid0.Coords)
    (arg1 : Memref sig .tc .vmem S4000x128 .bf16) (harg1 : arg1.IsWhole) (arg2 : Memref sig .tc .vmem S4000x128 .bf16) (harg2 : arg2.IsWhole)
    (arg3 : Memref sig .tc .vmem S4000x128 .bf16) (harg3 : arg3.IsWhole) (arg4 : Memref sig .tc .vmem S4000x1 .i32) (harg4 : arg4.IsWhole)
    (arg5 : Memref sig .tc .vmem S4000x128 .f32) (harg5 : arg5.IsWhole)
    (x0 x1 x2 : Vec F S4000x128 .bf16) (x3 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E
          (cc0__blend_kernel i arg1 harg1 arg2 harg2 arg3 harg3 arg4 harg4 arg5 harg5) K := by
  simp only [cc0__blend_kernel_eq_skeleton]; unfold cc0__blend_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KFrameI.lean ====
/-
  The frame run of `Cert.KernelIdeal`'s @main: from any memory with zero counters, every weakly fair execution of
  @main on the TensorCores terminates, and @main's eight argument arrays end as launched.

  @main reduces to its one pallas_call continued by the later host operations (`hmain`); the body meets its
  obligation at every grid point (`body_obligation`); the later operations touch unscoped buffers only, allocate
  nothing and write no array of the call (`sfx_sub`, `sfx_fresh`, `sfx_keeps`).  So the run ends with every buffer
  that is no array of the call at what the later operations leave from the entry contents; an argument is written by
  no host operation, so it is as launched there.
-/
import proofs.«138900_j62680752717907_2_alg».proof.Proof.KTailI
import proofs.«138900_j62680752717907_2_alg».proof.Proof.KBodyI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main on the TensorCores terminates; every final state has each array of the call
    at what the run's record computes, and every other unscoped buffer as the later host operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The frame -/

/-- @main's eight argument arrays end as launched: each is unscoped and no array of the call, so the run leaves it as
    the later host operations do, and none of them — nor any before the call — writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c)⟩)
    (run_main m ρ)

end Cert.KernelIdeal.Hand

end
-- ==== Proof.KDataB.lean ====
/-
  The data of the one pallas_call of `Cert.Kernel`'s @main, at any float instance.

  @main is 87 host operations, the call, and 152 host operations in fifteen stretches (a stretch ends
  where a module-local function is entered or left).  The call blends three gathered row tables
  g1, g2', g2 : [500000, 128] under a per-row code column [500000, 1] into one array [500000, 128],
  125 blocks of 4000 rows each, one per grid point.

  Here: the device's buffer contents when the call is entered (`V0`, `V`), the block of window `w`
  at grid point `t` (`iblk`), what the body leaves in the output's staging buffer as a function of the four
  input blocks (`out4`: one store of the whole block, its value the body's arithmetic `k0_pay1` of the four
  loads), and the per-point record of the run (`dats`): every input buffer still holds its block, the
  output buffer holds `out4` of the four blocks.
-/
import proofs.«138900_j62680752717907_2_alg».proof.Proof.Gen.Kernel.Launch
import proofs.«138900_j62680752717907_2_alg».proof.Proof.Gen.Kernel.Skeleton
import proofs.«138900_j62680752717907_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The host operations after the call, stretch by stretch, in program order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14]

/-- Core `c`'s buffer contents when the call is entered: the 87 host operations before it applied, in order, to
    the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`: rows 4000 t … 4000 t + 3999 of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 4000 × 128 block, and the whole 4000 × 1 code column, as rectangles. -/
abbrev rFeat : Rect S4000x128 := Rect.unit (s := S4000x128) ![0, 0] S4000x128.size inb_S4000x128_S4000x128_0_0
abbrev rCode : Rect S4000x1 := Rect.unit (s := S4000x1) ![0, 0] S4000x1.size inb_S4000x1_S4000x1_0_0

/-- The output's staging buffer after the body, from the four input blocks (g1, g2', g2, code): one store of the
    whole block whose value is the body's arithmetic of the four whole-block loads. -/
def out4 (x0 x1 x2 : Vec F S4000x128 .bf16) (x3 : Vec F S4000x1 .i32) : Vec F S4000x128 .f32 :=
  View.canon [⟨rFeat, k0_pay1 (View.ld x3 rCode) (View.ld x0 rFeat) (View.ld x1 rFeat) (View.ld x2 rFeat)⟩]

/-- The one store covers the block. -/
theorem cover4 (p0 : Vec F S4000x128 .f32) (y : S4000x128.Idx) :
    ∃ pc ∈ ([⟨rFeat, p0⟩] : List (View.Piece (Elt F) S4000x128 .f32)), y ∈ pc.1.set :=
  View.cover_of_tiled [⟨rFeat, p0⟩] S4000x128.size (by rfl) y

/-- The run's per-point record on core `c`: the arrays as the call finds them; after the body at point `t` each
    input buffer at its block and the output buffer at `out4` of the four blocks; nothing else of the core is
    touched, nothing is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

/-- The record's arrays are the contents at the call's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

end Cert.Kernel.Hand

end
-- ==== Proof.KTailB.lean ====
/-
  @main of `Cert.Kernel` around its one pallas_call: the host operations before the call and the fifteen
  stretches of host operations after it.

  No host operation allocates a buffer; every operation after the call touches unscoped TensorCore buffers only;
  none of them writes one of the call's five arrays (g1, g2', g2, the code column, the blended output), and no
  host operation at all writes one of @main's eight arguments: each operation writes its own result buffer
  only, and that buffer is none of these.  So @main reduces to the call continued by the later stretches, and the
  eight argument arrays end as launched.
-/
import proofs.«138900_j62680752717907_2_alg».proof.Proof.KDataB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- Every stretch after the call: its operations touch TensorCore buffers only, -/
theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub⟩
/-- and allocate nothing. -/
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh⟩

/-! ## @main around the call -/

/-- @main is the host operations before the call, the call, and the fifteen later stretches: it reduces to the call
    continued by those stretches, the call entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## The buffers the host operations leave alone -/

/-- The call's five arrays and @main's eight arguments. -/
abbrev kept : List (Ref sig .tc) :=
  [main_v51, main_v58, main_v65, main_v42, main_v66,
   main_arg0, main_arg1, main_arg2, main_arg3, main_arg4, main_arg5, main_arg6, main_arg7]

/-- The eight arguments. -/
abbrev args : List (Ref sig .tc) :=
  [main_arg0, main_arg1, main_arg2, main_arg3, main_arg4, main_arg5, main_arg6, main_arg7]

set_option maxHeartbeats 4000000 in
/-- No host operation before the call writes an argument (each writes its own result buffer, which is no argument). -/
theorem hostOps0_keeps : ∀ r ∈ args, (hostOps0 : List (HloOp τ sig (Elt F))).Forall fun op => Proc.devRef .tc r ∉ op.writes := by
  intro r hr
  simp only [args, List.mem_cons, List.mem_nil_iff, or_false] at hr
  rcases hr with rfl | rfl | rfl | rfl | rfl | rfl | rfl | rfl
  all_goals
    simp only [hostOps0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_keeps : ∀ r ∈ kept, (hostOps1 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_1_keeps : ∀ r ∈ kept, (hostOps1_1 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_2_keeps : ∀ r ∈ kept, (hostOps1_2 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_3_keeps : ∀ r ∈ kept, (hostOps1_3 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_4_keeps : ∀ r ∈ kept, (hostOps1_4 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_5_keeps : ∀ r ∈ kept, (hostOps1_5 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_6_keeps : ∀ r ∈ kept, (hostOps1_6 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_7_keeps : ∀ r ∈ kept, (hostOps1_7 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_7, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_8_keeps : ∀ r ∈ kept, (hostOps1_8 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_8, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_9_keeps : ∀ r ∈ kept, (hostOps1_9 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_9, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_10_keeps : ∀ r ∈ kept, (hostOps1_10 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_10, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_11_keeps : ∀ r ∈ kept, (hostOps1_11 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_11, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_12_keeps : ∀ r ∈ kept, (hostOps1_12 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_12, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_13_keeps : ∀ r ∈ kept, (hostOps1_13 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_13, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

set_option maxHeartbeats 4000000 in
/-- No operation of this stretch writes an array of the call or an argument. -/
theorem hostOps1_14_keeps : ∀ r ∈ kept, (hostOps1_14 : List (HloOp τ sig (Elt F))).Forall fun op => Proc.devRef .tc r ∉ op.writes := by
  intro r hr
  simp only [kept, List.mem_cons, List.mem_nil_iff, or_false] at hr
  rcases hr with rfl | rfl | rfl | rfl | rfl | rfl | rfl | rfl | rfl | rfl | rfl | rfl | rfl
  all_goals
    simp only [hostOps1_14, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- So no operation after the call does. -/
theorem tail_keeps (r : Ref sig .tc) (hr : r ∈ kept) :
    (tailOps : List (List (HloOp τ sig (Elt F)))).Forall fun ops => ops.Forall fun op => Proc.devRef .tc r ∉ op.writes :=
  ⟨hostOps1_keeps r hr, hostOps1_1_keeps r hr, hostOps1_2_keeps r hr, hostOps1_3_keeps r hr, hostOps1_4_keeps r hr, hostOps1_5_keeps r hr, hostOps1_6_keeps r hr, hostOps1_7_keeps r hr, hostOps1_8_keeps r hr, hostOps1_9_keeps r hr, hostOps1_10_keeps r hr, hostOps1_11_keeps r hr, hostOps1_12_keeps r hr, hostOps1_13_keeps r hr, hostOps1_14_keeps r hr⟩

/-- Each array of the call is one of the kept buffers. -/
theorem arr_mem_kept (w : Fin 5) : Pipeline.arrRef spec0 w ∈ kept := by
  fin_cases w <;> decide

/-! ## The three side conditions on the stretches after the call -/

/-- They touch the call's arrays and the buffers that bypass the call only (each operation's buffers are unscoped
    TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- They write no array of the call. -/
theorem sfx_keeps : ∀ ops ∈ (tailOps : List (List (HloOp τ sig (Elt F)))), ∀ op ∈ ops,
    ∀ w, Proc.devRef .tc (Pipeline.arrRef spec0 w) ∉ op.writes :=
  fun ops hops op hop w =>
    (List.forall_iff_forall_mem.mp ((List.forall_iff_forall_mem.mp (tail_keeps _ (arr_mem_kept w))) ops hops)) op hop

/-! ## The arguments, at the call's entry and at @main's end -/

/-- An argument is as launched when the call is entered, -/
theorem V_arg (c : Dev nD) (r : Ref sig .tc) (hr : r ∈ args) : V m c r = m ((c : Thread nD τ).loc r) :=
  StableHlo.after_of_forall_not_mem (b := Proc.devRef .tc r) _ _ (List.forall_iff_forall_mem.mp (by
    simp only [List.flatten_cons, List.flatten_nil, List.append_nil]
    exact hostOps0_keeps r hr))

/-- and, being no array of the call, after the later stretches too. -/
theorem W_arg (c : Dev nD) (r : Ref sig .tc) (hr : r ∈ args) (hk : r ∈ kept) (hne : ∀ w, Pipeline.arrRef spec0 w ≠ r) :
    Pipeline.afterTail₀ cfgs (dats m) 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact (List.forall_iff_forall_mem.mp ((List.forall_iff_forall_mem.mp (tail_keeps r hk)) ops hops)) op hop'),
    Pipeline.withArrays_of_ne _ c (V0 m c) _ r hne]
  exact V_arg m c r hr

theorem V_main_arg0 (c : Dev nD) : V m c main_arg0 = m ((c : Thread nD τ).loc main_arg0) :=
  V_arg m c main_arg0 (by decide)
theorem W_main_arg0 (c : Dev nD) :
    Pipeline.afterTail₀ cfgs (dats m) 0 (V0 m) tailOps c main_arg0 = m ((c : Thread nD τ).loc main_arg0) :=
  W_arg m c main_arg0 (by decide) (by decide) (by decide)

theorem V_main_arg1 (c : Dev nD) : V m c main_arg1 = m ((c : Thread nD τ).loc main_arg1) :=
  V_arg m c main_arg1 (by decide)
theorem W_main_arg1 (c : Dev nD) :
    Pipeline.afterTail₀ cfgs (dats m) 0 (V0 m) tailOps c main_arg1 = m ((c : Thread nD τ).loc main_arg1) :=
  W_arg m c main_arg1 (by decide) (by decide) (by decide)

theorem V_main_arg2 (c : Dev nD) : V m c main_arg2 = m ((c : Thread nD τ).loc main_arg2) :=
  V_arg m c main_arg2 (by decide)
theorem W_main_arg2 (c : Dev nD) :
    Pipeline.afterTail₀ cfgs (dats m) 0 (V0 m) tailOps c main_arg2 = m ((c : Thread nD τ).loc main_arg2) :=
  W_arg m c main_arg2 (by decide) (by decide) (by decide)

theorem V_main_arg3 (c : Dev nD) : V m c main_arg3 = m ((c : Thread nD τ).loc main_arg3) :=
  V_arg m c main_arg3 (by decide)
theorem W_main_arg3 (c : Dev nD) :
    Pipeline.afterTail₀ cfgs (dats m) 0 (V0 m) tailOps c main_arg3 = m ((c : Thread nD τ).loc main_arg3) :=
  W_arg m c main_arg3 (by decide) (by decide) (by decide)

theorem V_main_arg4 (c : Dev nD) : V m c main_arg4 = m ((c : Thread nD τ).loc main_arg4) :=
  V_arg m c main_arg4 (by decide)
theorem W_main_arg4 (c : Dev nD) :
    Pipeline.afterTail₀ cfgs (dats m) 0 (V0 m) tailOps c main_arg4 = m ((c : Thread nD τ).loc main_arg4) :=
  W_arg m c main_arg4 (by decide) (by decide) (by decide)

theorem V_main_arg5 (c : Dev nD) : V m c main_arg5 = m ((c : Thread nD τ).loc main_arg5) :=
  V_arg m c main_arg5 (by decide)
theorem W_main_arg5 (c : Dev nD) :
    Pipeline.afterTail₀ cfgs (dats m) 0 (V0 m) tailOps c main_arg5 = m ((c : Thread nD τ).loc main_arg5) :=
  W_arg m c main_arg5 (by decide) (by decide) (by decide)

theorem V_main_arg6 (c : Dev nD) : V m c main_arg6 = m ((c : Thread nD τ).loc main_arg6) :=
  V_arg m c main_arg6 (by decide)
theorem W_main_arg6 (c : Dev nD) :
    Pipeline.afterTail₀ cfgs (dats m) 0 (V0 m) tailOps c main_arg6 = m ((c : Thread nD τ).loc main_arg6) :=
  W_arg m c main_arg6 (by decide) (by decide) (by decide)

theorem V_main_arg7 (c : Dev nD) : V m c main_arg7 = m ((c : Thread nD τ).loc main_arg7) :=
  V_arg m c main_arg7 (by decide)
theorem W_main_arg7 (c : Dev nD) :
    Pipeline.afterTail₀ cfgs (dats m) 0 (V0 m) tailOps c main_arg7 = m ((c : Thread nD τ).loc main_arg7) :=
  W_arg m c main_arg7 (by decide) (by decide) (by decide)

end Cert.Kernel.Hand

end
-- ==== Proof.KBodyB.lean ====
/-
  The body of `Cert.Kernel`'s one pallas_call at a grid point.

  At point `t` the body is called on the five windows' current staging buffers.  Each of the four input buffers
  holds its window's block there (rows 4000 t … 4000 t + 3999 of its array): every input is fetched at every point,
  and the body leaves an input buffer as it found it.  The body loads the code block and the three table blocks
  whole, loads the output buffer (a value it never uses), and stores one whole block: its arithmetic of the four
  loads.  So it returns the input buffers unchanged and the output buffer at `out4` of the four blocks.
-/
import proofs.«138900_j62680752717907_2_alg».proof.Proof.KDataB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input buffer holds its block -/

/-- Input window 0's current staging buffer holds its block at every point, for any record whose array is the
    entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0 (c : Dev nD) (t : Fin cfg0.N) (d) : (dats m 0 c).before 0 t d = iblk m c 0 t :=
  before0_of m (dats m 0 c) (A_eq m c 0) (after0 m c) t d

/-- Input window 1's current staging buffer holds its block at every point, for any record whose array is the
    entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1 (c : Dev nD) (t : Fin cfg0.N) (d) : (dats m 0 c).before 1 t d = iblk m c 1 t :=
  before1_of m (dats m 0 c) (A_eq m c 1) (after1 m c) t d

/-- Input window 2's current staging buffer holds its block at every point, for any record whose array is the
    entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2 (c : Dev nD) (t : Fin cfg0.N) (d) : (dats m 0 c).before 2 t d = iblk m c 2 t :=
  before2_of m (dats m 0 c) (A_eq m c 2) (after2 m c) t d

/-- Input window 3's current staging buffer holds its block at every point, for any record whose array is the
    entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3 (c : Dev nD) (t : Fin cfg0.N) (d) : (dats m 0 c).before 3 t d = iblk m c 3 t :=
  before3_of m (dats m 0 c) (A_eq m c 3) (after3 m c) t d

/-! ## The body's triple -/

set_option maxHeartbeats 1000000 in
/-- The body on whole staging buffers, the four inputs' at contents `x0 … x3` and the output's at anything, runs to
    the continuation holding the inputs' as they were and the output's at `out4` of them. -/
theorem sound_kernel (c : Dev nD) (E : Set ℕ) (i : grid0.Coords)
    (arg1 : Memref sig .tc .vmem S4000x128 .bf16) (harg1 : arg1.IsWhole) (arg2 : Memref sig .tc .vmem S4000x128 .bf16) (harg2 : arg2.IsWhole)
    (arg3 : Memref sig .tc .vmem S4000x128 .bf16) (harg3 : arg3.IsWhole) (arg4 : Memref sig .tc .vmem S4000x1 .i32) (harg4 : arg4.IsWhole)
    (arg5 : Memref sig .tc .vmem S4000x128 .f32) (harg5 : arg5.IsWhole)
    (x0 x1 x2 : Vec F S4000x128 .bf16) (x3 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E
          (cc0__blend_kernel i arg1 harg1 arg2 harg2 arg3 harg3 arg4 harg4 arg5 harg5) K := by
  simp only [cc0__blend_kernel_eq_skeleton]; unfold cc0__blend_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrameB.lean ====
/-
  The frame run of `Cert.Kernel`'s @main: from any memory with zero counters, every weakly fair execution of
  @main on the TensorCores terminates, and @main's eight argument arrays end as launched.

  @main reduces to its one pallas_call continued by the later host operations (`hmain`); the body meets its
  obligation at every grid point (`body_obligation`); the later operations touch unscoped buffers only, allocate
  nothing and write no array of the call (`sfx_sub`, `sfx_fresh`, `sfx_keeps`).  So the run ends with every buffer
  that is no array of the call at what the later operations leave from the entry contents; an argument is written by
  no host operation, so it is as launched there.
-/
import proofs.«138900_j62680752717907_2_alg».proof.Proof.KTailB
import proofs.«138900_j62680752717907_2_alg».proof.Proof.KBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main on the TensorCores terminates; every final state has each array of the call
    at what the run's record computes, and every other unscoped buffer as the later host operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The frame -/

/-- @main's eight argument arrays end as launched: each is unscoped and no array of the call, so the run leaves it as
    the later host operations do, and none of them — nor any before the call — writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c)⟩)
    (run_main m ρ)

end Cert.Kernel.Hand

end
-- ==== Proof.ClaimsK.lean ====
/-
  The kernel-side halves of the certificate's claims.

  The frame claims of `Cert.Kernel` (at the word-level floats) and of `Cert.KernelIdeal` (at the ideal ones): @main
  runs, and its eight argument arrays end as launched.

  And the run of `Cert.KernelIdeal`'s @main at the ideal floats with its six results named: each result buffer is an
  unscoped buffer that is no array of the pallas_call, so it ends at what the host operations after the call leave
  in it, computed from the contents at the call's entry with the call's arrays at what the run's record gives them
  (`Pipeline.afterTail₀`); the eight arguments end as launched.
-/
import proofs.«138900_j62680752717907_2_alg».proof.Defs
import proofs.«138900_j62680752717907_2_alg».proof.Proof.KFrameI
import proofs.«138900_j62680752717907_2_alg».proof.Proof.KFrameB
import proofs.«138900_j62680752717907_2_alg».proof.Proof.Gen.Kernel
import proofs.«138900_j62680752717907_2_alg».proof.Proof.Gen.KernelIdeal
import proofs.«138900_j62680752717907_2_alg».proof.Proof.Gen.Pre_finite_inputs

set_option maxRecDepth 16384

open Idealize.ShloMosaic Idealize.ShloMosaic.TcCoe Idealize.SL.Sem

namespace Cert.Proof.Parts

/-- `Cert.Kernel` runs and leaves its arguments unchanged. -/
theorem frame_k : Cert.frame_Kernel := fun m ρ _ => Cert.Kernel.Hand.frame m ρ

/-- `Cert.KernelIdeal` runs and leaves its arguments unchanged. -/
theorem frame_ki : Cert.frame_KernelIdeal := fun m ρ _ => Cert.KernelIdeal.Hand.frame m ρ

/-- `Cert.KernelIdeal` at the ideal floats runs; each of its six results ends at what the host operations after the
    call leave in its buffer, and each argument as launched. -/
theorem kernel_results (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = Pipeline.afterTail₀ Cert.KernelIdeal.cfgs (Cert.KernelIdeal.Hand.dats m) 0 (Cert.KernelIdeal.Hand.V0 m) Cert.KernelIdeal.Hand.tailOps c Cert.KernelIdeal.main_v80
          ∧ r.2.mem ((c.tc : Thread Cert.KernelIdeal.nD Cert.KernelIdeal.τ).loc Cert.KernelIdeal.main_v101) = Pipeline.afterTail₀ Cert.KernelIdeal.cfgs (Cert.KernelIdeal.Hand.dats m) 0 (Cert.KernelIdeal.Hand.V0 m) Cert.KernelIdeal.Hand.tailOps c Cert.KernelIdeal.main_v101
          ∧ r.2.mem ((c.tc : Thread Cert.KernelIdeal.nD Cert.KernelIdeal.τ).loc Cert.KernelIdeal.main_v153) = Pipeline.afterTail₀ Cert.KernelIdeal.cfgs (Cert.KernelIdeal.Hand.dats m) 0 (Cert.KernelIdeal.Hand.V0 m) Cert.KernelIdeal.Hand.tailOps c Cert.KernelIdeal.main_v153
          ∧ r.2.mem ((c.tc : Thread Cert.KernelIdeal.nD Cert.KernelIdeal.τ).loc Cert.KernelIdeal.main_v162) = Pipeline.afterTail₀ Cert.KernelIdeal.cfgs (Cert.KernelIdeal.Hand.dats m) 0 (Cert.KernelIdeal.Hand.V0 m) Cert.KernelIdeal.Hand.tailOps c Cert.KernelIdeal.main_v162
          ∧ r.2.mem ((c.tc : Thread Cert.KernelIdeal.nD Cert.KernelIdeal.τ).loc Cert.KernelIdeal.main_v165) = Pipeline.afterTail₀ Cert.KernelIdeal.cfgs (Cert.KernelIdeal.Hand.dats m) 0 (Cert.KernelIdeal.Hand.V0 m) Cert.KernelIdeal.Hand.tailOps c Cert.KernelIdeal.main_v165
          ∧ r.2.mem ((c.tc : Thread Cert.KernelIdeal.nD Cert.KernelIdeal.τ).loc Cert.KernelIdeal.main_v168) = Pipeline.afterTail₀ Cert.KernelIdeal.cfgs (Cert.KernelIdeal.Hand.dats m) 0 (Cert.KernelIdeal.Hand.V0 m) Cert.KernelIdeal.Hand.tailOps c Cert.KernelIdeal.main_v168
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono (fun _ h c =>
    ⟨(h c).2 Cert.KernelIdeal.main_v80 (Pipeline.mem_restRefs_of Cert.KernelIdeal.main_v80 (by decide) (by decide)),
     (h c).2 Cert.KernelIdeal.main_v101 (Pipeline.mem_restRefs_of Cert.KernelIdeal.main_v101 (by decide) (by decide)),
     (h c).2 Cert.KernelIdeal.main_v153 (Pipeline.mem_restRefs_of Cert.KernelIdeal.main_v153 (by decide) (by decide)),
     (h c).2 Cert.KernelIdeal.main_v162 (Pipeline.mem_restRefs_of Cert.KernelIdeal.main_v162 (by decide) (by decide)),
     (h c).2 Cert.KernelIdeal.main_v165 (Pipeline.mem_restRefs_of Cert.KernelIdeal.main_v165 (by decide) (by decide)),
     (h c).2 Cert.KernelIdeal.main_v168 (Pipeline.mem_restRefs_of Cert.KernelIdeal.main_v168 (by decide) (by decide)),
     ((h c).2 Cert.KernelIdeal.main_arg0 (Pipeline.mem_restRefs_of Cert.KernelIdeal.main_arg0 (by decide) (by decide))).trans (Cert.KernelIdeal.Hand.W_main_arg0 m c),
     ((h c).2 Cert.KernelIdeal.main_arg1 (Pipeline.mem_restRefs_of Cert.KernelIdeal.main_arg1 (by decide) (by decide))).trans (Cert.KernelIdeal.Hand.W_main_arg1 m c),
     ((h c).2 Cert.KernelIdeal.main_arg2 (Pipeline.mem_restRefs_of Cert.KernelIdeal.main_arg2 (by decide) (by decide))).trans (Cert.KernelIdeal.Hand.W_main_arg2 m c),
     ((h c).2 Cert.KernelIdeal.main_arg3 (Pipeline.mem_restRefs_of Cert.KernelIdeal.main_arg3 (by decide) (by decide))).trans (Cert.KernelIdeal.Hand.W_main_arg3 m c),
     ((h c).2 Cert.KernelIdeal.main_arg4 (Pipeline.mem_restRefs_of Cert.KernelIdeal.main_arg4 (by decide) (by decide))).trans (Cert.KernelIdeal.Hand.W_main_arg4 m c),
     ((h c).2 Cert.KernelIdeal.main_arg5 (Pipeline.mem_restRefs_of Cert.KernelIdeal.main_arg5 (by decide) (by decide))).trans (Cert.KernelIdeal.Hand.W_main_arg5 m c),
     ((h c).2 Cert.KernelIdeal.main_arg6 (Pipeline.mem_restRefs_of Cert.KernelIdeal.main_arg6 (by decide) (by decide))).trans (Cert.KernelIdeal.Hand.W_main_arg6 m c),
     ((h c).2 Cert.KernelIdeal.main_arg7 (Pipeline.mem_restRefs_of Cert.KernelIdeal.main_arg7 (by decide) (by decide))).trans (Cert.KernelIdeal.Hand.W_main_arg7 m c)⟩)
    (Cert.KernelIdeal.Hand.run_main m g)

end Cert.Proof.Parts
-- ==== Proof.RefOps.lean ====
/-
  The operations of the reference's @main, in program order, as two lists: the function is a straight line of 239
  StableHLO operations and no kernel, a call standing for its callee's operations at the call's operands (typed
  references to the caller's buffers) over the call's own buffer record. The cut is after the second call of
  `_where` (the value %65): `opsHead` is every operation up to and including that call's select, `opsTail` every
  operation after it, from the conversion %66 to the last reduction %165.
-/
import proofs.«138900_j62680752717907_2_alg».proof.ReferenceIdeal
import proofs.«138900_j62680752717907_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The first 89 operations of @main: its statements 1 … 60, then statements 61 … 85 and the two calls of `_where`
    (%64, %65), each call the row mask's broadcast and the select over its record's fields. -/
abbrev opsHead : List (HloOp τ sig (Elt F)) :=
  [ StableHlo.nullary main_c (constantI S_ 1 0#1),
    StableHlo.unary main_c main_v0 (broadcastInDim S500000 ![] bcast_S_S500000 : (⟨S_, .i1⟩ : BufTy).Contents (Elt F) → (⟨S500000, .i1⟩ : BufTy).Contents (Elt F)),
    StableHlo.nullary main_c_0 (constantI S_ 32 0#32),
    StableHlo.unary main_c_0 main_v1 (broadcastInDim S300000 ![] bcast_S_S300000 : (⟨S_, .i32⟩ : BufTy).Contents (Elt F) → (⟨S300000, .i32⟩ : BufTy).Contents (Elt F)),
    StableHlo.binary main_arg0 main_v1 main_v2 (cmpi .slt : (⟨S300000, .i32⟩ : BufTy).Contents (Elt F) → (⟨S300000, .i32⟩ : BufTy).Contents (Elt F) → (⟨S300000, .i1⟩ : BufTy).Contents (Elt F)),
    StableHlo.nullary main_c_1 (constantI S_ 32 500000#32),
    StableHlo.unary main_c_1 main_v3 (broadcastInDim S300000 ![] bcast_S_S300000 : (⟨S_, .i32⟩ : BufTy).Contents (Elt F) → (⟨S300000, .i32⟩ : BufTy).Contents (Elt F)),
    StableHlo.binary main_arg0 main_v3 main_v4 (addi : (⟨S300000, .i32⟩ : BufTy).Contents (Elt F) → (⟨S300000, .i32⟩ : BufTy).Contents (Elt F) → (⟨S300000, .i32⟩ : BufTy).Contents (Elt F)),
    StableHlo.ternary main_v2 main_v4 main_arg0 main_v5 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v5 main_v6 (broadcastInDim S300000x1 ![0] bcast_S300000_S300000x1_0 : (⟨S300000, .i32⟩ : BufTy).Contents (Elt F) → (⟨S300000x1, .i32⟩ : BufTy).Contents (Elt F)),
    StableHlo.nullary main_c_2 (constantI S_ 1 1#1),
    StableHlo.unary main_c_2 main_v7 (broadcastInDim S300000 ![] bcast_S_S300000 : (⟨S_, .i1⟩ : BufTy).Contents (Elt F) → (⟨S300000, .i1⟩ : BufTy).Contents (Elt F)),
    StableHlo.ternary main_v0 main_v6 main_v7 main_v8 ((fun x i u => Host.scatter scatter_S500000_S300000x1_S300000_n_0_0_1 (fun _ b => b) x i u) : (⟨S500000, .i1⟩ : BufTy).Contents (Elt F) → (⟨S300000x1, .i32⟩ : BufTy).Contents (Elt F) → (⟨S300000, .i1⟩ : BufTy).Contents (Elt F) → (⟨S500000, .i1⟩ : BufTy).Contents (Elt F)),
    StableHlo.nullary main_c_3 (constantI S_ 1 0#1),
    StableHlo.unary main_c_3 main_v9 (broadcastInDim S500000 ![] bcast_S_S500000 : (⟨S_, .i1⟩ : BufTy).Contents (Elt F) → (⟨S500000, .i1⟩ : BufTy).Contents (Elt F)),
    StableHlo.nullary main_c_4 (constantI S_ 32 0#32),
    StableHlo.unary main_c_4 main_v10 (broadcastInDim S300000 ![] bcast_S_S300000 : (⟨S_, .i32⟩ : BufTy).Contents (Elt F) → (⟨S300000, .i32⟩ : BufTy).Contents (Elt F)),
    StableHlo.binary main_arg1 main_v10 main_v11 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 500000#32),
    StableHlo.unary main_c_5 main_v12 (broadcastInDim S300000 ![] bcast_S_S300000 : (⟨S_, .i32⟩ : BufTy).Contents (Elt F) → (⟨S300000, .i32⟩ : BufTy).Contents (Elt F)),
    StableHlo.binary main_arg1 main_v12 main_v13 (addi : (⟨S300000, .i32⟩ : BufTy).Contents (Elt F) → (⟨S300000, .i32⟩ : BufTy).Contents (Elt F) → (⟨S300000, .i32⟩ : BufTy).Contents (Elt F)),
    StableHlo.ternary main_v11 main_v13 main_arg1 main_v14 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v14 main_v15 (broadcastInDim S300000x1 ![0] bcast_S300000_S300000x1_0 : (⟨S300000, .i32⟩ : BufTy).Contents (Elt F) → (⟨S300000x1, .i32⟩ : BufTy).Contents (Elt F)),
    StableHlo.nullary main_c_6 (constantI S_ 1 1#1),
    StableHlo.unary main_c_6 main_v16 (broadcastInDim S300000 ![] bcast_S_S300000 : (⟨S_, .i1⟩ : BufTy).Contents (Elt F) → (⟨S300000, .i1⟩ : BufTy).Contents (Elt F)),
    StableHlo.ternary main_v9 main_v15 main_v16 main_v17 ((fun x i u => Host.scatter scatter_S500000_S300000x1_S300000_n_0_0_1 (fun _ b => b) x i u) : (⟨S500000, .i1⟩ : BufTy).Contents (Elt F) → (⟨S300000x1, .i32⟩ : BufTy).Contents (Elt F) → (⟨S300000, .i1⟩ : BufTy).Contents (Elt F) → (⟨S500000, .i1⟩ : BufTy).Contents (Elt F)),
    StableHlo.nullary main_c_7 (constantI S_ 32 0#32),
    StableHlo.unary main_c_7 main_v18 (broadcastInDim S500000 ![] bcast_S_S500000 : (⟨S_, .i32⟩ : BufTy).Contents (Elt F) → (⟨S500000, .i32⟩ : BufTy).Contents (Elt F)),
    StableHlo.nullary main_v19 (iotaInDim S300000 32 0),
    StableHlo.nullary main_c_8 (constantI S_ 32 0#32),
    StableHlo.unary main_c_8 main_v20 (broadcastInDim S300000 ![] bcast_S_S300000 : (⟨S_, .i32⟩ : BufTy).Contents (Elt F) → (⟨S300000, .i32⟩ : BufTy).Contents (Elt F)),
    StableHlo.binary main_arg0 main_v20 main_v21 (cmpi .slt : (⟨S300000, .i32⟩ : BufTy).Contents (Elt F) → (⟨S300000, .i32⟩ : BufTy).Contents (Elt F) → (⟨S300000, .i1⟩ : BufTy).Contents (Elt F)),
    StableHlo.nullary main_c_9 (constantI S_ 32 500000#32),
    StableHlo.unary main_c_9 main_v22 (broadcastInDim S300000 ![] bcast_S_S300000 : (⟨S_, .i32⟩ : BufTy).Contents (Elt F) → (⟨S300000, .i32⟩ : BufTy).Contents (Elt F)),
    StableHlo.binary main_arg0 main_v22 main_v23 (addi : (⟨S300000, .i32⟩ : BufTy).Contents (Elt F) → (⟨S300000, .i32⟩ : BufTy).Contents (Elt F) → (⟨S300000, .i32⟩ : BufTy).Contents (Elt F)),
    StableHlo.ternary main_v21 main_v23 main_arg0 main_v24 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v24 main_v25 (broadcastInDim S300000x1 ![0] bcast_S300000_S300000x1_0 : (⟨S300000, .i32⟩ : BufTy).Contents (Elt F) → (⟨S300000x1, .i32⟩ : BufTy).Contents (Elt F)),
    StableHlo.ternary main_v18 main_v25 main_v19 main_v26 ((fun x i u => Host.scatter scatter_S500000_S300000x1_S300000_n_0_0_1 (fun _ b => b) x i u) : (⟨S500000, .i32⟩ : BufTy).Contents (Elt F) → (⟨S300000x1, .i32⟩ : BufTy).Contents (Elt F) → (⟨S300000, .i32⟩ : BufTy).Contents (Elt F) → (⟨S500000, .i32⟩ : BufTy).Contents (Elt F)),
    StableHlo.nullary main_c_10 (constantI S_ 32 0#32),
    StableHlo.unary main_c_10 main_v27 (broadcastInDim S500000 ![] bcast_S_S500000 : (⟨S_, .i32⟩ : BufTy).Contents (Elt F) → (⟨S500000, .i32⟩ : BufTy).Contents (Elt F)),
    StableHlo.nullary main_v28 (iotaInDim S300000 32 0),
    StableHlo.nullary main_c_11 (constantI S_ 32 0#32),
    StableHlo.unary main_c_11 main_v29 (broadcastInDim S300000 ![] bcast_S_S300000 : (⟨S_, .i32⟩ : BufTy).Contents (Elt F) → (⟨S300000, .i32⟩ : BufTy).Contents (Elt F)),
    StableHlo.binary main_arg1 main_v29 main_v30 (cmpi .slt : (⟨S300000, .i32⟩ : BufTy).Contents (Elt F) → (⟨S300000, .i32⟩ : BufTy).Contents (Elt F) → (⟨S300000, .i1⟩ : BufTy).Contents (Elt F)),
    StableHlo.nullary main_c_12 (constantI S_ 32 500000#32),
    StableHlo.unary main_c_12 main_v31 (broadcastInDim S300000 ![] bcast_S_S300000 : (⟨S_, .i32⟩ : BufTy).Contents (Elt F) → (⟨S300000, .i32⟩ : BufTy).Contents (Elt F)),
    StableHlo.binary main_arg1 main_v31 main_v32 (addi : (⟨S300000, .i32⟩ : BufTy).Contents (Elt F) → (⟨S300000, .i32⟩ : BufTy).Contents (Elt F) → (⟨S300000, .i32⟩ : BufTy).Contents (Elt F)),
    StableHlo.ternary main_v30 main_v32 main_arg1 main_v33 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v33 main_v34 (broadcastInDim S300000x1 ![0] bcast_S300000_S300000x1_0 : (⟨S300000, .i32⟩ : BufTy).Contents (Elt F) → (⟨S300000x1, .i32⟩ : BufTy).Contents (Elt F)),
    StableHlo.ternary main_v27 main_v34 main_v28 main_v35 ((fun x i u => Host.scatter scatter_S500000_S300000x1_S300000_n_0_0_1 (fun _ b => b) x i u) : (⟨S500000, .i32⟩ : BufTy).Contents (Elt F) → (⟨S300000x1, .i32⟩ : BufTy).Contents (Elt F) → (⟨S300000, .i32⟩ : BufTy).Contents (Elt F) → (⟨S500000, .i32⟩ : BufTy).Contents (Elt F)),
    StableHlo.binary main_v8 main_v17 main_v36 (andi : (⟨S500000, .i1⟩ : BufTy).Contents (Elt F) → (⟨S500000, .i1⟩ : BufTy).Contents (Elt F) → (⟨S500000, .i1⟩ : BufTy).Contents (Elt F)),
    StableHlo.binary main_v8 main_v17 main_v37 (ori : (⟨S500000, .i1⟩ : BufTy).Contents (Elt F) → (⟨S500000, .i1⟩ : BufTy).Contents (Elt F) → (⟨S500000, .i1⟩ : BufTy).Contents (Elt F)),
    StableHlo.nullary main_c_13 (constantI S_ 32 0#32),
    StableHlo.unary main_c_13 main_v38 (broadcastInDim S500000 ![] bcast_S_S500000 : (⟨S_, .i32⟩ : BufTy).Contents (Elt F) → (⟨S500000, .i32⟩ : BufTy).Contents (Elt F)),
    StableHlo.binary main_v26 main_v38 main_v39 (cmpi .slt : (⟨S500000, .i32⟩ : BufTy).Contents (Elt F) → (⟨S500000, .i32⟩ : BufTy).Contents (Elt F) → (⟨S500000, .i1⟩ : BufTy).Contents (Elt F)),
    StableHlo.nullary main_c_14 (constantI S_ 32 300000#32),
    StableHlo.unary main_c_14 main_v40 (broadcastInDim S500000 ![] bcast_S_S500000 : (⟨S_, .i32⟩ : BufTy).Contents (Elt F) → (⟨S500000, .i32⟩ : BufTy).Contents (Elt F)),
    StableHlo.binary main_v26 main_v40 main_v41 (addi : (⟨S500000, .i32⟩ : BufTy).Contents (Elt F) → (⟨S500000, .i32⟩ : BufTy).Contents (Elt F) → (⟨S500000, .i32⟩ : BufTy).Contents (Elt F)),
    StableHlo.ternary main_v39 main_v41 main_v26 main_v42 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v42 main_v43 (broadcastInDim S500000x1 ![0] bcast_S500000_S500000x1_0 : (⟨S500000, .i32⟩ : BufTy).Contents (Elt F) → (⟨S500000x1, .i32⟩ : BufTy).Contents (Elt F)),
    StableHlo.binary main_arg3 main_v43 main_v44 ((fun x i => Host.gather gather_S300000x128_S500000x1_S500000x128_1_0_n_n_0_1_1128 x i) : (⟨S300000x128, .f32⟩ : BufTy).Contents (Elt F) → (⟨S500000x1, .i32⟩ : BufTy).Contents (Elt F) → (⟨S500000x128, .f32⟩ : BufTy).Contents (Elt F)),
    StableHlo.nullary main_c_15 (constantI S_ 32 0#32),
    StableHlo.unary main_c_15 main_v45 (broadcastInDim S500000 ![] bcast_S_S500000 : (⟨S_, .i32⟩ : BufTy).Contents (Elt F) → (⟨S500000, .i32⟩ : BufTy).Contents (Elt F)),
    StableHlo.binary main_v26 main_v45 main_v46 (cmpi .slt : (⟨S500000, .i32⟩ : BufTy).Contents (Elt F) → (⟨S500000, .i32⟩ : BufTy).Contents (Elt F) → (⟨S500000, .i1⟩ : BufTy).Contents (Elt F)),
    StableHlo.nullary main_c_16 (constantI S_ 32 300000#32),
    StableHlo.unary main_c_16 main_v47 (broadcastInDim S500000 ![] bcast_S_S500000 : (⟨S_, .i32⟩ : BufTy).Contents (Elt F) → (⟨S500000, .i32⟩ : BufTy).Contents (Elt F)),
    StableHlo.binary main_v26 main_v47 main_v48 (addi : (⟨S500000, .i32⟩ : BufTy).Contents (Elt F) → (⟨S500000, .i32⟩ : BufTy).Contents (Elt F) → (⟨S500000, .i32⟩ : BufTy).Contents (Elt F)),
    StableHlo.ternary main_v46 main_v48 main_v26 main_v49 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v49 main_v50 (broadcastInDim S500000x1 ![0] bcast_S500000_S500000x1_0 : (⟨S500000, .i32⟩ : BufTy).Contents (Elt F) → (⟨S500000x1, .i32⟩ : BufTy).Contents (Elt F)),
    StableHlo.binary main_arg4 main_v50 main_v51 ((fun x i => Host.gather gather_S300000x128_S500000x1_S500000x128_1_0_n_n_0_1_1128 x i) : (⟨S300000x128, .f32⟩ : BufTy).Contents (Elt F) → (⟨S500000x1, .i32⟩ : BufTy).Contents (Elt F) → (⟨S500000x128, .f32⟩ : BufTy).Contents (Elt F)),
    StableHlo.nullary main_c_17 (constantI S_ 32 0#32),
    StableHlo.unary main_c_17 main_v52 (broadcastInDim S500000 ![] bcast_S_S500000 : (⟨S_, .i32⟩ : BufTy).Contents (Elt F) → (⟨S500000, .i32⟩ : BufTy).Contents (Elt F)),
    StableHlo.binary main_v35 main_v52 main_v53 (cmpi .slt : (⟨S500000, .i32⟩ : BufTy).Contents (Elt F) → (⟨S500000, .i32⟩ : BufTy).Contents (Elt F) → (⟨S500000, .i1⟩ : BufTy).Contents (Elt F)),
    StableHlo.nullary main_c_18 (constantI S_ 32 300000#32),
    StableHlo.unary main_c_18 main_v54 (broadcastInDim S500000 ![] bcast_S_S500000 : (⟨S_, .i32⟩ : BufTy).Contents (Elt F) → (⟨S500000, .i32⟩ : BufTy).Contents (Elt F)),
    StableHlo.binary main_v35 main_v54 main_v55 (addi : (⟨S500000, .i32⟩ : BufTy).Contents (Elt F) → (⟨S500000, .i32⟩ : BufTy).Contents (Elt F) → (⟨S500000, .i32⟩ : BufTy).Contents (Elt F)),
    StableHlo.ternary main_v53 main_v55 main_v35 main_v56 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v56 main_v57 (broadcastInDim S500000x1 ![0] bcast_S500000_S500000x1_0 : (⟨S500000, .i32⟩ : BufTy).Contents (Elt F) → (⟨S500000x1, .i32⟩ : BufTy).Contents (Elt F)),
    StableHlo.binary main_arg4 main_v57 main_v58 ((fun x i => Host.gather gather_S300000x128_S500000x1_S500000x128_1_0_n_n_0_1_1128 x i) : (⟨S300000x128, .f32⟩ : BufTy).Contents (Elt F) → (⟨S500000x1, .i32⟩ : BufTy).Contents (Elt F) → (⟨S500000x128, .f32⟩ : BufTy).Contents (Elt F)),
    StableHlo.unary main_v36 main_v59 (broadcastInDim S500000x1 ![0] bcast_S500000_S500000x1_0 : (⟨S500000, .i1⟩ : BufTy).Contents (Elt F) → (⟨S500000x1, .i1⟩ : BufTy).Contents (Elt F)),
    StableHlo.binary main_v44 main_v51 main_v60 (addf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x3F000000#32),
    StableHlo.unary main_cst main_v61 (broadcastInDim S500000x128 ![] bcast_S_S500000x128 : (⟨S_, .f32⟩ : BufTy).Contents (Elt F) → (⟨S500000x128, .f32⟩ : BufTy).Contents (Elt F)),
    StableHlo.binary main_v61 main_v60 main_v62 (mulf : (⟨S500000x128, .f32⟩ : BufTy).Contents (Elt F) → (⟨S500000x128, .f32⟩ : BufTy).Contents (Elt F) → (⟨S500000x128, .f32⟩ : BufTy).Contents (Elt F)),
    StableHlo.unary main_v8 main_v63 (broadcastInDim S500000x1 ![0] bcast_S500000_S500000x1_0 : (⟨S500000, .i1⟩ : BufTy).Contents (Elt F) → (⟨S500000x1, .i1⟩ : BufTy).Contents (Elt F)),
    StableHlo.TRef.unary (.of main_v63 : StableHlo.TRef sig ⟨S500000x1, .i1⟩) main_call0.v0 (broadcastInDim S500000x128 ![0, 1] bcast_S500000x1_S500000x128_0_1),
    StableHlo.TRef.ternary main_call0.v0 (.of main_v44 : StableHlo.TRef sig ⟨S500000x128, .f32⟩) (.of main_v58 : StableHlo.TRef sig ⟨S500000x128, .f32⟩) main_call0.v1 select,
    StableHlo.TRef.unary (.of main_v59 : StableHlo.TRef sig ⟨S500000x1, .i1⟩) main_call1.v0 (broadcastInDim S500000x128 ![0, 1] bcast_S500000x1_S500000x128_0_1),
    StableHlo.TRef.ternary main_call1.v0 (.of main_v62 : StableHlo.TRef sig ⟨S500000x128, .f32⟩) (.of main_v64 : StableHlo.TRef sig ⟨S500000x128, .f32⟩) main_call1.v1 select ]

/-- The remaining 150 operations of @main, from %66 on: the calls of `cumsum` (through `cumsum_0`: the zero, its
    broadcast, the windowed sum), `_where_1` (twice: the scalar converted to its own type, its broadcast, the
    select), `clip` (the lower bound converted and broadcast, the maximum, the upper bound converted and broadcast, the minimum), `_where_2`, `cumsum_3`
    (through `cumsum_4`) and `_where_5` listed over their records' fields among @main's own operations. -/
abbrev opsTail : List (HloOp τ sig (Elt F)) :=
  [ StableHlo.unary main_v37 main_v66 ((extui 32 · natLt_1_32) : (⟨S500000, .i1⟩ : BufTy).Contents (Elt F) → (⟨S500000, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v66 : StableHlo.TRef sig ⟨S500000, .i32⟩) main_call2.call0.v0 main_call2.call0.v1 (fun x v => Host.reduceWindow IntOp.addi ![500000] ![1] ![499999] ![0] x v reduceWindows_S500000_S500000_w500000s1p499999_0 h_S_),
    StableHlo.nullary main_c_19 (constantI S_ 32 1#32),
    StableHlo.unary main_c_19 main_v68 (broadcastInDim S500000 ![] bcast_S_S500000 : (⟨S_, .i32⟩ : BufTy).Contents (Elt F) → (⟨S500000, .i32⟩ : BufTy).Contents (Elt F)),
    StableHlo.binary main_v67 main_v68 main_v69 (subi : (⟨S500000, .i32⟩ : BufTy).Contents (Elt F) → (⟨S500000, .i32⟩ : BufTy).Contents (Elt F) → (⟨S500000, .i32⟩ : BufTy).Contents (Elt F)),
    StableHlo.nullary main_c_20 (constantI S_ 32 600000#32),
    StableHlo.TRef.unary (.of main_c_20 : StableHlo.TRef sig ⟨S_, .i32⟩) main_call3.v0 id,
    StableHlo.TRef.unary main_call3.v0 main_call3.v1 (broadcastInDim S500000 ![] bcast_S_S500000),
    StableHlo.TRef.ternary (.of main_v37 : StableHlo.TRef sig ⟨S500000, .i1⟩) (.of main_v69 : StableHlo.TRef sig ⟨S500000, .i32⟩) main_call3.v1 main_call3.v2 select,
    StableHlo.nullary main_cst_21 (constant S_ .f32 0x00000000#32),
    StableHlo.unary main_cst_21 main_v71 (broadcastInDim S600001x128 ![] bcast_S_S600001x128 : (⟨S_, .f32⟩ : BufTy).Contents (Elt F) → (⟨S600001x128, .f32⟩ : BufTy).Contents (Elt F)),
    StableHlo.nullary main_c_22 (constantI S_ 32 0#32),
    StableHlo.unary main_c_22 main_v72 (broadcastInDim S500000 ![] bcast_S_S500000 : (⟨S_, .i32⟩ : BufTy).Contents (Elt F) → (⟨S500000, .i32⟩ : BufTy).Contents (Elt F)),
    StableHlo.binary main_v70 main_v72 main_v73 (cmpi .slt : (⟨S500000, .i32⟩ : BufTy).Contents (Elt F) → (⟨S500000, .i32⟩ : BufTy).Contents (Elt F) → (⟨S500000, .i1⟩ : BufTy).Contents (Elt F)),
    StableHlo.nullary main_c_23 (constantI S_ 32 600001#32),
    StableHlo.unary main_c_23 main_v74 (broadcastInDim S500000 ![] bcast_S_S500000 : (⟨S_, .i32⟩ : BufTy).Contents (Elt F) → (⟨S500000, .i32⟩ : BufTy).Contents (Elt F)),
    StableHlo.binary main_v70 main_v74 main_v75 (addi : (⟨S500000, .i32⟩ : BufTy).Contents (Elt F) → (⟨S500000, .i32⟩ : BufTy).Contents (Elt F) → (⟨S500000, .i32⟩ : BufTy).Contents (Elt F)),
    StableHlo.ternary main_v73 main_v75 main_v70 main_v76 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v76 main_v77 (broadcastInDim S500000x1 ![0] bcast_S500000_S500000x1_0 : (⟨S500000, .i32⟩ : BufTy).Contents (Elt F) → (⟨S500000x1, .i32⟩ : BufTy).Contents (Elt F)),
    StableHlo.ternary main_v71 main_v77 main_v65 main_v78 ((fun x i u => Host.scatter scatter_S600001x128_S500000x1_S500000x128_1_0_0_1 (fun _ b => b) x i u) : (⟨S600001x128, .f32⟩ : BufTy).Contents (Elt F) → (⟨S500000x1, .i32⟩ : BufTy).Contents (Elt F) → (⟨S500000x128, .f32⟩ : BufTy).Contents (Elt F) → (⟨S600001x128, .f32⟩ : BufTy).Contents (Elt F)),
    StableHlo.unary main_v78 main_v79 ((extractStridedSlice S600000x128 ![0, 0] · slices_S600001x128_S600000x128_0_0) : (⟨S600001x128, .f32⟩ : BufTy).Contents (Elt F) → (⟨S600000x128, .f32⟩ : BufTy).Contents (Elt F)),
    StableHlo.nullary main_c_24 (constantI S_ 32 4294967295#32),
    StableHlo.unary main_c_24 main_v80 (broadcastInDim S600001 ![] bcast_S_S600001 : (⟨S_, .i32⟩ : BufTy).Contents (Elt F) → (⟨S600001, .i32⟩ : BufTy).Contents (Elt F)),
    StableHlo.nullary main_v81 (iotaInDim S500000 32 0),
    StableHlo.nullary main_c_25 (constantI S_ 32 0#32),
    StableHlo.unary main_c_25 main_v82 (broadcastInDim S500000 ![] bcast_S_S500000 : (⟨S_, .i32⟩ : BufTy).Contents (Elt F) → (⟨S500000, .i32⟩ : BufTy).Contents (Elt F)),
    StableHlo.binary main_v70 main_v82 main_v83 (cmpi .slt : (⟨S500000, .i32⟩ : BufTy).Contents (Elt F) → (⟨S500000, .i32⟩ : BufTy).Contents (Elt F) → (⟨S500000, .i1⟩ : BufTy).Contents (Elt F)),
    StableHlo.nullary main_c_26 (constantI S_ 32 600001#32),
    StableHlo.unary main_c_26 main_v84 (broadcastInDim S500000 ![] bcast_S_S500000 : (⟨S_, .i32⟩ : BufTy).Contents (Elt F) → (⟨S500000, .i32⟩ : BufTy).Contents (Elt F)),
    StableHlo.binary main_v70 main_v84 main_v85 (addi : (⟨S500000, .i32⟩ : BufTy).Contents (Elt F) → (⟨S500000, .i32⟩ : BufTy).Contents (Elt F) → (⟨S500000, .i32⟩ : BufTy).Contents (Elt F)),
    StableHlo.ternary main_v83 main_v85 main_v70 main_v86 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v86 main_v87 (broadcastInDim S500000x1 ![0] bcast_S500000_S500000x1_0 : (⟨S500000, .i32⟩ : BufTy).Contents (Elt F) → (⟨S500000x1, .i32⟩ : BufTy).Contents (Elt F)),
    StableHlo.ternary main_v80 main_v87 main_v81 main_v88 ((fun x i u => Host.scatter scatter_S600001_S500000x1_S500000_n_0_0_1 (fun _ b => b) x i u) : (⟨S600001, .i32⟩ : BufTy).Contents (Elt F) → (⟨S500000x1, .i32⟩ : BufTy).Contents (Elt F) → (⟨S500000, .i32⟩ : BufTy).Contents (Elt F) → (⟨S600001, .i32⟩ : BufTy).Contents (Elt F)),
    StableHlo.unary main_v88 main_v89 ((extractStridedSlice S600000 ![0] · slices_S600001_S600000_0) : (⟨S600001, .i32⟩ : BufTy).Contents (Elt F) → (⟨S600000, .i32⟩ : BufTy).Contents (Elt F)),
    StableHlo.nullary main_c_27 (constantI S_ 32 0#32),
    StableHlo.unary main_c_27 main_v90 (broadcastInDim S600000 ![] bcast_S_S600000 : (⟨S_, .i32⟩ : BufTy).Contents (Elt F) → (⟨S600000, .i32⟩ : BufTy).Contents (Elt F)),
    StableHlo.binary main_v89 main_v90 main_v91 (cmpi .sge : (⟨S600000, .i32⟩ : BufTy).Contents (Elt F) → (⟨S600000, .i32⟩ : BufTy).Contents (Elt F) → (⟨S600000, .i1⟩ : BufTy).Contents (Elt F)),
    StableHlo.nullary main_c_28 (constantI S_ 32 0#32),
    StableHlo.nullary main_c_29 (constantI S_ 32 499999#32),
    StableHlo.TRef.unary (.of main_c_28 : StableHlo.TRef sig ⟨S_, .i32⟩) main_call4.v0 id,
    StableHlo.TRef.unary main_call4.v0 main_call4.v1 (broadcastInDim S600000 ![] bcast_S_S600000),
    StableHlo.TRef.binary main_call4.v1 (.of main_v89 : StableHlo.TRef sig ⟨S600000, .i32⟩) main_call4.v2 maxsi,
    StableHlo.TRef.unary (.of main_c_29 : StableHlo.TRef sig ⟨S_, .i32⟩) main_call4.v3 id,
    StableHlo.TRef.unary main_call4.v3 main_call4.v4 (broadcastInDim S600000 ![] bcast_S_S600000),
    StableHlo.TRef.binary main_call4.v4 main_call4.v2 main_call4.v5 minsi,
    StableHlo.nullary main_c_30 (constantI S_ 32 0#32),
    StableHlo.unary main_c_30 main_v93 (broadcastInDim S600000 ![] bcast_S_S600000 : (⟨S_, .i32⟩ : BufTy).Contents (Elt F) → (⟨S600000, .i32⟩ : BufTy).Contents (Elt F)),
    StableHlo.binary main_v92 main_v93 main_v94 (cmpi .slt : (⟨S600000, .i32⟩ : BufTy).Contents (Elt F) → (⟨S600000, .i32⟩ : BufTy).Contents (Elt F) → (⟨S600000, .i1⟩ : BufTy).Contents (Elt F)),
    StableHlo.nullary main_c_31 (constantI S_ 32 500000#32),
    StableHlo.unary main_c_31 main_v95 (broadcastInDim S600000 ![] bcast_S_S600000 : (⟨S_, .i32⟩ : BufTy).Contents (Elt F) → (⟨S600000, .i32⟩ : BufTy).Contents (Elt F)),
    StableHlo.binary main_v92 main_v95 main_v96 (addi : (⟨S600000, .i32⟩ : BufTy).Contents (Elt F) → (⟨S600000, .i32⟩ : BufTy).Contents (Elt F) → (⟨S600000, .i32⟩ : BufTy).Contents (Elt F)),
    StableHlo.ternary main_v94 main_v96 main_v92 main_v97 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v97 main_v98 (broadcastInDim S600000x1 ![0] bcast_S600000_S600000x1_0 : (⟨S600000, .i32⟩ : BufTy).Contents (Elt F) → (⟨S600000x1, .i32⟩ : BufTy).Contents (Elt F)),
    StableHlo.binary main_arg5 main_v98 main_v99 ((fun x i => Host.gather gather_S500000_S600000x1_S600000_n_0_n_n_0_1_1 x i) : (⟨S500000, .i32⟩ : BufTy).Contents (Elt F) → (⟨S600000x1, .i32⟩ : BufTy).Contents (Elt F) → (⟨S600000, .i32⟩ : BufTy).Contents (Elt F)),
    StableHlo.nullary main_c_32 (constantI S_ 32 4294967295#32),
    StableHlo.TRef.unary (.of main_c_32 : StableHlo.TRef sig ⟨S_, .i32⟩) main_call5.v0 id,
    StableHlo.TRef.unary main_call5.v0 main_call5.v1 (broadcastInDim S600000 ![] bcast_S_S600000),
    StableHlo.TRef.ternary (.of main_v91 : StableHlo.TRef sig ⟨S600000, .i1⟩) (.of main_v99 : StableHlo.TRef sig ⟨S600000, .i32⟩) main_call5.v1 main_call5.v2 select,
    StableHlo.nullary main_c_33 (constantI S_ 32 4294967295#32),
    StableHlo.TRef.unary (.of main_c_33 : StableHlo.TRef sig ⟨S_, .i32⟩) main_call6.v0 id,
    StableHlo.TRef.unary main_call6.v0 main_call6.v1 (broadcastInDim S500000 ![] bcast_S_S500000),
    StableHlo.TRef.ternary (.of main_v37 : StableHlo.TRef sig ⟨S500000, .i1⟩) (.of main_v69 : StableHlo.TRef sig ⟨S500000, .i32⟩) main_call6.v1 main_call6.v2 select,
    StableHlo.unary main_arg6 main_v102 ((extractStridedSlice S1x8000000 ![0, 0] · slices_S2x8000000_S1x8000000_0_0) : (⟨S2x8000000, .i32⟩ : BufTy).Contents (Elt F) → (⟨S1x8000000, .i32⟩ : BufTy).Contents (Elt F)),
    StableHlo.reshape main_v102 main_v103 rfl shapeCasts_S1x8000000_S8000000,
    StableHlo.unary main_arg6 main_v104 ((extractStridedSlice S1x8000000 ![1, 0] · slices_S2x8000000_S1x8000000_1_0) : (⟨S2x8000000, .i32⟩ : BufTy).Contents (Elt F) → (⟨S1x8000000, .i32⟩ : BufTy).Contents (Elt F)),
    StableHlo.reshape main_v104 main_v105 rfl shapeCasts_S1x8000000_S8000000,
    StableHlo.nullary main_c_34 (constantI S_ 32 0#32),
    StableHlo.unary main_c_34 main_v106 (broadcastInDim S8000000 ![] bcast_S_S8000000 : (⟨S_, .i32⟩ : BufTy).Contents (Elt F) → (⟨S8000000, .i32⟩ : BufTy).Contents (Elt F)),
    StableHlo.binary main_v103 main_v106 main_v107 (cmpi .slt : (⟨S8000000, .i32⟩ : BufTy).Contents (Elt F) → (⟨S8000000, .i32⟩ : BufTy).Contents (Elt F) → (⟨S8000000, .i1⟩ : BufTy).Contents (Elt F)),
    StableHlo.nullary main_c_35 (constantI S_ 32 500000#32),
    StableHlo.unary main_c_35 main_v108 (broadcastInDim S8000000 ![] bcast_S_S8000000 : (⟨S_, .i32⟩ : BufTy).Contents (Elt F) → (⟨S8000000, .i32⟩ : BufTy).Contents (Elt F)),
    StableHlo.binary main_v103 main_v108 main_v109 (addi : (⟨S8000000, .i32⟩ : BufTy).Contents (Elt F) → (⟨S8000000, .i32⟩ : BufTy).Contents (Elt F) → (⟨S8000000, .i32⟩ : BufTy).Contents (Elt F)),
    StableHlo.ternary main_v107 main_v109 main_v103 main_v110 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v110 main_v111 (broadcastInDim S8000000x1 ![0] bcast_S8000000_S8000000x1_0 : (⟨S8000000, .i32⟩ : BufTy).Contents (Elt F) → (⟨S8000000x1, .i32⟩ : BufTy).Contents (Elt F)),
    StableHlo.binary main_v37 main_v111 main_v112 ((fun x i => Host.gather gather_S500000_S8000000x1_S8000000_n_0_n_n_0_1_1 x i) : (⟨S500000, .i1⟩ : BufTy).Contents (Elt F) → (⟨S8000000x1, .i32⟩ : BufTy).Contents (Elt F) → (⟨S8000000, .i1⟩ : BufTy).Contents (Elt F)),
    StableHlo.nullary main_c_36 (constantI S_ 32 0#32),
    StableHlo.unary main_c_36 main_v113 (broadcastInDim S8000000 ![] bcast_S_S8000000 : (⟨S_, .i32⟩ : BufTy).Contents (Elt F) → (⟨S8000000, .i32⟩ : BufTy).Contents (Elt F)),
    StableHlo.binary main_v105 main_v113 main_v114 (cmpi .slt : (⟨S8000000, .i32⟩ : BufTy).Contents (Elt F) → (⟨S8000000, .i32⟩ : BufTy).Contents (Elt F) → (⟨S8000000, .i1⟩ : BufTy).Contents (Elt F)),
    StableHlo.nullary main_c_37 (constantI S_ 32 500000#32),
    StableHlo.unary main_c_37 main_v115 (broadcastInDim S8000000 ![] bcast_S_S8000000 : (⟨S_, .i32⟩ : BufTy).Contents (Elt F) → (⟨S8000000, .i32⟩ : BufTy).Contents (Elt F)),
    StableHlo.binary main_v105 main_v115 main_v116 (addi : (⟨S8000000, .i32⟩ : BufTy).Contents (Elt F) → (⟨S8000000, .i32⟩ : BufTy).Contents (Elt F) → (⟨S8000000, .i32⟩ : BufTy).Contents (Elt F)),
    StableHlo.ternary main_v114 main_v116 main_v105 main_v117 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v117 main_v118 (broadcastInDim S8000000x1 ![0] bcast_S8000000_S8000000x1_0 : (⟨S8000000, .i32⟩ : BufTy).Contents (Elt F) → (⟨S8000000x1, .i32⟩ : BufTy).Contents (Elt F)),
    StableHlo.binary main_v37 main_v118 main_v119 ((fun x i => Host.gather gather_S500000_S8000000x1_S8000000_n_0_n_n_0_1_1 x i) : (⟨S500000, .i1⟩ : BufTy).Contents (Elt F) → (⟨S8000000x1, .i32⟩ : BufTy).Contents (Elt F) → (⟨S8000000, .i1⟩ : BufTy).Contents (Elt F)),
    StableHlo.binary main_v112 main_v119 main_v120 (andi : (⟨S8000000, .i1⟩ : BufTy).Contents (Elt F) → (⟨S8000000, .i1⟩ : BufTy).Contents (Elt F) → (⟨S8000000, .i1⟩ : BufTy).Contents (Elt F)),
    StableHlo.unary main_v120 main_v121 ((extui 32 · natLt_1_32) : (⟨S8000000, .i1⟩ : BufTy).Contents (Elt F) → (⟨S8000000, .i32⟩ : BufTy).Contents (Elt F)),
    StableHlo.TRef.nullary main_call7.call0.c (constantI S_ 32 0#32),
    StableHlo.TRef.unary main_call7.call0.c main_call7.call0.v0 (broadcastInDim S_ ![] bcast_S_S_),
    StableHlo.TRef.binary (.of main_v121 : StableHlo.TRef sig ⟨S8000000, .i32⟩) main_call7.call0.v0 main_call7.call0.v1 (fun x v => Host.reduceWindow IntOp.addi ![8000000] ![1] ![7999999] ![0] x v reduceWindows_S8000000_S8000000_w8000000s1p7999999_0 h_S_),
    StableHlo.nullary main_c_38 (constantI S_ 32 1#32),
    StableHlo.unary main_c_38 main_v123 (broadcastInDim S8000000 ![] bcast_S_S8000000 : (⟨S_, .i32⟩ : BufTy).Contents (Elt F) → (⟨S8000000, .i32⟩ : BufTy).Contents (Elt F)),
    StableHlo.binary main_v122 main_v123 main_v124 (subi : (⟨S8000000, .i32⟩ : BufTy).Contents (Elt F) → (⟨S8000000, .i32⟩ : BufTy).Contents (Elt F) → (⟨S8000000, .i32⟩ : BufTy).Contents (Elt F)),
    StableHlo.nullary main_c_39 (constantI S_ 32 8000000#32),
    StableHlo.TRef.unary (.of main_c_39 : StableHlo.TRef sig ⟨S_, .i32⟩) main_call8.v0 id,
    StableHlo.TRef.unary main_call8.v0 main_call8.v1 (broadcastInDim S8000000 ![] bcast_S_S8000000),
    StableHlo.TRef.ternary (.of main_v120 : StableHlo.TRef sig ⟨S8000000, .i1⟩) (.of main_v124 : StableHlo.TRef sig ⟨S8000000, .i32⟩) main_call8.v1 main_call8.v2 select,
    StableHlo.nullary main_c_40 (constantI S_ 32 0#32),
    StableHlo.unary main_c_40 main_v126 (broadcastInDim S8000000 ![] bcast_S_S8000000 : (⟨S_, .i32⟩ : BufTy).Contents (Elt F) → (⟨S8000000, .i32⟩ : BufTy).Contents (Elt F)),
    StableHlo.binary main_v103 main_v126 main_v127 (cmpi .slt : (⟨S8000000, .i32⟩ : BufTy).Contents (Elt F) → (⟨S8000000, .i32⟩ : BufTy).Contents (Elt F) → (⟨S8000000, .i1⟩ : BufTy).Contents (Elt F)),
    StableHlo.nullary main_c_41 (constantI S_ 32 500000#32),
    StableHlo.unary main_c_41 main_v128 (broadcastInDim S8000000 ![] bcast_S_S8000000 : (⟨S_, .i32⟩ : BufTy).Contents (Elt F) → (⟨S8000000, .i32⟩ : BufTy).Contents (Elt F)),
    StableHlo.binary main_v103 main_v128 main_v129 (addi : (⟨S8000000, .i32⟩ : BufTy).Contents (Elt F) → (⟨S8000000, .i32⟩ : BufTy).Contents (Elt F) → (⟨S8000000, .i32⟩ : BufTy).Contents (Elt F)),
    StableHlo.ternary main_v127 main_v129 main_v103 main_v130 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v130 main_v131 (broadcastInDim S8000000x1 ![0] bcast_S8000000_S8000000x1_0 : (⟨S8000000, .i32⟩ : BufTy).Contents (Elt F) → (⟨S8000000x1, .i32⟩ : BufTy).Contents (Elt F)),
    StableHlo.binary main_v101 main_v131 main_v132 ((fun x i => Host.gather gather_S500000_S8000000x1_S8000000_n_0_n_n_0_1_1 x i) : (⟨S500000, .i32⟩ : BufTy).Contents (Elt F) → (⟨S8000000x1, .i32⟩ : BufTy).Contents (Elt F) → (⟨S8000000, .i32⟩ : BufTy).Contents (Elt F)),
    StableHlo.nullary main_c_42 (constantI S_ 32 0#32),
    StableHlo.unary main_c_42 main_v133 (broadcastInDim S8000000 ![] bcast_S_S8000000 : (⟨S_, .i32⟩ : BufTy).Contents (Elt F) → (⟨S8000000, .i32⟩ : BufTy).Contents (Elt F)),
    StableHlo.binary main_v105 main_v133 main_v134 (cmpi .slt : (⟨S8000000, .i32⟩ : BufTy).Contents (Elt F) → (⟨S8000000, .i32⟩ : BufTy).Contents (Elt F) → (⟨S8000000, .i1⟩ : BufTy).Contents (Elt F)),
    StableHlo.nullary main_c_43 (constantI S_ 32 500000#32),
    StableHlo.unary main_c_43 main_v135 (broadcastInDim S8000000 ![] bcast_S_S8000000 : (⟨S_, .i32⟩ : BufTy).Contents (Elt F) → (⟨S8000000, .i32⟩ : BufTy).Contents (Elt F)),
    StableHlo.binary main_v105 main_v135 main_v136 (addi : (⟨S8000000, .i32⟩ : BufTy).Contents (Elt F) → (⟨S8000000, .i32⟩ : BufTy).Contents (Elt F) → (⟨S8000000, .i32⟩ : BufTy).Contents (Elt F)),
    StableHlo.ternary main_v134 main_v136 main_v105 main_v137 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v137 main_v138 (broadcastInDim S8000000x1 ![0] bcast_S8000000_S8000000x1_0 : (⟨S8000000, .i32⟩ : BufTy).Contents (Elt F) → (⟨S8000000x1, .i32⟩ : BufTy).Contents (Elt F)),
    StableHlo.binary main_v101 main_v138 main_v139 ((fun x i => Host.gather gather_S500000_S8000000x1_S8000000_n_0_n_n_0_1_1 x i) : (⟨S500000, .i32⟩ : BufTy).Contents (Elt F) → (⟨S8000000x1, .i32⟩ : BufTy).Contents (Elt F) → (⟨S8000000, .i32⟩ : BufTy).Contents (Elt F)),
    StableHlo.unary main_v132 main_v140 (broadcastInDim S8000000x1 ![0] bcast_S8000000_S8000000x1_0 : (⟨S8000000, .i32⟩ : BufTy).Contents (Elt F) → (⟨S8000000x1, .i32⟩ : BufTy).Contents (Elt F)),
    StableHlo.unary main_v139 main_v141 (broadcastInDim S8000000x1 ![0] bcast_S8000000_S8000000x1_0 : (⟨S8000000, .i32⟩ : BufTy).Contents (Elt F) → (⟨S8000000x1, .i32⟩ : BufTy).Contents (Elt F)),
    StableHlo.binary main_v140 main_v141 main_v142 ((fun a b => concatenate S8000000x2 1 [⟨S8000000x1, a⟩, ⟨S8000000x1, b⟩] concatenates_S8000000x1_S8000000x1_S8000000x2_d1) : (⟨S8000000x1, .i32⟩ : BufTy).Contents (Elt F) → (⟨S8000000x1, .i32⟩ : BufTy).Contents (Elt F) → (⟨S8000000x2, .i32⟩ : BufTy).Contents (Elt F)),
    StableHlo.nullary main_c_44 (constantI S_ 32 4294967295#32),
    StableHlo.unary main_c_44 main_v143 (broadcastInDim S8000001x2 ![] bcast_S_S8000001x2 : (⟨S_, .i32⟩ : BufTy).Contents (Elt F) → (⟨S8000001x2, .i32⟩ : BufTy).Contents (Elt F)),
    StableHlo.nullary main_c_45 (constantI S_ 32 0#32),
    StableHlo.unary main_c_45 main_v144 (broadcastInDim S8000000 ![] bcast_S_S8000000 : (⟨S_, .i32⟩ : BufTy).Contents (Elt F) → (⟨S8000000, .i32⟩ : BufTy).Contents (Elt F)),
    StableHlo.binary main_v125 main_v144 main_v145 (cmpi .slt : (⟨S8000000, .i32⟩ : BufTy).Contents (Elt F) → (⟨S8000000, .i32⟩ : BufTy).Contents (Elt F) → (⟨S8000000, .i1⟩ : BufTy).Contents (Elt F)),
    StableHlo.nullary main_c_46 (constantI S_ 32 8000001#32),
    StableHlo.unary main_c_46 main_v146 (broadcastInDim S8000000 ![] bcast_S_S8000000 : (⟨S_, .i32⟩ : BufTy).Contents (Elt F) → (⟨S8000000, .i32⟩ : BufTy).Contents (Elt F)),
    StableHlo.binary main_v125 main_v146 main_v147 (addi : (⟨S8000000, .i32⟩ : BufTy).Contents (Elt F) → (⟨S8000000, .i32⟩ : BufTy).Contents (Elt F) → (⟨S8000000, .i32⟩ : BufTy).Contents (Elt F)),
    StableHlo.ternary main_v145 main_v147 main_v125 main_v148 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v148 main_v149 (broadcastInDim S8000000x1 ![0] bcast_S8000000_S8000000x1_0 : (⟨S8000000, .i32⟩ : BufTy).Contents (Elt F) → (⟨S8000000x1, .i32⟩ : BufTy).Contents (Elt F)),
    StableHlo.ternary main_v143 main_v149 main_v142 main_v150 ((fun x i u => Host.scatter scatter_S8000001x2_S8000000x1_S8000000x2_1_0_0_1 (fun _ b => b) x i u) : (⟨S8000001x2, .i32⟩ : BufTy).Contents (Elt F) → (⟨S8000000x1, .i32⟩ : BufTy).Contents (Elt F) → (⟨S8000000x2, .i32⟩ : BufTy).Contents (Elt F) → (⟨S8000001x2, .i32⟩ : BufTy).Contents (Elt F)),
    StableHlo.unary main_v150 main_v151 ((extractStridedSlice S8000000x2 ![0, 0] · slices_S8000001x2_S8000000x2_0_0) : (⟨S8000001x2, .i32⟩ : BufTy).Contents (Elt F) → (⟨S8000000x2, .i32⟩ : BufTy).Contents (Elt F)),
    StableHlo.unary main_v151 main_v152 ((transpose S2x8000000 [1, 0] · transposes_S8000000x2_S2x8000000_1_0) : (⟨S8000000x2, .i32⟩ : BufTy).Contents (Elt F) → (⟨S2x8000000, .i32⟩ : BufTy).Contents (Elt F)),
    StableHlo.nullary main_cst_47 (constant S_ .f32 0x00000000#32),
    StableHlo.unary main_cst_47 main_v153 (broadcastInDim S8000001 ![] bcast_S_S8000001 : (⟨S_, .f32⟩ : BufTy).Contents (Elt F) → (⟨S8000001, .f32⟩ : BufTy).Contents (Elt F)),
    StableHlo.nullary main_c_48 (constantI S_ 32 0#32),
    StableHlo.unary main_c_48 main_v154 (broadcastInDim S8000000 ![] bcast_S_S8000000 : (⟨S_, .i32⟩ : BufTy).Contents (Elt F) → (⟨S8000000, .i32⟩ : BufTy).Contents (Elt F)),
    StableHlo.binary main_v125 main_v154 main_v155 (cmpi .slt : (⟨S8000000, .i32⟩ : BufTy).Contents (Elt F) → (⟨S8000000, .i32⟩ : BufTy).Contents (Elt F) → (⟨S8000000, .i1⟩ : BufTy).Contents (Elt F)),
    StableHlo.nullary main_c_49 (constantI S_ 32 8000001#32),
    StableHlo.unary main_c_49 main_v156 (broadcastInDim S8000000 ![] bcast_S_S8000000 : (⟨S_, .i32⟩ : BufTy).Contents (Elt F) → (⟨S8000000, .i32⟩ : BufTy).Contents (Elt F)),
    StableHlo.binary main_v125 main_v156 main_v157 (addi : (⟨S8000000, .i32⟩ : BufTy).Contents (Elt F) → (⟨S8000000, .i32⟩ : BufTy).Contents (Elt F) → (⟨S8000000, .i32⟩ : BufTy).Contents (Elt F)),
    StableHlo.ternary main_v155 main_v157 main_v125 main_v158 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v158 main_v159 (broadcastInDim S8000000x1 ![0] bcast_S8000000_S8000000x1_0 : (⟨S8000000, .i32⟩ : BufTy).Contents (Elt F) → (⟨S8000000x1, .i32⟩ : BufTy).Contents (Elt F)),
    StableHlo.ternary main_v153 main_v159 main_arg7 main_v160 ((fun x i u => Host.scatter scatter_S8000001_S8000000x1_S8000000_n_0_0_1 (fun _ b => b) x i u) : (⟨S8000001, .f32⟩ : BufTy).Contents (Elt F) → (⟨S8000000x1, .i32⟩ : BufTy).Contents (Elt F) → (⟨S8000000, .f32⟩ : BufTy).Contents (Elt F) → (⟨S8000001, .f32⟩ : BufTy).Contents (Elt F)),
    StableHlo.unary main_v160 main_v161 ((extractStridedSlice S8000000 ![0] · slices_S8000001_S8000000_0) : (⟨S8000001, .f32⟩ : BufTy).Contents (Elt F) → (⟨S8000000, .f32⟩ : BufTy).Contents (Elt F)),
    StableHlo.unary main_v37 main_v162 ((extui 32 · natLt_1_32) : (⟨S500000, .i1⟩ : BufTy).Contents (Elt F) → (⟨S500000, .i32⟩ : BufTy).Contents (Elt F)),
    StableHlo.nullary main_c_50 (constantI S_ 32 0#32),
    StableHlo.binary main_v162 main_c_50 main_v163 ((fun x v => Host.reduce IntOp.addi x v reducesTo_S500000_S_d0 h_S_) : (⟨S500000, .i32⟩ : BufTy).Contents (Elt F) → (⟨S_, .i32⟩ : BufTy).Contents (Elt F) → (⟨S_, .i32⟩ : BufTy).Contents (Elt F)),
    StableHlo.unary main_v120 main_v164 ((extui 32 · natLt_1_32) : (⟨S8000000, .i1⟩ : BufTy).Contents (Elt F) → (⟨S8000000, .i32⟩ : BufTy).Contents (Elt F)),
    StableHlo.nullary main_c_51 (constantI S_ 32 0#32),
    StableHlo.binary main_v164 main_c_51 main_v165 ((fun x v => Host.reduce IntOp.addi x v reducesTo_S8000000_S_d0 h_S_) : (⟨S8000000, .i32⟩ : BufTy).Contents (Elt F) → (⟨S_, .i32⟩ : BufTy).Contents (Elt F) → (⟨S_, .i32⟩ : BufTy).Contents (Elt F)) ]

/-- The operations of @main in program order, every call's body listed inline at the call site over that call's
    buffer record. -/
abbrev ops : List (HloOp τ sig (Elt F)) := opsHead ++ opsTail

theorem ops_eq : (ops : List (HloOp τ sig (Elt F))) = opsHead ++ opsTail := rfl

end Cert.ReferenceIdeal.RefRun

end
-- ==== Proof.RefRun0.lean ====
/-
  Statements 1 … 60 of the reference's @main as a list of StableHLO operations, in program order: the window
  is the straight line of these operations (`StableHlo.seq`), every one of them touches TensorCore references only,
  and none of them writes one of @main's eight arguments.
-/
import proofs.«138900_j62680752717907_2_alg».proof.ReferenceIdeal
import proofs.«138900_j62680752717907_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The 60 operations of @main's statements 1 … 60, in program order; none of them is a call. -/
abbrev ops0 : List (HloOp τ sig (Elt F)) :=
  [ StableHlo.nullary main_c (constantI S_ 1 0#1),
    StableHlo.unary main_c main_v0 (broadcastInDim S500000 ![] bcast_S_S500000 : (⟨S_, .i1⟩ : BufTy).Contents (Elt F) → (⟨S500000, .i1⟩ : BufTy).Contents (Elt F)),
    StableHlo.nullary main_c_0 (constantI S_ 32 0#32),
    StableHlo.unary main_c_0 main_v1 (broadcastInDim S300000 ![] bcast_S_S300000 : (⟨S_, .i32⟩ : BufTy).Contents (Elt F) → (⟨S300000, .i32⟩ : BufTy).Contents (Elt F)),
    StableHlo.binary main_arg0 main_v1 main_v2 (cmpi .slt : (⟨S300000, .i32⟩ : BufTy).Contents (Elt F) → (⟨S300000, .i32⟩ : BufTy).Contents (Elt F) → (⟨S300000, .i1⟩ : BufTy).Contents (Elt F)),
    StableHlo.nullary main_c_1 (constantI S_ 32 500000#32),
    StableHlo.unary main_c_1 main_v3 (broadcastInDim S300000 ![] bcast_S_S300000 : (⟨S_, .i32⟩ : BufTy).Contents (Elt F) → (⟨S300000, .i32⟩ : BufTy).Contents (Elt F)),
    StableHlo.binary main_arg0 main_v3 main_v4 (addi : (⟨S300000, .i32⟩ : BufTy).Contents (Elt F) → (⟨S300000, .i32⟩ : BufTy).Contents (Elt F) → (⟨S300000, .i32⟩ : BufTy).Contents (Elt F)),
    StableHlo.ternary main_v2 main_v4 main_arg0 main_v5 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v5 main_v6 (broadcastInDim S300000x1 ![0] bcast_S300000_S300000x1_0 : (⟨S300000, .i32⟩ : BufTy).Contents (Elt F) → (⟨S300000x1, .i32⟩ : BufTy).Contents (Elt F)),
    StableHlo.nullary main_c_2 (constantI S_ 1 1#1),
    StableHlo.unary main_c_2 main_v7 (broadcastInDim S300000 ![] bcast_S_S300000 : (⟨S_, .i1⟩ : BufTy).Contents (Elt F) → (⟨S300000, .i1⟩ : BufTy).Contents (Elt F)),
    StableHlo.ternary main_v0 main_v6 main_v7 main_v8 ((fun x i u => Host.scatter scatter_S500000_S300000x1_S300000_n_0_0_1 (fun _ b => b) x i u) : (⟨S500000, .i1⟩ : BufTy).Contents (Elt F) → (⟨S300000x1, .i32⟩ : BufTy).Contents (Elt F) → (⟨S300000, .i1⟩ : BufTy).Contents (Elt F) → (⟨S500000, .i1⟩ : BufTy).Contents (Elt F)),
    StableHlo.nullary main_c_3 (constantI S_ 1 0#1),
    StableHlo.unary main_c_3 main_v9 (broadcastInDim S500000 ![] bcast_S_S500000 : (⟨S_, .i1⟩ : BufTy).Contents (Elt F) → (⟨S500000, .i1⟩ : BufTy).Contents (Elt F)),
    StableHlo.nullary main_c_4 (constantI S_ 32 0#32),
    StableHlo.unary main_c_4 main_v10 (broadcastInDim S300000 ![] bcast_S_S300000 : (⟨S_, .i32⟩ : BufTy).Contents (Elt F) → (⟨S300000, .i32⟩ : BufTy).Contents (Elt F)),
    StableHlo.binary main_arg1 main_v10 main_v11 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 500000#32),
    StableHlo.unary main_c_5 main_v12 (broadcastInDim S300000 ![] bcast_S_S300000 : (⟨S_, .i32⟩ : BufTy).Contents (Elt F) → (⟨S300000, .i32⟩ : BufTy).Contents (Elt F)),
    StableHlo.binary main_arg1 main_v12 main_v13 (addi : (⟨S300000, .i32⟩ : BufTy).Contents (Elt F) → (⟨S300000, .i32⟩ : BufTy).Contents (Elt F) → (⟨S300000, .i32⟩ : BufTy).Contents (Elt F)),
    StableHlo.ternary main_v11 main_v13 main_arg1 main_v14 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v14 main_v15 (broadcastInDim S300000x1 ![0] bcast_S300000_S300000x1_0 : (⟨S300000, .i32⟩ : BufTy).Contents (Elt F) → (⟨S300000x1, .i32⟩ : BufTy).Contents (Elt F)),
    StableHlo.nullary main_c_6 (constantI S_ 1 1#1),
    StableHlo.unary main_c_6 main_v16 (broadcastInDim S300000 ![] bcast_S_S300000 : (⟨S_, .i1⟩ : BufTy).Contents (Elt F) → (⟨S300000, .i1⟩ : BufTy).Contents (Elt F)),
    StableHlo.ternary main_v9 main_v15 main_v16 main_v17 ((fun x i u => Host.scatter scatter_S500000_S300000x1_S300000_n_0_0_1 (fun _ b => b) x i u) : (⟨S500000, .i1⟩ : BufTy).Contents (Elt F) → (⟨S300000x1, .i32⟩ : BufTy).Contents (Elt F) → (⟨S300000, .i1⟩ : BufTy).Contents (Elt F) → (⟨S500000, .i1⟩ : BufTy).Contents (Elt F)),
    StableHlo.nullary main_c_7 (constantI S_ 32 0#32),
    StableHlo.unary main_c_7 main_v18 (broadcastInDim S500000 ![] bcast_S_S500000 : (⟨S_, .i32⟩ : BufTy).Contents (Elt F) → (⟨S500000, .i32⟩ : BufTy).Contents (Elt F)),
    StableHlo.nullary main_v19 (iotaInDim S300000 32 0),
    StableHlo.nullary main_c_8 (constantI S_ 32 0#32),
    StableHlo.unary main_c_8 main_v20 (broadcastInDim S300000 ![] bcast_S_S300000 : (⟨S_, .i32⟩ : BufTy).Contents (Elt F) → (⟨S300000, .i32⟩ : BufTy).Contents (Elt F)),
    StableHlo.binary main_arg0 main_v20 main_v21 (cmpi .slt : (⟨S300000, .i32⟩ : BufTy).Contents (Elt F) → (⟨S300000, .i32⟩ : BufTy).Contents (Elt F) → (⟨S300000, .i1⟩ : BufTy).Contents (Elt F)),
    StableHlo.nullary main_c_9 (constantI S_ 32 500000#32),
    StableHlo.unary main_c_9 main_v22 (broadcastInDim S300000 ![] bcast_S_S300000 : (⟨S_, .i32⟩ : BufTy).Contents (Elt F) → (⟨S300000, .i32⟩ : BufTy).Contents (Elt F)),
    StableHlo.binary main_arg0 main_v22 main_v23 (addi : (⟨S300000, .i32⟩ : BufTy).Contents (Elt F) → (⟨S300000, .i32⟩ : BufTy).Contents (Elt F) → (⟨S300000, .i32⟩ : BufTy).Contents (Elt F)),
    StableHlo.ternary main_v21 main_v23 main_arg0 main_v24 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v24 main_v25 (broadcastInDim S300000x1 ![0] bcast_S300000_S300000x1_0 : (⟨S300000, .i32⟩ : BufTy).Contents (Elt F) → (⟨S300000x1, .i32⟩ : BufTy).Contents (Elt F)),
    StableHlo.ternary main_v18 main_v25 main_v19 main_v26 ((fun x i u => Host.scatter scatter_S500000_S300000x1_S300000_n_0_0_1 (fun _ b => b) x i u) : (⟨S500000, .i32⟩ : BufTy).Contents (Elt F) → (⟨S300000x1, .i32⟩ : BufTy).Contents (Elt F) → (⟨S300000, .i32⟩ : BufTy).Contents (Elt F) → (⟨S500000, .i32⟩ : BufTy).Contents (Elt F)),
    StableHlo.nullary main_c_10 (constantI S_ 32 0#32),
    StableHlo.unary main_c_10 main_v27 (broadcastInDim S500000 ![] bcast_S_S500000 : (⟨S_, .i32⟩ : BufTy).Contents (Elt F) → (⟨S500000, .i32⟩ : BufTy).Contents (Elt F)),
    StableHlo.nullary main_v28 (iotaInDim S300000 32 0),
    StableHlo.nullary main_c_11 (constantI S_ 32 0#32),
    StableHlo.unary main_c_11 main_v29 (broadcastInDim S300000 ![] bcast_S_S300000 : (⟨S_, .i32⟩ : BufTy).Contents (Elt F) → (⟨S300000, .i32⟩ : BufTy).Contents (Elt F)),
    StableHlo.binary main_arg1 main_v29 main_v30 (cmpi .slt : (⟨S300000, .i32⟩ : BufTy).Contents (Elt F) → (⟨S300000, .i32⟩ : BufTy).Contents (Elt F) → (⟨S300000, .i1⟩ : BufTy).Contents (Elt F)),
    StableHlo.nullary main_c_12 (constantI S_ 32 500000#32),
    StableHlo.unary main_c_12 main_v31 (broadcastInDim S300000 ![] bcast_S_S300000 : (⟨S_, .i32⟩ : BufTy).Contents (Elt F) → (⟨S300000, .i32⟩ : BufTy).Contents (Elt F)),
    StableHlo.binary main_arg1 main_v31 main_v32 (addi : (⟨S300000, .i32⟩ : BufTy).Contents (Elt F) → (⟨S300000, .i32⟩ : BufTy).Contents (Elt F) → (⟨S300000, .i32⟩ : BufTy).Contents (Elt F)),
    StableHlo.ternary main_v30 main_v32 main_arg1 main_v33 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v33 main_v34 (broadcastInDim S300000x1 ![0] bcast_S300000_S300000x1_0 : (⟨S300000, .i32⟩ : BufTy).Contents (Elt F) → (⟨S300000x1, .i32⟩ : BufTy).Contents (Elt F)),
    StableHlo.ternary main_v27 main_v34 main_v28 main_v35 ((fun x i u => Host.scatter scatter_S500000_S300000x1_S300000_n_0_0_1 (fun _ b => b) x i u) : (⟨S500000, .i32⟩ : BufTy).Contents (Elt F) → (⟨S300000x1, .i32⟩ : BufTy).Contents (Elt F) → (⟨S300000, .i32⟩ : BufTy).Contents (Elt F) → (⟨S500000, .i32⟩ : BufTy).Contents (Elt F)),
    StableHlo.binary main_v8 main_v17 main_v36 (andi : (⟨S500000, .i1⟩ : BufTy).Contents (Elt F) → (⟨S500000, .i1⟩ : BufTy).Contents (Elt F) → (⟨S500000, .i1⟩ : BufTy).Contents (Elt F)),
    StableHlo.binary main_v8 main_v17 main_v37 (ori : (⟨S500000, .i1⟩ : BufTy).Contents (Elt F) → (⟨S500000, .i1⟩ : BufTy).Contents (Elt F) → (⟨S500000, .i1⟩ : BufTy).Contents (Elt F)),
    StableHlo.nullary main_c_13 (constantI S_ 32 0#32),
    StableHlo.unary main_c_13 main_v38 (broadcastInDim S500000 ![] bcast_S_S500000 : (⟨S_, .i32⟩ : BufTy).Contents (Elt F) → (⟨S500000, .i32⟩ : BufTy).Contents (Elt F)),
    StableHlo.binary main_v26 main_v38 main_v39 (cmpi .slt : (⟨S500000, .i32⟩ : BufTy).Contents (Elt F) → (⟨S500000, .i32⟩ : BufTy).Contents (Elt F) → (⟨S500000, .i1⟩ : BufTy).Contents (Elt F)),
    StableHlo.nullary main_c_14 (constantI S_ 32 300000#32),
    StableHlo.unary main_c_14 main_v40 (broadcastInDim S500000 ![] bcast_S_S500000 : (⟨S_, .i32⟩ : BufTy).Contents (Elt F) → (⟨S500000, .i32⟩ : BufTy).Contents (Elt F)),
    StableHlo.binary main_v26 main_v40 main_v41 (addi : (⟨S500000, .i32⟩ : BufTy).Contents (Elt F) → (⟨S500000, .i32⟩ : BufTy).Contents (Elt F) → (⟨S500000, .i32⟩ : BufTy).Contents (Elt F)),
    StableHlo.ternary main_v39 main_v41 main_v26 main_v42 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v42 main_v43 (broadcastInDim S500000x1 ![0] bcast_S500000_S500000x1_0 : (⟨S500000, .i32⟩ : BufTy).Contents (Elt F) → (⟨S500000x1, .i32⟩ : BufTy).Contents (Elt F)) ]

set_option maxRecDepth 8192 in
/-- The window is that straight line: unfolding the callees at their calls and the records at their fields, both
    sides are the same chain of `hlo` steps, the binds re-associated by computation (`Prog.bind` is structural). -/
theorem part0_eq (c : Dev nD) : main_part0 (F := F) c = seq ops0 := rfl

/-- Every operation of the window touches TensorCore references only. -/
theorem ops0_sub : (ops0 : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., unary_bufs_sub .., ternary_bufs_sub .., nullary_bufs_sub .., unary_bufs_sub ..,
    nullary_bufs_sub .., unary_bufs_sub .., binary_bufs_sub .., nullary_bufs_sub .., unary_bufs_sub ..,
    binary_bufs_sub .., ternary_bufs_sub .., unary_bufs_sub .., nullary_bufs_sub .., unary_bufs_sub ..,
    ternary_bufs_sub .., nullary_bufs_sub .., unary_bufs_sub .., nullary_bufs_sub .., nullary_bufs_sub ..,
    unary_bufs_sub .., binary_bufs_sub .., nullary_bufs_sub .., unary_bufs_sub .., binary_bufs_sub ..,
    ternary_bufs_sub .., unary_bufs_sub .., ternary_bufs_sub .., nullary_bufs_sub .., unary_bufs_sub ..,
    nullary_bufs_sub .., nullary_bufs_sub .., unary_bufs_sub .., binary_bufs_sub .., nullary_bufs_sub ..,
    unary_bufs_sub .., binary_bufs_sub .., ternary_bufs_sub .., unary_bufs_sub .., ternary_bufs_sub ..,
    binary_bufs_sub .., binary_bufs_sub .., nullary_bufs_sub .., unary_bufs_sub .., binary_bufs_sub ..,
    nullary_bufs_sub .., unary_bufs_sub .., binary_bufs_sub .., ternary_bufs_sub .., unary_bufs_sub ..⟩

/-! No operation of the window writes an argument: each writes its one result buffer, a reference other than the
    argument's (decided over references; distinct references are distinct device buffers). -/

theorem ops0_arg0 : ∀ op ∈ (ops0 : List (HloOp τ sig (Elt F))), (Proc.devRef .tc main_arg0 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg1 : ∀ op ∈ (ops0 : List (HloOp τ sig (Elt F))), (Proc.devRef .tc main_arg1 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg2 : ∀ op ∈ (ops0 : List (HloOp τ sig (Elt F))), (Proc.devRef .tc main_arg2 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg3 : ∀ op ∈ (ops0 : List (HloOp τ sig (Elt F))), (Proc.devRef .tc main_arg3 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg4 : ∀ op ∈ (ops0 : List (HloOp τ sig (Elt F))), (Proc.devRef .tc main_arg4 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg5 : ∀ op ∈ (ops0 : List (HloOp τ sig (Elt F))), (Proc.devRef .tc main_arg5 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg6 : ∀ op ∈ (ops0 : List (HloOp τ sig (Elt F))), (Proc.devRef .tc main_arg6 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

theorem ops0_arg7 : ∀ op ∈ (ops0 : List (HloOp τ sig (Elt F))), (Proc.devRef .tc main_arg7 : DevRef τ sig) ∉ op.writes :=
  List.forall_iff_forall_mem.mp (by
    simp only [ops0, List.Forall, nullary_writes, unary_writes, binary_writes, ternary_writes, reshape_writes,
      Finset.mem_singleton]
    repeat' apply And.intro
    all_goals exact devRef_ne_of_ne (by decide))

end Cert.ReferenceIdeal.RefRun

end
-- ==== Proof.RefRun1.lean ====
/-
  Statements 61 … 120 of the reference's @main as a list of StableHLO operations, in program order: the window
  is the straight line of these operations (`StableHlo.seq`), every one of them touches TensorCore references only,
  and none of them writes one of @main's eight arguments.
-/
import proofs.«138900_j62680752717907_2_alg».proof.ReferenceIdeal
import proofs.«138900_j62680752717907_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The 66 operations of @main's statements 61 … 120, in program order. A call is its callee's operations at the
    call's operands (typed references to the caller's buffers) and the call's own buffer record: the two calls of
    `_where` (the row mask's broadcast, the select), the call of `cumsum` (through `cumsum_0`: the zero, its
    broadcast, the windowed sum) and the first call of `_where_1` (the scalar converted to its own type, its
    broadcast, the select). -/
abbrev ops1 : List (HloOp τ sig (Elt F)) :=
  [ StableHlo.binary main_arg3 main_v43 main_v44 ((fun x i => Host.gather gather_S300000x128_S500000x1_S500000x128_1_0_n_n_0_1_1128 x i) : (⟨S300000x128, .f32⟩ : BufTy).Contents (Elt F) → (⟨S500000x1, .i32⟩ : BufTy).Contents (Elt F) → (⟨S500000x128, .f32⟩ : BufTy).Contents (Elt F)),
    StableHlo.nullary main_c_15 (constantI S_ 32 0#32),
    StableHlo.unary main_c_15 main_v45 (broadcastInDim S500000 ![] bcast_S_S500000 : (⟨S_, .i32⟩ : BufTy).Contents (Elt F) → (⟨S500000, .i32⟩ : BufTy).Contents (Elt F)),
    StableHlo.binary main_v26 main_v45 main_v46 (cmpi .slt : (⟨S500000, .i32⟩ : BufTy).Contents (Elt F) → (⟨S500000, .i32⟩ : BufTy).Contents (Elt F) → (⟨S500000, .i1⟩ : BufTy).Contents (Elt F)),
    StableHlo.nullary main_c_16 (constantI S_ 32 300000#32),
    StableHlo.unary main_c_16 main_v47 (broadcastInDim S500000 ![] bcast_S_S500000 : (⟨S_, .i32⟩ : BufTy).Contents (Elt F) → (⟨S500000, .i32⟩ : BufTy).Contents (Elt F)),
    StableHlo.binary main_v26 main_v47 main_v48 (addi : (⟨S500000, .i32⟩ : BufTy).Contents (Elt F) → (⟨S500000, .i32⟩ : BufTy).Contents (Elt F) → (⟨S500000, .i32⟩ : BufTy).Contents (Elt F)),
    StableHlo.ternary main_v46 main_v48 main_v26 main_v49 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v49 main_v50 (broadcastInDim S500000x1 ![0] bcast_S500000_S500000x1_0 : (⟨S500000, .i32⟩ : BufTy).Contents (Elt F) → (⟨S500000x1, .i32⟩ : BufTy).Contents (Elt F)),
    StableHlo.binary main_arg4 main_v50 main_v51 ((fun x i => Host.gather gather_S300000x128_S500000x1_S500000x128_1_0_n_n_0_1_1128 x i) : (⟨S300000x128, .f32⟩ : BufTy).Contents (Elt F) → (⟨S500000x1, .i32⟩ : BufTy).Contents (Elt F) → (⟨S500000x128, .f32⟩ : BufTy).Contents (Elt F)),
    StableHlo.nullary main_c_17 (constantI S_ 32 0#32),
    StableHlo.unary main_c_17 main_v52 (broadcastInDim S500000 ![] bcast_S_S500000 : (⟨S_, .i32⟩ : BufTy).Contents (Elt F) → (⟨S500000, .i32⟩ : BufTy).Contents (Elt F)),
    StableHlo.binary main_v35 main_v52 main_v53 (cmpi .slt : (⟨S500000, .i32⟩ : BufTy).Contents (Elt F) → (⟨S500000, .i32⟩ : BufTy).Contents (Elt F) → (⟨S500000, .i1⟩ : BufTy).Contents (Elt F)),
    StableHlo.nullary main_c_18 (constantI S_ 32 300000#32),
    StableHlo.unary main_c_18 main_v54 (broadcastInDim S500000 ![] bcast_S_S500000 : (⟨S_, .i32⟩ : BufTy).Contents (Elt F) → (⟨S500000, .i32⟩ : BufTy).Contents (Elt F)),
    StableHlo.binary main_v35 main_v54 main_v55 (addi : (⟨S500000, .i32⟩ : BufTy).Contents (Elt F) → (⟨S500000, .i32⟩ : BufTy).Contents (Elt F) → (⟨S500000, .i32⟩ : BufTy).Contents (Elt F)),
    StableHlo.ternary main_v53 main_v55 main_v35 main_v56 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v56 main_v57 (broadcastInDim S500000x1 ![0] bcast_S500000_S500000x1_0 : (⟨S500000, .i32⟩ : BufTy).Contents (Elt F) → (⟨S500000x1, .i32⟩ : BufTy).Contents (Elt F)),
    StableHlo.binary main_arg4 main_v57 main_v58 ((fun x i => Host.gather gather_S300000x128_S500000x1_S500000x128_1_0_n_n_0_1_1128 x i) : (⟨S300000x128, .f32⟩ : BufTy).Contents (Elt F) → (⟨S500000x1, .i32⟩ : BufTy).Contents (Elt F) → (⟨S500000x128, .f32⟩ : BufTy).Contents (Elt F)),
    StableHlo.unary main_v36 main_v59 (broadcastInDim S500000x1 ![0] bcast_S500000_S500000x1_0 : (⟨S500000, .i1⟩ : BufTy).Contents (Elt F) → (⟨S500000x1, .i1⟩ : BufTy).Contents (Elt F)),
    StableHlo.binary main_v44 main_v51 main_v60 (addf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x3F000000#32),
    StableHlo.unary main_cst main_v61 (broadcastInDim S500000x128 ![] bcast_S_S500000x128 : (⟨S_, .f32⟩ : BufTy).Contents (Elt F) → (⟨S500000x128, .f32⟩ : BufTy).Contents (Elt F)),
    StableHlo.binary main_v61 main_v60 main_v62 (mulf : (⟨S500000x128, .f32⟩ : BufTy).Contents (Elt F) → (⟨S500000x128, .f32⟩ : BufTy).Contents (Elt F) → (⟨S500000x128, .f32⟩ : BufTy).Contents (Elt F)),
    StableHlo.unary main_v8 main_v63 (broadcastInDim S500000x1 ![0] bcast_S500000_S500000x1_0 : (⟨S500000, .i1⟩ : BufTy).Contents (Elt F) → (⟨S500000x1, .i1⟩ : BufTy).Contents (Elt F)),
    StableHlo.TRef.unary (.of main_v63 : StableHlo.TRef sig ⟨S500000x1, .i1⟩) main_call0.v0 (broadcastInDim S500000x128 ![0, 1] bcast_S500000x1_S500000x128_0_1),
    StableHlo.TRef.ternary main_call0.v0 (.of main_v44 : StableHlo.TRef sig ⟨S500000x128, .f32⟩) (.of main_v58 : StableHlo.TRef sig ⟨S500000x128, .f32⟩) main_call0.v1 select,
    StableHlo.TRef.unary (.of main_v59 : StableHlo.TRef sig ⟨S500000x1, .i1⟩) main_call1.v0 (broadcastInDim S500000x128 ![0, 1] bcast_S500000x1_S500000x128_0_1),
    StableHlo.TRef.ternary main_call1.v0 (.of main_v62 : StableHlo.TRef sig ⟨S500000x128, .f32⟩) (.of main_v64 : StableHlo.TRef sig ⟨S500000x128, .f32⟩) main_call1.v1 select,
    StableHlo.unary main_v37 main_v66 ((extui 32 · natLt_1_32) : (⟨S500000, .i1⟩ : BufTy).Contents (Elt F) → (⟨S500000, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v66 : StableHlo.TRef sig ⟨S500000, .i32⟩) main_call2.call0.v0 main_call2.call0.v1 (fun x v => Host.reduceWindow IntOp.addi ![500000] ![1] ![499999] ![0] x v reduceWindows_S500000_S500000_w500000s1p499999_0 h_S_),
    StableHlo.nullary main_c_19 (constantI S_ 32 1#32),
    StableHlo.unary main_c_19 main_v68 (broadcastInDim S500000 ![] bcast_S_S500000 : (⟨S_, .i32⟩ : BufTy).Contents (Elt F) → (⟨S500000, .i32⟩ : BufTy).Contents (Elt F)),
    StableHlo.binary main_v67 main_v68 main_v69 (subi : (⟨S500000, .i32⟩ : BufTy).Contents (Elt F) → (⟨S500000, .i32⟩ : BufTy).Contents (Elt F) → (⟨S500000, .i32⟩ : BufTy).Contents (Elt F)),
    StableHlo.nullary main_c_20 (constantI S_ 32 600000#32),
    StableHlo.TRef.unary (.of main_c_20 : StableHlo.TRef sig ⟨S_, .i32⟩) main_call3.v0 id,
    StableHlo.TRef.unary main_call3.v0 main_call3.v1 (broadcastInDim S500000 ![] bcast_S_S500000),
    StableHlo.TRef.ternary (.of main_v37 : StableHlo.TRef sig ⟨S500000, .i1⟩) (.of main_v69 : StableHlo.TRef sig ⟨S500000, .i32⟩) main_call3.v1 main_call3.v2 select,
    StableHlo.nullary main_cst_21 (constant S_ .f32 0x00000000#32),
    StableHlo.unary main_cst_21 main_v71 (broadcastInDim S600001x128 ![] bcast_S_S600001x128 : (⟨S_, .f32⟩ : BufTy).Contents (Elt F) → (⟨S600001x128, .f32⟩ : BufTy).Contents (Elt F)),
    StableHlo.nullary main_c_22 (constantI S_ 32 0#32),
    StableHlo.unary main_c_22 main_v72 (broadcastInDim S500000 ![] bcast_S_S500000 : (⟨S_, .i32⟩ : BufTy).Contents (Elt F) → (⟨S500000, .i32⟩ : BufTy).Contents (Elt F)),
    StableHlo.binary main_v70 main_v72 main_v73 (cmpi .slt : (⟨S500000, .i32⟩ : BufTy).Contents (Elt F) → (⟨S500000, .i32⟩ : BufTy).Contents (Elt F) → (⟨S500000, .i1⟩ : BufTy).Contents (Elt F)),
    StableHlo.nullary main_c_23 (constantI S_ 32 600001#32),
    StableHlo.unary main_c_23 main_v74 (broadcastInDim S500000 ![] bcast_S_S500000 : (⟨S_, .i32⟩ : BufTy).Contents (Elt F) → (⟨S500000, .i32⟩ : BufTy).Contents (Elt F)),
    StableHlo.binary main_v70 main_v74 main_v75 (addi : (⟨S500000, .i32⟩ : BufTy).Contents (Elt F) → (⟨S500000, .i32⟩ : BufTy).Contents (Elt F) → (⟨S500000, .i32⟩ : BufTy).Contents (Elt F)),
    StableHlo.ternary main_v73 main_v75 main_v70 main_v76 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v76 main_v77 (broadcastInDim S500000x1 ![0] bcast_S500000_S500000x1_0 : (⟨S500000, .i32⟩ : BufTy).Contents (Elt F) → (⟨S500000x1, .i32⟩ : BufTy).Contents (Elt F)),
    StableHlo.ternary main_v71 main_v77 main_v65 main_v78 ((fun x i u => Host.scatter scatter_S600001x128_S500000x1_S500000x128_1_0_0_1 (fun _ b => b) x i u) : (⟨S600001x128, .f32⟩ : BufTy).Contents (Elt F) → (⟨S500000x1, .i32⟩ : BufTy).Contents (Elt F) → (⟨S500000x128, .f32⟩ : BufTy).Contents (Elt F) → (⟨S600001x128, .f32⟩ : BufTy).Contents (Elt F)),
    StableHlo.unary main_v78 main_v79 ((extractStridedSlice S600000x128 ![0, 0] · slices_S600001x128_S600000x128_0_0) : (⟨S600001x128, .f32⟩ : BufTy).Contents (Elt F) → (⟨S600000x128, .f32⟩ : BufTy).Contents (Elt F)),
    StableHlo.nullary main_c_24 (constantI S_ 32 4294967295#32),
    StableHlo.unary main_c_24 main_v80 (broadcastInDim S600001 ![] bcast_S_S600001 : (⟨S_, .i32⟩ : BufTy).Contents (Elt F) → (⟨S600001, .i32⟩ : BufTy).Contents (Elt F)),
    StableHlo.nullary main_v81 (iotaInDim S500000 32 0),
    StableHlo.nullary main_c_25 (constantI S_ 32 0#32),
    StableHlo.unary main_c_25 main_v82 (broadcastInDim S500000 ![] bcast_S_S500000 : (⟨S_, .i32⟩ : BufTy).Contents (Elt F) → (⟨S500000, .i32⟩ : BufTy).Contents (Elt F)),
    StableHlo.binary main_v70 main_v82 main_v83 (cmpi .slt : (⟨S500000, .i32⟩ : BufTy).Contents (Elt F) → (⟨S500000, .i32⟩ : BufTy).Contents (Elt F) → (⟨S500000, .i1⟩ : BufTy).Contents (Elt F)),
    StableHlo.nullary main_c_26 (constantI S_ 32 600001#32),
    StableHlo.unary main_c_26 main_v84 (broadcastInDim S500000 ![] bcast_S_S500000 : (⟨S_, .i32⟩ : BufTy).Contents (Elt F) → (⟨S500000, .i32⟩ : BufTy).Contents (Elt F)),
    StableHlo.binary main_v70 main_v84 main_v85 (addi : (⟨S500000, .i32⟩ : BufTy).Contents (Elt F) → (⟨S500000, .i32⟩ : BufTy).Contents (Elt F) → (⟨S500000, .i32⟩ : BufTy).Contents (Elt F)),
    StableHlo.ternary main_v83 main_v85 main_v70 main_v86 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v86 main_v87 (broadcastInDim S500000x1 ![0] bcast_S500000_S500000x1_0 : (⟨S500000, .i32⟩ : BufTy).Contents (Elt F) → (⟨S500000x1, .i32⟩ : BufTy).Contents (Elt F)),
    StableHlo.ternary main_v80 main_v87 main_v81 main_v88 ((fun x i u => Host.scatter scatter_S600001_S500000x1_S500000_n_0_0_1 (fun _ b => b) x i u) : (⟨S600001, .i32⟩ : BufTy).Contents (Elt F) → (⟨S500000x1, .i32⟩ : BufTy).Contents (Elt F) → (⟨S500000, .i32⟩ : BufTy).Contents (Elt F) → (⟨S600001, .i32⟩ : BufTy).Contents (Elt F)),
    StableHlo.unary main_v88 main_v89 ((extractStridedSlice S600000 ![0] · slices_S600001_S600000_0) : (⟨S600001, .i32⟩ : BufTy).Contents (Elt F) → (⟨S600000, .i32⟩ : BufTy).Contents (Elt F)),
    StableHlo.nullary main_c_27 (constantI S_ 32 0#32) ]

set_option maxRecDepth 8192 in
/-- The window is that straight line: unfolding the callees at their calls and the records at their fields, both
    sides are the same chain of `hlo` steps, the binds re-associated by computation (`Prog.bind` is structural). -/
theorem part1_eq (c : Dev nD) : main_part1 (F := F) c = seq ops1 := rfl

/-- Every operation of the window touches TensorCore references only. -/
theorem ops1_sub : (ops1 : List (HloOp τ sig (Elt F))).Forall fun op => op.bufs ⊆ tcRefs τ sig :=
  ⟨binary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., unary_bufs_sub ..,
    unary_bufs_sub .., ternary_bufs_sub .., unary_bufs_sub .., ternary_bufs_sub .., unary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    nullary_bufs_sub .., unary_bufs_sub .., nullary_bufs_sub .., unary_bufs_sub .., binary_bufs_sub ..,
    nullary_bufs_sub .., unary_bufs_sub .., binary_bufs_sub .., ternary_bufs_sub .., unary_bufs_sub ..,
    ternary_bufs_sub .., unary_bufs_sub .., nullary_bufs_sub .., unary_bufs_sub .., nullary_bufs_sub ..,
    nullary_bufs_sub .., unary_bufs_sub .., binary_bufs_sub .., nullary_bufs_sub .., unary_bufs_sub ..,
    binary_bufs_sub .., ternary_bufs_sub .., unary_bufs_sub .., ternary_bufs_sub .., unary_bufs_sub ..,
    nullary_bufs_sub ..⟩

/-! No operation of the window writes an argument: each writes its one result buffer, a reference other than the
    argument's (decided over references; distinct references are distinct device buffers). -/

theorem ops1_arg0 : ∀ op ∈ (ops1 : List (HloOp τ sig (Elt F))), (Proc.devRef .tc main_arg0 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg1 : ∀ op ∈ (ops1 : List (HloOp τ sig (Elt F))), (Proc.devRef .tc main_arg1 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg2 : ∀ op ∈ (ops1 : List (HloOp τ sig (Elt F))), (Proc.devRef .tc main_arg2 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg3 : ∀ op ∈ (ops1 : List (HloOp τ sig (Elt F))), (Proc.devRef .tc main_arg3 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg4 : ∀ op ∈ (ops1 : List (HloOp τ sig (Elt F))), (Proc.devRef .tc main_arg4 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg5 : ∀ op ∈ (ops1 : List (HloOp τ sig (Elt F))), (Proc.devRef .tc main_arg5 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg6 : ∀ op ∈ (ops1 : List (HloOp τ sig (Elt F))), (Proc.devRef .tc main_arg6 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

theorem ops1_arg7 : ∀ op ∈ (ops1 : List (HloOp τ sig (Elt F))), (Proc.devRef .tc main_arg7 : DevRef τ sig) ∉ op.writes :=
  List.forall_iff_forall_mem.mp (by
    simp only [ops1, List.Forall, nullary_writes, unary_writes, binary_writes, ternary_writes, reshape_writes,
      Finset.mem_singleton]
    repeat' apply And.intro
    all_goals exact devRef_ne_of_ne (by decide))

end Cert.ReferenceIdeal.RefRun

end
-- ==== Proof.RefRun2.lean ====
/-
  Statements 121 … 180 of the reference's @main as a list of StableHLO operations, in program order: the window
  is the straight line of these operations (`StableHlo.seq`), every one of them touches TensorCore references only,
  and none of them writes one of @main's eight arguments.
-/
import proofs.«138900_j62680752717907_2_alg».proof.ReferenceIdeal
import proofs.«138900_j62680752717907_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The 73 operations of @main's statements 121 … 180, in program order. A call is its callee's operations at the
    call's operands (typed references to the caller's buffers) and the call's own buffer record: the calls of
    `clip` (the lower bound converted and broadcast, the maximum, the upper bound converted and broadcast, the minimum), `_where_2`, the second `_where_1`,
    `cumsum_3` (through `cumsum_4`: the zero, its broadcast, the windowed sum) and `_where_5`. -/
abbrev ops2 : List (HloOp τ sig (Elt F)) :=
  [ StableHlo.unary main_c_27 main_v90 (broadcastInDim S600000 ![] bcast_S_S600000 : (⟨S_, .i32⟩ : BufTy).Contents (Elt F) → (⟨S600000, .i32⟩ : BufTy).Contents (Elt F)),
    StableHlo.binary main_v89 main_v90 main_v91 (cmpi .sge : (⟨S600000, .i32⟩ : BufTy).Contents (Elt F) → (⟨S600000, .i32⟩ : BufTy).Contents (Elt F) → (⟨S600000, .i1⟩ : BufTy).Contents (Elt F)),
    StableHlo.nullary main_c_28 (constantI S_ 32 0#32),
    StableHlo.nullary main_c_29 (constantI S_ 32 499999#32),
    StableHlo.TRef.unary (.of main_c_28 : StableHlo.TRef sig ⟨S_, .i32⟩) main_call4.v0 id,
    StableHlo.TRef.unary main_call4.v0 main_call4.v1 (broadcastInDim S600000 ![] bcast_S_S600000),
    StableHlo.TRef.binary main_call4.v1 (.of main_v89 : StableHlo.TRef sig ⟨S600000, .i32⟩) main_call4.v2 maxsi,
    StableHlo.TRef.unary (.of main_c_29 : StableHlo.TRef sig ⟨S_, .i32⟩) main_call4.v3 id,
    StableHlo.TRef.unary main_call4.v3 main_call4.v4 (broadcastInDim S600000 ![] bcast_S_S600000),
    StableHlo.TRef.binary main_call4.v4 main_call4.v2 main_call4.v5 minsi,
    StableHlo.nullary main_c_30 (constantI S_ 32 0#32),
    StableHlo.unary main_c_30 main_v93 (broadcastInDim S600000 ![] bcast_S_S600000 : (⟨S_, .i32⟩ : BufTy).Contents (Elt F) → (⟨S600000, .i32⟩ : BufTy).Contents (Elt F)),
    StableHlo.binary main_v92 main_v93 main_v94 (cmpi .slt : (⟨S600000, .i32⟩ : BufTy).Contents (Elt F) → (⟨S600000, .i32⟩ : BufTy).Contents (Elt F) → (⟨S600000, .i1⟩ : BufTy).Contents (Elt F)),
    StableHlo.nullary main_c_31 (constantI S_ 32 500000#32),
    StableHlo.unary main_c_31 main_v95 (broadcastInDim S600000 ![] bcast_S_S600000 : (⟨S_, .i32⟩ : BufTy).Contents (Elt F) → (⟨S600000, .i32⟩ : BufTy).Contents (Elt F)),
    StableHlo.binary main_v92 main_v95 main_v96 (addi : (⟨S600000, .i32⟩ : BufTy).Contents (Elt F) → (⟨S600000, .i32⟩ : BufTy).Contents (Elt F) → (⟨S600000, .i32⟩ : BufTy).Contents (Elt F)),
    StableHlo.ternary main_v94 main_v96 main_v92 main_v97 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v97 main_v98 (broadcastInDim S600000x1 ![0] bcast_S600000_S600000x1_0 : (⟨S600000, .i32⟩ : BufTy).Contents (Elt F) → (⟨S600000x1, .i32⟩ : BufTy).Contents (Elt F)),
    StableHlo.binary main_arg5 main_v98 main_v99 ((fun x i => Host.gather gather_S500000_S600000x1_S600000_n_0_n_n_0_1_1 x i) : (⟨S500000, .i32⟩ : BufTy).Contents (Elt F) → (⟨S600000x1, .i32⟩ : BufTy).Contents (Elt F) → (⟨S600000, .i32⟩ : BufTy).Contents (Elt F)),
    StableHlo.nullary main_c_32 (constantI S_ 32 4294967295#32),
    StableHlo.TRef.unary (.of main_c_32 : StableHlo.TRef sig ⟨S_, .i32⟩) main_call5.v0 id,
    StableHlo.TRef.unary main_call5.v0 main_call5.v1 (broadcastInDim S600000 ![] bcast_S_S600000),
    StableHlo.TRef.ternary (.of main_v91 : StableHlo.TRef sig ⟨S600000, .i1⟩) (.of main_v99 : StableHlo.TRef sig ⟨S600000, .i32⟩) main_call5.v1 main_call5.v2 select,
    StableHlo.nullary main_c_33 (constantI S_ 32 4294967295#32),
    StableHlo.TRef.unary (.of main_c_33 : StableHlo.TRef sig ⟨S_, .i32⟩) main_call6.v0 id,
    StableHlo.TRef.unary main_call6.v0 main_call6.v1 (broadcastInDim S500000 ![] bcast_S_S500000),
    StableHlo.TRef.ternary (.of main_v37 : StableHlo.TRef sig ⟨S500000, .i1⟩) (.of main_v69 : StableHlo.TRef sig ⟨S500000, .i32⟩) main_call6.v1 main_call6.v2 select,
    StableHlo.unary main_arg6 main_v102 ((extractStridedSlice S1x8000000 ![0, 0] · slices_S2x8000000_S1x8000000_0_0) : (⟨S2x8000000, .i32⟩ : BufTy).Contents (Elt F) → (⟨S1x8000000, .i32⟩ : BufTy).Contents (Elt F)),
    StableHlo.reshape main_v102 main_v103 rfl shapeCasts_S1x8000000_S8000000,
    StableHlo.unary main_arg6 main_v104 ((extractStridedSlice S1x8000000 ![1, 0] · slices_S2x8000000_S1x8000000_1_0) : (⟨S2x8000000, .i32⟩ : BufTy).Contents (Elt F) → (⟨S1x8000000, .i32⟩ : BufTy).Contents (Elt F)),
    StableHlo.reshape main_v104 main_v105 rfl shapeCasts_S1x8000000_S8000000,
    StableHlo.nullary main_c_34 (constantI S_ 32 0#32),
    StableHlo.unary main_c_34 main_v106 (broadcastInDim S8000000 ![] bcast_S_S8000000 : (⟨S_, .i32⟩ : BufTy).Contents (Elt F) → (⟨S8000000, .i32⟩ : BufTy).Contents (Elt F)),
    StableHlo.binary main_v103 main_v106 main_v107 (cmpi .slt : (⟨S8000000, .i32⟩ : BufTy).Contents (Elt F) → (⟨S8000000, .i32⟩ : BufTy).Contents (Elt F) → (⟨S8000000, .i1⟩ : BufTy).Contents (Elt F)),
    StableHlo.nullary main_c_35 (constantI S_ 32 500000#32),
    StableHlo.unary main_c_35 main_v108 (broadcastInDim S8000000 ![] bcast_S_S8000000 : (⟨S_, .i32⟩ : BufTy).Contents (Elt F) → (⟨S8000000, .i32⟩ : BufTy).Contents (Elt F)),
    StableHlo.binary main_v103 main_v108 main_v109 (addi : (⟨S8000000, .i32⟩ : BufTy).Contents (Elt F) → (⟨S8000000, .i32⟩ : BufTy).Contents (Elt F) → (⟨S8000000, .i32⟩ : BufTy).Contents (Elt F)),
    StableHlo.ternary main_v107 main_v109 main_v103 main_v110 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v110 main_v111 (broadcastInDim S8000000x1 ![0] bcast_S8000000_S8000000x1_0 : (⟨S8000000, .i32⟩ : BufTy).Contents (Elt F) → (⟨S8000000x1, .i32⟩ : BufTy).Contents (Elt F)),
    StableHlo.binary main_v37 main_v111 main_v112 ((fun x i => Host.gather gather_S500000_S8000000x1_S8000000_n_0_n_n_0_1_1 x i) : (⟨S500000, .i1⟩ : BufTy).Contents (Elt F) → (⟨S8000000x1, .i32⟩ : BufTy).Contents (Elt F) → (⟨S8000000, .i1⟩ : BufTy).Contents (Elt F)),
    StableHlo.nullary main_c_36 (constantI S_ 32 0#32),
    StableHlo.unary main_c_36 main_v113 (broadcastInDim S8000000 ![] bcast_S_S8000000 : (⟨S_, .i32⟩ : BufTy).Contents (Elt F) → (⟨S8000000, .i32⟩ : BufTy).Contents (Elt F)),
    StableHlo.binary main_v105 main_v113 main_v114 (cmpi .slt : (⟨S8000000, .i32⟩ : BufTy).Contents (Elt F) → (⟨S8000000, .i32⟩ : BufTy).Contents (Elt F) → (⟨S8000000, .i1⟩ : BufTy).Contents (Elt F)),
    StableHlo.nullary main_c_37 (constantI S_ 32 500000#32),
    StableHlo.unary main_c_37 main_v115 (broadcastInDim S8000000 ![] bcast_S_S8000000 : (⟨S_, .i32⟩ : BufTy).Contents (Elt F) → (⟨S8000000, .i32⟩ : BufTy).Contents (Elt F)),
    StableHlo.binary main_v105 main_v115 main_v116 (addi : (⟨S8000000, .i32⟩ : BufTy).Contents (Elt F) → (⟨S8000000, .i32⟩ : BufTy).Contents (Elt F) → (⟨S8000000, .i32⟩ : BufTy).Contents (Elt F)),
    StableHlo.ternary main_v114 main_v116 main_v105 main_v117 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v117 main_v118 (broadcastInDim S8000000x1 ![0] bcast_S8000000_S8000000x1_0 : (⟨S8000000, .i32⟩ : BufTy).Contents (Elt F) → (⟨S8000000x1, .i32⟩ : BufTy).Contents (Elt F)),
    StableHlo.binary main_v37 main_v118 main_v119 ((fun x i => Host.gather gather_S500000_S8000000x1_S8000000_n_0_n_n_0_1_1 x i) : (⟨S500000, .i1⟩ : BufTy).Contents (Elt F) → (⟨S8000000x1, .i32⟩ : BufTy).Contents (Elt F) → (⟨S8000000, .i1⟩ : BufTy).Contents (Elt F)),
    StableHlo.binary main_v112 main_v119 main_v120 (andi : (⟨S8000000, .i1⟩ : BufTy).Contents (Elt F) → (⟨S8000000, .i1⟩ : BufTy).Contents (Elt F) → (⟨S8000000, .i1⟩ : BufTy).Contents (Elt F)),
    StableHlo.unary main_v120 main_v121 ((extui 32 · natLt_1_32) : (⟨S8000000, .i1⟩ : BufTy).Contents (Elt F) → (⟨S8000000, .i32⟩ : BufTy).Contents (Elt F)),
    StableHlo.TRef.nullary main_call7.call0.c (constantI S_ 32 0#32),
    StableHlo.TRef.unary main_call7.call0.c main_call7.call0.v0 (broadcastInDim S_ ![] bcast_S_S_),
    StableHlo.TRef.binary (.of main_v121 : StableHlo.TRef sig ⟨S8000000, .i32⟩) main_call7.call0.v0 main_call7.call0.v1 (fun x v => Host.reduceWindow IntOp.addi ![8000000] ![1] ![7999999] ![0] x v reduceWindows_S8000000_S8000000_w8000000s1p7999999_0 h_S_),
    StableHlo.nullary main_c_38 (constantI S_ 32 1#32),
    StableHlo.unary main_c_38 main_v123 (broadcastInDim S8000000 ![] bcast_S_S8000000 : (⟨S_, .i32⟩ : BufTy).Contents (Elt F) → (⟨S8000000, .i32⟩ : BufTy).Contents (Elt F)),
    StableHlo.binary main_v122 main_v123 main_v124 (subi : (⟨S8000000, .i32⟩ : BufTy).Contents (Elt F) → (⟨S8000000, .i32⟩ : BufTy).Contents (Elt F) → (⟨S8000000, .i32⟩ : BufTy).Contents (Elt F)),
    StableHlo.nullary main_c_39 (constantI S_ 32 8000000#32),
    StableHlo.TRef.unary (.of main_c_39 : StableHlo.TRef sig ⟨S_, .i32⟩) main_call8.v0 id,
    StableHlo.TRef.unary main_call8.v0 main_call8.v1 (broadcastInDim S8000000 ![] bcast_S_S8000000),
    StableHlo.TRef.ternary (.of main_v120 : StableHlo.TRef sig ⟨S8000000, .i1⟩) (.of main_v124 : StableHlo.TRef sig ⟨S8000000, .i32⟩) main_call8.v1 main_call8.v2 select,
    StableHlo.nullary main_c_40 (constantI S_ 32 0#32),
    StableHlo.unary main_c_40 main_v126 (broadcastInDim S8000000 ![] bcast_S_S8000000 : (⟨S_, .i32⟩ : BufTy).Contents (Elt F) → (⟨S8000000, .i32⟩ : BufTy).Contents (Elt F)),
    StableHlo.binary main_v103 main_v126 main_v127 (cmpi .slt : (⟨S8000000, .i32⟩ : BufTy).Contents (Elt F) → (⟨S8000000, .i32⟩ : BufTy).Contents (Elt F) → (⟨S8000000, .i1⟩ : BufTy).Contents (Elt F)),
    StableHlo.nullary main_c_41 (constantI S_ 32 500000#32),
    StableHlo.unary main_c_41 main_v128 (broadcastInDim S8000000 ![] bcast_S_S8000000 : (⟨S_, .i32⟩ : BufTy).Contents (Elt F) → (⟨S8000000, .i32⟩ : BufTy).Contents (Elt F)),
    StableHlo.binary main_v103 main_v128 main_v129 (addi : (⟨S8000000, .i32⟩ : BufTy).Contents (Elt F) → (⟨S8000000, .i32⟩ : BufTy).Contents (Elt F) → (⟨S8000000, .i32⟩ : BufTy).Contents (Elt F)),
    StableHlo.ternary main_v127 main_v129 main_v103 main_v130 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v130 main_v131 (broadcastInDim S8000000x1 ![0] bcast_S8000000_S8000000x1_0 : (⟨S8000000, .i32⟩ : BufTy).Contents (Elt F) → (⟨S8000000x1, .i32⟩ : BufTy).Contents (Elt F)),
    StableHlo.binary main_v101 main_v131 main_v132 ((fun x i => Host.gather gather_S500000_S8000000x1_S8000000_n_0_n_n_0_1_1 x i) : (⟨S500000, .i32⟩ : BufTy).Contents (Elt F) → (⟨S8000000x1, .i32⟩ : BufTy).Contents (Elt F) → (⟨S8000000, .i32⟩ : BufTy).Contents (Elt F)),
    StableHlo.nullary main_c_42 (constantI S_ 32 0#32),
    StableHlo.unary main_c_42 main_v133 (broadcastInDim S8000000 ![] bcast_S_S8000000 : (⟨S_, .i32⟩ : BufTy).Contents (Elt F) → (⟨S8000000, .i32⟩ : BufTy).Contents (Elt F)),
    StableHlo.binary main_v105 main_v133 main_v134 (cmpi .slt : (⟨S8000000, .i32⟩ : BufTy).Contents (Elt F) → (⟨S8000000, .i32⟩ : BufTy).Contents (Elt F) → (⟨S8000000, .i1⟩ : BufTy).Contents (Elt F)) ]

set_option maxRecDepth 8192 in
/-- The window is that straight line: unfolding the callees at their calls and the records at their fields, both
    sides are the same chain of `hlo` steps, the binds re-associated by computation (`Prog.bind` is structural). -/
theorem part2_eq (c : Dev nD) : main_part2 (F := F) c = seq ops2 := rfl

/-- Every operation of the window touches TensorCore references only. -/
theorem ops2_sub : (ops2 : List (HloOp τ sig (Elt F))).Forall fun op => op.bufs ⊆ tcRefs τ sig :=
  ⟨unary_bufs_sub .., binary_bufs_sub .., nullary_bufs_sub .., nullary_bufs_sub .., unary_bufs_sub ..,
    unary_bufs_sub .., binary_bufs_sub .., unary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    unary_bufs_sub .., ternary_bufs_sub .., unary_bufs_sub .., reshape_bufs_sub .., unary_bufs_sub ..,
    reshape_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    unary_bufs_sub .., nullary_bufs_sub .., unary_bufs_sub .., binary_bufs_sub .., nullary_bufs_sub ..,
    unary_bufs_sub .., binary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub ..⟩

/-! No operation of the window writes an argument: each writes its one result buffer, a reference other than the
    argument's (decided over references; distinct references are distinct device buffers). -/

theorem ops2_arg0 : ∀ op ∈ (ops2 : List (HloOp τ sig (Elt F))), (Proc.devRef .tc main_arg0 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg1 : ∀ op ∈ (ops2 : List (HloOp τ sig (Elt F))), (Proc.devRef .tc main_arg1 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg2 : ∀ op ∈ (ops2 : List (HloOp τ sig (Elt F))), (Proc.devRef .tc main_arg2 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg3 : ∀ op ∈ (ops2 : List (HloOp τ sig (Elt F))), (Proc.devRef .tc main_arg3 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg4 : ∀ op ∈ (ops2 : List (HloOp τ sig (Elt F))), (Proc.devRef .tc main_arg4 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg5 : ∀ op ∈ (ops2 : List (HloOp τ sig (Elt F))), (Proc.devRef .tc main_arg5 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg6 : ∀ op ∈ (ops2 : List (HloOp τ sig (Elt F))), (Proc.devRef .tc main_arg6 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

theorem ops2_arg7 : ∀ op ∈ (ops2 : List (HloOp τ sig (Elt F))), (Proc.devRef .tc main_arg7 : DevRef τ sig) ∉ op.writes :=
  List.forall_iff_forall_mem.mp (by
    simp only [ops2, List.Forall, nullary_writes, unary_writes, binary_writes, ternary_writes, reshape_writes,
      Finset.mem_singleton]
    repeat' apply And.intro
    all_goals exact devRef_ne_of_ne (by decide))

end Cert.ReferenceIdeal.RefRun

end
-- ==== Proof.RefRun3.lean ====
/-
  Statements 181 … 221 of the reference's @main (the last its return) as a list of StableHLO operations, in program order: the window
  is the straight line of these operations (`StableHlo.seq`), every one of them touches TensorCore references only,
  and none of them writes one of @main's eight arguments.
-/
import proofs.«138900_j62680752717907_2_alg».proof.ReferenceIdeal
import proofs.«138900_j62680752717907_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The 40 operations of @main's statements 181 … 220, in program order; none of them is a call. Statement 221 is the
    function's return, which is no operation. -/
abbrev ops3 : List (HloOp τ sig (Elt F)) :=
  [ StableHlo.nullary main_c_43 (constantI S_ 32 500000#32),
    StableHlo.unary main_c_43 main_v135 (broadcastInDim S8000000 ![] bcast_S_S8000000 : (⟨S_, .i32⟩ : BufTy).Contents (Elt F) → (⟨S8000000, .i32⟩ : BufTy).Contents (Elt F)),
    StableHlo.binary main_v105 main_v135 main_v136 (addi : (⟨S8000000, .i32⟩ : BufTy).Contents (Elt F) → (⟨S8000000, .i32⟩ : BufTy).Contents (Elt F) → (⟨S8000000, .i32⟩ : BufTy).Contents (Elt F)),
    StableHlo.ternary main_v134 main_v136 main_v105 main_v137 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v137 main_v138 (broadcastInDim S8000000x1 ![0] bcast_S8000000_S8000000x1_0 : (⟨S8000000, .i32⟩ : BufTy).Contents (Elt F) → (⟨S8000000x1, .i32⟩ : BufTy).Contents (Elt F)),
    StableHlo.binary main_v101 main_v138 main_v139 ((fun x i => Host.gather gather_S500000_S8000000x1_S8000000_n_0_n_n_0_1_1 x i) : (⟨S500000, .i32⟩ : BufTy).Contents (Elt F) → (⟨S8000000x1, .i32⟩ : BufTy).Contents (Elt F) → (⟨S8000000, .i32⟩ : BufTy).Contents (Elt F)),
    StableHlo.unary main_v132 main_v140 (broadcastInDim S8000000x1 ![0] bcast_S8000000_S8000000x1_0 : (⟨S8000000, .i32⟩ : BufTy).Contents (Elt F) → (⟨S8000000x1, .i32⟩ : BufTy).Contents (Elt F)),
    StableHlo.unary main_v139 main_v141 (broadcastInDim S8000000x1 ![0] bcast_S8000000_S8000000x1_0 : (⟨S8000000, .i32⟩ : BufTy).Contents (Elt F) → (⟨S8000000x1, .i32⟩ : BufTy).Contents (Elt F)),
    StableHlo.binary main_v140 main_v141 main_v142 ((fun a b => concatenate S8000000x2 1 [⟨S8000000x1, a⟩, ⟨S8000000x1, b⟩] concatenates_S8000000x1_S8000000x1_S8000000x2_d1) : (⟨S8000000x1, .i32⟩ : BufTy).Contents (Elt F) → (⟨S8000000x1, .i32⟩ : BufTy).Contents (Elt F) → (⟨S8000000x2, .i32⟩ : BufTy).Contents (Elt F)),
    StableHlo.nullary main_c_44 (constantI S_ 32 4294967295#32),
    StableHlo.unary main_c_44 main_v143 (broadcastInDim S8000001x2 ![] bcast_S_S8000001x2 : (⟨S_, .i32⟩ : BufTy).Contents (Elt F) → (⟨S8000001x2, .i32⟩ : BufTy).Contents (Elt F)),
    StableHlo.nullary main_c_45 (constantI S_ 32 0#32),
    StableHlo.unary main_c_45 main_v144 (broadcastInDim S8000000 ![] bcast_S_S8000000 : (⟨S_, .i32⟩ : BufTy).Contents (Elt F) → (⟨S8000000, .i32⟩ : BufTy).Contents (Elt F)),
    StableHlo.binary main_v125 main_v144 main_v145 (cmpi .slt : (⟨S8000000, .i32⟩ : BufTy).Contents (Elt F) → (⟨S8000000, .i32⟩ : BufTy).Contents (Elt F) → (⟨S8000000, .i1⟩ : BufTy).Contents (Elt F)),
    StableHlo.nullary main_c_46 (constantI S_ 32 8000001#32),
    StableHlo.unary main_c_46 main_v146 (broadcastInDim S8000000 ![] bcast_S_S8000000 : (⟨S_, .i32⟩ : BufTy).Contents (Elt F) → (⟨S8000000, .i32⟩ : BufTy).Contents (Elt F)),
    StableHlo.binary main_v125 main_v146 main_v147 (addi : (⟨S8000000, .i32⟩ : BufTy).Contents (Elt F) → (⟨S8000000, .i32⟩ : BufTy).Contents (Elt F) → (⟨S8000000, .i32⟩ : BufTy).Contents (Elt F)),
    StableHlo.ternary main_v145 main_v147 main_v125 main_v148 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v148 main_v149 (broadcastInDim S8000000x1 ![0] bcast_S8000000_S8000000x1_0 : (⟨S8000000, .i32⟩ : BufTy).Contents (Elt F) → (⟨S8000000x1, .i32⟩ : BufTy).Contents (Elt F)),
    StableHlo.ternary main_v143 main_v149 main_v142 main_v150 ((fun x i u => Host.scatter scatter_S8000001x2_S8000000x1_S8000000x2_1_0_0_1 (fun _ b => b) x i u) : (⟨S8000001x2, .i32⟩ : BufTy).Contents (Elt F) → (⟨S8000000x1, .i32⟩ : BufTy).Contents (Elt F) → (⟨S8000000x2, .i32⟩ : BufTy).Contents (Elt F) → (⟨S8000001x2, .i32⟩ : BufTy).Contents (Elt F)),
    StableHlo.unary main_v150 main_v151 ((extractStridedSlice S8000000x2 ![0, 0] · slices_S8000001x2_S8000000x2_0_0) : (⟨S8000001x2, .i32⟩ : BufTy).Contents (Elt F) → (⟨S8000000x2, .i32⟩ : BufTy).Contents (Elt F)),
    StableHlo.unary main_v151 main_v152 ((transpose S2x8000000 [1, 0] · transposes_S8000000x2_S2x8000000_1_0) : (⟨S8000000x2, .i32⟩ : BufTy).Contents (Elt F) → (⟨S2x8000000, .i32⟩ : BufTy).Contents (Elt F)),
    StableHlo.nullary main_cst_47 (constant S_ .f32 0x00000000#32),
    StableHlo.unary main_cst_47 main_v153 (broadcastInDim S8000001 ![] bcast_S_S8000001 : (⟨S_, .f32⟩ : BufTy).Contents (Elt F) → (⟨S8000001, .f32⟩ : BufTy).Contents (Elt F)),
    StableHlo.nullary main_c_48 (constantI S_ 32 0#32),
    StableHlo.unary main_c_48 main_v154 (broadcastInDim S8000000 ![] bcast_S_S8000000 : (⟨S_, .i32⟩ : BufTy).Contents (Elt F) → (⟨S8000000, .i32⟩ : BufTy).Contents (Elt F)),
    StableHlo.binary main_v125 main_v154 main_v155 (cmpi .slt : (⟨S8000000, .i32⟩ : BufTy).Contents (Elt F) → (⟨S8000000, .i32⟩ : BufTy).Contents (Elt F) → (⟨S8000000, .i1⟩ : BufTy).Contents (Elt F)),
    StableHlo.nullary main_c_49 (constantI S_ 32 8000001#32),
    StableHlo.unary main_c_49 main_v156 (broadcastInDim S8000000 ![] bcast_S_S8000000 : (⟨S_, .i32⟩ : BufTy).Contents (Elt F) → (⟨S8000000, .i32⟩ : BufTy).Contents (Elt F)),
    StableHlo.binary main_v125 main_v156 main_v157 (addi : (⟨S8000000, .i32⟩ : BufTy).Contents (Elt F) → (⟨S8000000, .i32⟩ : BufTy).Contents (Elt F) → (⟨S8000000, .i32⟩ : BufTy).Contents (Elt F)),
    StableHlo.ternary main_v155 main_v157 main_v125 main_v158 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v158 main_v159 (broadcastInDim S8000000x1 ![0] bcast_S8000000_S8000000x1_0 : (⟨S8000000, .i32⟩ : BufTy).Contents (Elt F) → (⟨S8000000x1, .i32⟩ : BufTy).Contents (Elt F)),
    StableHlo.ternary main_v153 main_v159 main_arg7 main_v160 ((fun x i u => Host.scatter scatter_S8000001_S8000000x1_S8000000_n_0_0_1 (fun _ b => b) x i u) : (⟨S8000001, .f32⟩ : BufTy).Contents (Elt F) → (⟨S8000000x1, .i32⟩ : BufTy).Contents (Elt F) → (⟨S8000000, .f32⟩ : BufTy).Contents (Elt F) → (⟨S8000001, .f32⟩ : BufTy).Contents (Elt F)),
    StableHlo.unary main_v160 main_v161 ((extractStridedSlice S8000000 ![0] · slices_S8000001_S8000000_0) : (⟨S8000001, .f32⟩ : BufTy).Contents (Elt F) → (⟨S8000000, .f32⟩ : BufTy).Contents (Elt F)),
    StableHlo.unary main_v37 main_v162 ((extui 32 · natLt_1_32) : (⟨S500000, .i1⟩ : BufTy).Contents (Elt F) → (⟨S500000, .i32⟩ : BufTy).Contents (Elt F)),
    StableHlo.nullary main_c_50 (constantI S_ 32 0#32),
    StableHlo.binary main_v162 main_c_50 main_v163 ((fun x v => Host.reduce IntOp.addi x v reducesTo_S500000_S_d0 h_S_) : (⟨S500000, .i32⟩ : BufTy).Contents (Elt F) → (⟨S_, .i32⟩ : BufTy).Contents (Elt F) → (⟨S_, .i32⟩ : BufTy).Contents (Elt F)),
    StableHlo.unary main_v120 main_v164 ((extui 32 · natLt_1_32) : (⟨S8000000, .i1⟩ : BufTy).Contents (Elt F) → (⟨S8000000, .i32⟩ : BufTy).Contents (Elt F)),
    StableHlo.nullary main_c_51 (constantI S_ 32 0#32),
    StableHlo.binary main_v164 main_c_51 main_v165 ((fun x v => Host.reduce IntOp.addi x v reducesTo_S8000000_S_d0 h_S_) : (⟨S8000000, .i32⟩ : BufTy).Contents (Elt F) → (⟨S_, .i32⟩ : BufTy).Contents (Elt F) → (⟨S_, .i32⟩ : BufTy).Contents (Elt F)) ]

set_option maxRecDepth 8192 in
/-- The window is that straight line: unfolding the callees at their calls and the records at their fields, both
    sides are the same chain of `hlo` steps, the binds re-associated by computation (`Prog.bind` is structural). -/
theorem part3_eq (c : Dev nD) : main_part3 (F := F) c = seq ops3 := rfl

/-- Every operation of the window touches TensorCore references only. -/
theorem ops3_sub : (ops3 : List (HloOp τ sig (Elt F))).Forall fun op => op.bufs ⊆ tcRefs τ sig :=
  ⟨nullary_bufs_sub .., unary_bufs_sub .., binary_bufs_sub .., ternary_bufs_sub .., unary_bufs_sub ..,
    binary_bufs_sub .., unary_bufs_sub .., unary_bufs_sub .., binary_bufs_sub .., nullary_bufs_sub ..,
    unary_bufs_sub .., nullary_bufs_sub .., unary_bufs_sub .., binary_bufs_sub .., nullary_bufs_sub ..,
    unary_bufs_sub .., binary_bufs_sub .., ternary_bufs_sub .., unary_bufs_sub .., ternary_bufs_sub ..,
    unary_bufs_sub .., unary_bufs_sub .., nullary_bufs_sub .., unary_bufs_sub .., nullary_bufs_sub ..,
    unary_bufs_sub .., binary_bufs_sub .., nullary_bufs_sub .., unary_bufs_sub .., binary_bufs_sub ..,
    ternary_bufs_sub .., unary_bufs_sub .., ternary_bufs_sub .., unary_bufs_sub .., unary_bufs_sub ..,
    nullary_bufs_sub .., binary_bufs_sub .., unary_bufs_sub .., nullary_bufs_sub .., binary_bufs_sub ..⟩

/-! No operation of the window writes an argument: each writes its one result buffer, a reference other than the
    argument's (decided over references; distinct references are distinct device buffers). -/

theorem ops3_arg0 : ∀ op ∈ (ops3 : List (HloOp τ sig (Elt F))), (Proc.devRef .tc main_arg0 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg1 : ∀ op ∈ (ops3 : List (HloOp τ sig (Elt F))), (Proc.devRef .tc main_arg1 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg2 : ∀ op ∈ (ops3 : List (HloOp τ sig (Elt F))), (Proc.devRef .tc main_arg2 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg3 : ∀ op ∈ (ops3 : List (HloOp τ sig (Elt F))), (Proc.devRef .tc main_arg3 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg4 : ∀ op ∈ (ops3 : List (HloOp τ sig (Elt F))), (Proc.devRef .tc main_arg4 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg5 : ∀ op ∈ (ops3 : List (HloOp τ sig (Elt F))), (Proc.devRef .tc main_arg5 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg6 : ∀ op ∈ (ops3 : List (HloOp τ sig (Elt F))), (Proc.devRef .tc main_arg6 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

theorem ops3_arg7 : ∀ op ∈ (ops3 : List (HloOp τ sig (Elt F))), (Proc.devRef .tc main_arg7 : DevRef τ sig) ∉ op.writes :=
  List.forall_iff_forall_mem.mp (by
    simp only [ops3, List.Forall, nullary_writes, unary_writes, binary_writes, ternary_writes, reshape_writes,
      Finset.mem_singleton]
    repeat' apply And.intro
    all_goals exact devRef_ne_of_ne (by decide))

end Cert.ReferenceIdeal.RefRun

end
-- ==== Proof.RefRun.lean ====
/-
  The run of the reference's @main. The function is a straight line of 239 StableHLO operations and no kernel
  (`ops`, the two lists `opsHead ++ opsTail`): its four windows are the lines `ops0` … `ops3` (the callees'
  operations listed at their calls), whose concatenation is `ops`, so @main is `StableHlo.seq ops`, and from any
  memory with zero counters every weakly fair execution terminates with each TensorCore buffer at the operations'
  fold over the launch contents (`StableHlo.run_seq`). No operation writes one of the eight arguments, so the fold
  leaves them as launched.
-/
import proofs.«138900_j62680752717907_2_alg».proof.ReferenceIdeal
import proofs.«138900_j62680752717907_2_alg».proof.Proof.Gen.ReferenceIdeal
import Idealize.ShloMosaic.Lib.StableHlo.Run
import proofs.«138900_j62680752717907_2_alg».proof.Proof.RefOps
import proofs.«138900_j62680752717907_2_alg».proof.Proof.RefRun0
import proofs.«138900_j62680752717907_2_alg».proof.Proof.RefRun1
import proofs.«138900_j62680752717907_2_alg».proof.Proof.RefRun2
import proofs.«138900_j62680752717907_2_alg».proof.Proof.RefRun3

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The two lists are the four windows' lines, concatenated: the same operations in the same order, by computation
    of the appends. -/
theorem ops_windows : (ops : List (HloOp τ sig (Elt F))) = ops0 ++ ops1 ++ ops2 ++ ops3 := rfl

/-- @main is that straight line: its four windows in order are the four lines (`part0_eq` … `part3_eq`), and lines
    run one after the other are their concatenation run as one (`seq_append`). -/
theorem main_eq (c : Dev nD) : main (F := F) c = seq ops := by
  rw [ops_windows, seq_append, seq_append, seq_append, ← part0_eq c, ← part1_eq c, ← part2_eq c, ← part3_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  rw [ops_windows]
  exact List.forall_append.mpr ⟨List.forall_append.mpr ⟨List.forall_append.mpr ⟨ops0_sub, ops1_sub⟩, ops2_sub⟩, ops3_sub⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over @main's operations is the tail's fold over the head's. -/
theorem after_ops (V : Valuation τ sig (Elt F)) : after ops V = after opsTail (after opsHead V) :=
  after_append opsHead opsTail V

/-- A buffer no window writes is written by no operation of @main. -/
theorem not_written {b : DevRef τ sig}
    (h0 : ∀ op ∈ (ops0 : List (HloOp τ sig (Elt F))), b ∉ op.writes)
    (h1 : ∀ op ∈ (ops1 : List (HloOp τ sig (Elt F))), b ∉ op.writes)
    (h2 : ∀ op ∈ (ops2 : List (HloOp τ sig (Elt F))), b ∉ op.writes)
    (h3 : ∀ op ∈ (ops3 : List (HloOp τ sig (Elt F))), b ∉ op.writes) :
    ∀ op ∈ (ops : List (HloOp τ sig (Elt F))), b ∉ op.writes := by
  rw [ops_windows]
  intro op hop
  rcases List.mem_append.mp hop with hop | hop
  · rcases List.mem_append.mp hop with hop | hop
    · rcases List.mem_append.mp hop with hop | hop
      · exact h0 op hop
      · exact h1 op hop
    · exact h2 op hop
  · exact h3 op hop

/-! No operation writes an argument: the fold leaves each as it was. -/

theorem arg0_kept (V : Valuation τ sig (Elt F)) :
    after ops V (main_arg0 : DevRef τ sig) = V (main_arg0 : DevRef τ sig) :=
  after_of_forall_not_mem (b := Proc.devRef .tc main_arg0) _ _ (not_written ops0_arg0 ops1_arg0 ops2_arg0 ops3_arg0)

theorem arg1_kept (V : Valuation τ sig (Elt F)) :
    after ops V (main_arg1 : DevRef τ sig) = V (main_arg1 : DevRef τ sig) :=
  after_of_forall_not_mem (b := Proc.devRef .tc main_arg1) _ _ (not_written ops0_arg1 ops1_arg1 ops2_arg1 ops3_arg1)

theorem arg2_kept (V : Valuation τ sig (Elt F)) :
    after ops V (main_arg2 : DevRef τ sig) = V (main_arg2 : DevRef τ sig) :=
  after_of_forall_not_mem (b := Proc.devRef .tc main_arg2) _ _ (not_written ops0_arg2 ops1_arg2 ops2_arg2 ops3_arg2)

theorem arg3_kept (V : Valuation τ sig (Elt F)) :
    after ops V (main_arg3 : DevRef τ sig) = V (main_arg3 : DevRef τ sig) :=
  after_of_forall_not_mem (b := Proc.devRef .tc main_arg3) _ _ (not_written ops0_arg3 ops1_arg3 ops2_arg3 ops3_arg3)

theorem arg4_kept (V : Valuation τ sig (Elt F)) :
    after ops V (main_arg4 : DevRef τ sig) = V (main_arg4 : DevRef τ sig) :=
  after_of_forall_not_mem (b := Proc.devRef .tc main_arg4) _ _ (not_written ops0_arg4 ops1_arg4 ops2_arg4 ops3_arg4)

theorem arg5_kept (V : Valuation τ sig (Elt F)) :
    after ops V (main_arg5 : DevRef τ sig) = V (main_arg5 : DevRef τ sig) :=
  after_of_forall_not_mem (b := Proc.devRef .tc main_arg5) _ _ (not_written ops0_arg5 ops1_arg5 ops2_arg5 ops3_arg5)

theorem arg6_kept (V : Valuation τ sig (Elt F)) :
    after ops V (main_arg6 : DevRef τ sig) = V (main_arg6 : DevRef τ sig) :=
  after_of_forall_not_mem (b := Proc.devRef .tc main_arg6) _ _ (not_written ops0_arg6 ops1_arg6 ops2_arg6 ops3_arg6)

theorem arg7_kept (V : Valuation τ sig (Elt F)) :
    after ops V (main_arg7 : DevRef τ sig) = V (main_arg7 : DevRef τ sig) :=
  after_of_forall_not_mem (b := Proc.devRef .tc main_arg7) _ _ (not_written ops0_arg7 ops1_arg7 ops2_arg7 ops3_arg7)

end Cert.ReferenceIdeal.RefRun

end
-- ==== Proof.ClaimsRef.lean ====
/-
  The reference's frame claim: the reference's @main runs — every weakly fair execution terminates, nothing
  faulting — and its eight argument arrays end as launched.  The run leaves every TensorCore buffer at the fold of
  @main's operations over the launch contents, and no operation writes an argument.
-/
import proofs.«138900_j62680752717907_2_alg».proof.Defs
import proofs.«138900_j62680752717907_2_alg».proof.Proof.RefRun
import proofs.«138900_j62680752717907_2_alg».proof.Proof.Gen.ReferenceIdeal
import proofs.«138900_j62680752717907_2_alg».proof.Proof.Gen.Pre_finite_inputs

noncomputable section

open Idealize.ShloMosaic Idealize.ShloMosaic.TcCoe Idealize.SL.Sem

namespace Cert.Proof.Parts

open Cert.ReferenceIdeal Cert.ReferenceIdeal.RefRun

/-- The reference runs and leaves its arguments unchanged: each argument's final contents are the operations' fold
    read at that argument, which is the launch contents there. -/
theorem frame_ri : Cert.frame_ReferenceIdeal := fun m ρ _ =>
  (θ_run Cert.ReferenceIdeal.defs _ _).mono
    (fun r h c => ⟨(h c main_arg0).trans (arg0_kept _), (h c main_arg1).trans (arg1_kept _),
      (h c main_arg2).trans (arg2_kept _), (h c main_arg3).trans (arg3_kept _),
      (h c main_arg4).trans (arg4_kept _), (h c main_arg5).trans (arg5_kept _),
      (h c main_arg6).trans (arg6_kept _), (h c main_arg7).trans (arg7_kept _)⟩)
    (Cert.ReferenceIdeal.RefRun.run_main (F := Ideal) m ρ)

end Cert.Proof.Parts

end
-- ==== Proof.KValueI.lean ====
/-
  From blocks to the array: what the call's output array holds after the run, as one function of the four
  input arrays, at any float instance.

  The grid has 125 points; point t works on rows 4000 t … 4000 t + 3999 of every array.  The body's arithmetic
  k0_pay1 acts on whole blocks (the code column is broadcast along the 128 features), so the array function is stated
  block by block: entry (n, q) of the result is entry (n mod 4000, q) of the body's arithmetic of the four blocks
  number n / 4000.
-/
import proofs.«138900_j62680752717907_2_alg».proof.Proof.KDataI
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## Blocks of rows -/

/-- Rows 4000 t … 4000 t + 3999 of a [500000, 128] array, as a block. -/
def rowsFeat {e : EltTy} (x : Vec F S500000x128 e) (t : Fin 125) : Vec F S4000x128 e :=
  fun y => x (ValueIdx.ix2 (n0 := 500000) (n1 := 128)
    ⟨4000 * t.val + (y 0).val, by have := t.isLt; have := ValueIdx.idx2_lt0 y; omega⟩ ⟨(y 1).val, ValueIdx.idx2_lt1 y⟩)

/-- Rows 4000 t … 4000 t + 3999 of the [500000, 1] code column, as a block. -/
def rowsCode (x : Vec F S500000x1 .i32) (t : Fin 125) : Vec F S4000x1 .i32 :=
  fun y => x (ValueIdx.ix2 (n0 := 500000) (n1 := 1)
    ⟨4000 * t.val + (y 0).val, by have := t.isLt; have := ValueIdx.idx2_lt0 y; omega⟩ ⟨(y 1).val, ValueIdx.idx2_lt1 y⟩)

/-- Row p, feature q of block t is row 4000 t + p, feature q of the array. -/
@[simp] theorem rowsFeat_apply {e : EltTy} (x : Vec F S500000x128 e) (t : Fin 125) (p : Fin 4000) (q : Fin 128) :
    rowsFeat x t (ValueIdx.ix2 p q) = x (ValueIdx.ix2 (n0 := 500000) ⟨4000 * t.val + p.val, by have := t.isLt; have := p.isLt; omega⟩ q) := rfl

/-- Row p of block t of the code column is row 4000 t + p of the column. -/
@[simp] theorem rowsCode_apply (x : Vec F S500000x1 .i32) (t : Fin 125) (p : Fin 4000) (q : Fin 1) :
    rowsCode x t (ValueIdx.ix2 p q) = x (ValueIdx.ix2 (n0 := 500000) ⟨4000 * t.val + p.val, by have := t.isLt; have := p.isLt; omega⟩ q) := rfl

/-! ## The output array as one function of the four input arrays -/

/-- The output array as one function of the four input arrays (g1, g2', g2 and the code column): entry (n, q) is the
    body's arithmetic of the four blocks that hold row n, read at row n mod 4000. -/
def XF (g1 g2p g2 : Vec F S500000x128 .bf16) (code : Vec F S500000x1 .i32) : Vec F S500000x128 .f32 :=
  fun i => k0_pay1
    (rowsCode code ⟨(i 0).val / 4000, by have := ValueIdx.idx2_lt0 i; omega⟩)
    (rowsFeat g1 ⟨(i 0).val / 4000, by have := ValueIdx.idx2_lt0 i; omega⟩)
    (rowsFeat g2p ⟨(i 0).val / 4000, by have := ValueIdx.idx2_lt0 i; omega⟩)
    (rowsFeat g2 ⟨(i 0).val / 4000, by have := ValueIdx.idx2_lt0 i; omega⟩)
    (ValueIdx.ix2 (n0 := 4000) (n1 := 128) ⟨(i 0).val % 4000, Nat.mod_lt _ (by decide)⟩ ⟨(i 1).val, ValueIdx.idx2_lt1 i⟩)

/-- The same at row n, feature q. -/
theorem XF_apply_rows (g1 g2p g2 : Vec F S500000x128 .bf16) (code : Vec F S500000x1 .i32) (n : Fin 500000) (q : Fin 128) :
    XF g1 g2p g2 code (ValueIdx.ix2 n q)
      = k0_pay1 (rowsCode code ⟨n.val / 4000, by have := n.isLt; omega⟩) (rowsFeat g1 ⟨n.val / 4000, by have := n.isLt; omega⟩)
          (rowsFeat g2p ⟨n.val / 4000, by have := n.isLt; omega⟩) (rowsFeat g2 ⟨n.val / 4000, by have := n.isLt; omega⟩)
          (ValueIdx.ix2 (n0 := 4000) ⟨n.val % 4000, Nat.mod_lt _ (by decide)⟩ q) := rfl

/-- At an index of block t — row 4000 t + (j 0), feature (j 1) — the array function is the body's arithmetic of the
    four blocks number t, read at j. -/
theorem XF_at_block (g1 g2p g2 : Vec F S500000x128 .bf16) (code : Vec F S500000x1 .i32) (t : Fin 125)
    (i : S500000x128.Idx) (j : S4000x128.Idx)
    (h0 : (i 0).val = 4000 * t.val + (j 0).val) (h1 : (i 1).val = (j 1).val) :
    XF g1 g2p g2 code i = k0_pay1 (rowsCode code t) (rowsFeat g1 t) (rowsFeat g2p t) (rowsFeat g2 t) j := by
  have hj0 := ValueIdx.idx2_lt0 j
  have hi0 := ValueIdx.idx2_lt0 i
  have hb : (⟨(i 0).val / 4000, by omega⟩ : Fin 125) = t := Fin.ext (by show (i 0).val / 4000 = t.val; omega)
  have hj : ValueIdx.ix2 (n0 := 4000) (n1 := 128) ⟨(i 0).val % 4000, Nat.mod_lt _ (by decide)⟩ ⟨(i 1).val, ValueIdx.idx2_lt1 i⟩ = j := by
    funext a
    apply Fin.ext
    match a with
    | ⟨0, _⟩ => show (i 0).val % 4000 = (j 0).val; omega
    | ⟨1, _⟩ => show (i 1).val = (j 1).val; exact h1
  unfold XF
  rw [hb, hj]

/-! ## The printed index maps, decided over the grid -/

/-- A grid point as a block number. -/
abbrev pt (t : Fin cfg0.N) : Fin 125 := t.cast N_0

/-- Every window's block at point t is block (t, 0): rows 4000 t …, all columns. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem origin_zero : (![0, 0] : Fin 2 → Nat) = fun _ => 0 := funext fun a => by fin_cases a <;> rfl

/-! ## Each input block is a block of rows of its array -/

/-- Window 0's block at point t is rows 4000 t … of g1. -/
theorem iblk0_rows (c : Dev nD) (t : Fin cfg0.N) :
    (iblk m c 0 t : Vec F S4000x128 .bf16) = rowsFeat (V m c main_v51) (pt t) := by
  obtain ⟨⟨e0, e1⟩, -⟩ := idx_rows t
  funext y
  unfold iblk
  rw [View.read_apply]
  show V m c main_v51 (((cfg0.win 0).blk t).view.emb y) = V m c main_v51 _
  congr 1
  funext a
  apply Fin.ext
  match a with
  | ⟨0, _⟩ => show win0_0.index t (0 : Fin 2) * 4000 + 1 * (y 0).val = 4000 * t.val + (y 0).val; rw [e0]; omega
  | ⟨1, _⟩ => show win0_0.index t (1 : Fin 2) * 128 + 1 * (y 1).val = (y 1).val; rw [e1]; omega

/-- Window 1's block at point t is rows 4000 t … of g2'. -/
theorem iblk1_rows (c : Dev nD) (t : Fin cfg0.N) :
    (iblk m c 1 t : Vec F S4000x128 .bf16) = rowsFeat (V m c main_v58) (pt t) := by
  obtain ⟨-, ⟨e0, e1⟩, -⟩ := idx_rows t
  funext y
  unfold iblk
  rw [View.read_apply]
  show V m c main_v58 (((cfg0.win 1).blk t).view.emb y) = V m c main_v58 _
  congr 1
  funext a
  apply Fin.ext
  match a with
  | ⟨0, _⟩ => show win0_1.index t (0 : Fin 2) * 4000 + 1 * (y 0).val = 4000 * t.val + (y 0).val; rw [e0]; omega
  | ⟨1, _⟩ => show win0_1.index t (1 : Fin 2) * 128 + 1 * (y 1).val = (y 1).val; rw [e1]; omega

/-- Window 2's block at point t is rows 4000 t … of g2. -/
theorem iblk2_rows (c : Dev nD) (t : Fin cfg0.N) :
    (iblk m c 2 t : Vec F S4000x128 .bf16) = rowsFeat (V m c main_v65) (pt t) := by
  obtain ⟨-, -, ⟨e0, e1⟩, -⟩ := idx_rows t
  funext y
  unfold iblk
  rw [View.read_apply]
  show V m c main_v65 (((cfg0.win 2).blk t).view.emb y) = V m c main_v65 _
  congr 1
  funext a
  apply Fin.ext
  match a with
  | ⟨0, _⟩ => show win0_2.index t (0 : Fin 2) * 4000 + 1 * (y 0).val = 4000 * t.val + (y 0).val; rw [e0]; omega
  | ⟨1, _⟩ => show win0_2.index t (1 : Fin 2) * 128 + 1 * (y 1).val = (y 1).val; rw [e1]; omega

/-- Window 3's block at point t is rows 4000 t … of the code column. -/
theorem iblk3_rows (c : Dev nD) (t : Fin cfg0.N) :
    (iblk m c 3 t : Vec F S4000x1 .i32) = rowsCode (V m c main_v42) (pt t) := by
  obtain ⟨-, -, -, ⟨e0, e1⟩, -⟩ := idx_rows t
  funext y
  unfold iblk
  rw [View.read_apply]
  show V m c main_v42 (((cfg0.win 3).blk t).view.emb y) = V m c main_v42 _
  congr 1
  funext a
  apply Fin.ext
  match a with
  | ⟨0, _⟩ => show win0_3.index t (0 : Fin 2) * 4000 + 1 * (y 0).val = 4000 * t.val + (y 0).val; rw [e0]; omega
  | ⟨1, _⟩ => show win0_3.index t (1 : Fin 2) * 1 + 1 * (y 1).val = (y 1).val; rw [e1]; omega

/-! ## What each point writes back, and the cover -/

/-- What point t writes back is block t of the array function of the arrays as the call finds them. -/
theorem flushed_eq (c : Dev nD) (t : Fin cfg0.N) :
    (dats m 0 c).flushed 4 t
      = ((cfg0.win 4).blk t).view.read (Elt F) (XF (V m c main_v51) (V m c main_v58) (V m c main_v65) (V m c main_v42)) := by
  show (cfg0.win 4).cut (grid0.coords t) ((dats m 0 c).after 4 t) = _
  rw [after4]
  unfold out4
  rw [View.canon_unit_zero origin_zero]
  simp only [View.ld_unit_zero (S := S4000x128) origin_zero, View.ld_unit_zero (S := S4000x1) origin_zero]
  rw [iblk0_rows m c t, iblk1_rows m c t, iblk2_rows m c t, iblk3_rows m c t]
  obtain ⟨-, -, -, -, e0, e1⟩ := idx_rows t
  funext j
  show k0_pay1 (rowsCode (V m c main_v42) (pt t)) (rowsFeat (V m c main_v51) (pt t)) (rowsFeat (V m c main_v58) (pt t))
      (rowsFeat (V m c main_v65) (pt t)) j
    = XF (V m c main_v51) (V m c main_v58) (V m c main_v65) (V m c main_v42) (((cfg0.win 4).blk t).view.emb j)
  refine (XF_at_block _ _ _ _ (pt t) _ j ?_ ?_).symm
  · show win0_4.index t (0 : Fin 2) * 4000 + 1 * (j 0).val = 4000 * t.val + (j 0).val; rw [e0]; omega
  · show win0_4.index t (1 : Fin 2) * 128 + 1 * (j 1).val = (j 1).val; rw [e1]; omega

/-- An index of the array is in point t's block iff each coordinate is in the block's range on its axis. -/
theorem mem_blk (t : Fin cfg0.N) (i : S500000x128.Idx) :
    i ∈ ((cfg0.win 4).blk t).view.set
      ↔ ∀ a : Fin 2, win0_4.index t a * S4000x128.size a ≤ (i a).val ∧ (i a).val < win0_4.index t a * S4000x128.size a + S4000x128.size a := by
  show i ∈ ((View.whole main_v66).slice (win0_4.rect t)).set ↔ _
  rw [View.set_slice_whole, Rect.mem_set_unit]
  exact Iff.rfl

/-- Row n is in the block of point n / 4000: the 125 blocks of 4000 rows tile the 500000 rows. -/
theorem cover (i : S500000x128.Idx) :
    ∃ t : Fin cfg0.N, (cfg0.win 4).flush t = true ∧ i ∈ ((cfg0.win 4).blk t).view.set := by
  have hi0 := ValueIdx.idx2_lt0 i
  have hi1 := ValueIdx.idx2_lt1 i
  have hN : cfg0.N = 125 := N_0
  have ht : (i 0).val / 4000 < cfg0.N := by rw [hN]; omega
  obtain ⟨-, -, -, -, e0, e1⟩ := idx_rows ⟨(i 0).val / 4000, ht⟩
  refine ⟨⟨(i 0).val / 4000, ht⟩, flush0_4 _, ?_⟩
  rw [mem_blk]
  intro a
  match a with
  | ⟨0, _⟩ =>
    show win0_4.index ⟨(i 0).val / 4000, ht⟩ (0 : Fin 2) * 4000 ≤ (i 0).val
      ∧ (i 0).val < win0_4.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_4.index ⟨(i 0).val / 4000, ht⟩ (1 : Fin 2) * 128 ≤ (i 1).val
      ∧ (i 1).val < win0_4.index ⟨(i 0).val / 4000, ht⟩ (1 : Fin 2) * 128 + 128
    rw [e1]
    omega

/-- The output array after the run: the array function of the four input arrays as the call finds them. -/
theorem final4 (c : Dev nD) :
    (dats m 0 c).arrAt 4 cfg0.N = XF (V m c main_v51) (V m c main_v58) (V m c main_v65) (V m c main_v42) :=
  (dats m 0 c).arrAt_eq_of_cover 4 (XF (V m c main_v51) (V m c main_v58) (V m c main_v65) (V m c main_v42))
    (fun t _ => flushed_eq m c t) cover

end Cert.KernelIdeal.Hand

end
-- ==== Proof.BlendLaw.lean ====
/-
  The blend payload read at one index: at the ideal instance the arithmetic blend
  `w_both * (half * (g1 + g2')) + (1 - w_both) * (w_in1 * g1 + (1 - w_in1) * g2)`
  with the weights `w_both = [code = 3]`, `w_in1 = code &&& 1` read as reals in {0, 1} is the two-level
  selection on the membership bits, when `code = zext(in1) + 2 * zext(in2)`.
-/
import proofs.«138900_j62680752717907_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.BlendLaw

open Idealize.ShloMosaic Idealize.ShloMosaic.ValueIdx

/-- The pattern `0x3F800000` denotes the real number one. -/
theorem ofBits_one : Ideal.ofBits .f32 0x3F800000#32 = 1 := by
  simp [Ideal.ofBits, Ideal.ieee, -EReal.coe_mul]; norm_num

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector integer comparison at an index compares the elements. -/
theorem cmpi_apply {s : Shape} {w : Nat} (pr : CmpIPredicate) (a b : IVec s w) (i : s.Idx) :
    cmpi pr a b i = IntOp.cmpi pr (a i) (b i) := rfl
/-- A vector bitwise and at an index is the and of the elements. -/
theorem andi_apply {s : Shape} {w : Nat} (a b : IVec s w) (i : s.Idx) : andi a b i = IntOp.andi (a i) (b i) := rfl

/-- At the ideal instance a signed integer converts to the real number it is. -/
theorem sitofp_word (w : BitVec 32) : FloatOps.sitofp (F := Ideal) .f32 w = ((w.toInt : ℝ) : EReal) := rfl

/-- A zero-extended bit converts to `1` when the bit is set and to `0` otherwise. -/
theorem sitofp_bit (a : BitVec 1) :
    FloatOps.sitofp (F := Ideal) .f32 (a.setWidth 32) = if a = 1#1 then (1 : EReal) else 0 := by
  rw [sitofp_word]
  rcases BitVec.eq_zero_or_eq_one a with h | h <;> subst h
  · have e : (BitVec.setWidth 32 0#1).toInt = 0 := by decide
    rw [e]; simp
  · have e : (BitVec.setWidth 32 1#1).toInt = 1 := by decide
    rw [e]; simp

/-- The packed code `zext a + 2 * zext b` equals three exactly when both bits are set. -/
theorem code_eq_three (a b : BitVec 1) :
    BitVec.setWidth 32 (IntOp.cmpi .eq (IntOp.addi (a.setWidth 32) (IntOp.muli 2#32 (b.setWidth 32))) 3#32)
      = (a &&& b).setWidth 32 := by
  rcases BitVec.eq_zero_or_eq_one a with h | h <;> subst h <;>
    rcases BitVec.eq_zero_or_eq_one b with h | h <;> subst h <;> decide

/-- The low bit of the packed code `zext a + 2 * zext b` is `a`. -/
theorem code_and_one (a b : BitVec 1) :
    IntOp.andi (IntOp.addi (a.setWidth 32) (IntOp.muli 2#32 (b.setWidth 32))) 1#32 = a.setWidth 32 := by
  rcases BitVec.eq_zero_or_eq_one a with h | h <;> subst h <;>
    rcases BitVec.eq_zero_or_eq_one b with h | h <;> subst h <;> decide

theorem ereal_one_sub_one : (1 : EReal) - 1 = 0 := by
  rw [← EReal.coe_one, ← EReal.coe_sub, sub_self, EReal.coe_zero]

/-- The blend payload at row `p`, column `q`: when the row's code word is `zext i1 + 2 * zext i2`, the weighted
    sum is the selection "both bits set: half the sum of the first two tables; else bit one set: the first table;
    else the third table", spelt as the two nested element selects a vector `select (andi a b) x (select a y z)`
    reads at an index. The constant one half stays the unevaluated pattern `0x3F000000`. -/
theorem pay_apply (i1 i2 : BitVec 1) (v0 : Vec Ideal S4000x1 .i32) (v9 v12 v15 : Vec Ideal S4000x128 .bf16)
    (p : Fin 4000) (q : Fin 128)
    (hcode : v0 (ix2 p (0 : Fin 1)) = IntOp.addi (i1.setWidth 32) (IntOp.muli 2#32 (i2.setWidth 32))) :
    Cert.KernelIdeal.Gen.k0_pay1 (F := Ideal) v0 v9 v12 v15 (ix2 p q)
      = Scalar.select (IntOp.andi i1 i2)
          (Ideal.ofBits .f32 0x3F000000#32 * ((v9 (ix2 p q) : EReal) + (v12 (ix2 p q) : EReal)))
          (Scalar.select i1 (v9 (ix2 p q) : EReal) (v15 (ix2 p q) : EReal)) := by
  unfold Cert.KernelIdeal.Gen.k0_pay1
  simp only [shapeCast_self, addf_apply, mulf_apply, subf_apply, broadcast_apply, extf_apply, sitofp_apply,
    broadcastTo_a1_ab_apply, extui_apply, cmpi_apply, andi_apply, hcode]
  rw [code_eq_three, code_and_one, sitofp_bit, sitofp_bit]
  simp only [Ideal.ofBits_def, ofBits_one]
  unfold Scalar.select IntOp.andi
  rcases BitVec.eq_zero_or_eq_one i1 with h | h <;> subst h <;>
    rcases BitVec.eq_zero_or_eq_one i2 with h | h <;> subst h <;>
    simp [ereal_one_sub_one]

/-- The same law with the two selects written as conditionals on the bits. -/
theorem pay_apply_ite (i1 i2 : BitVec 1) (v0 : Vec Ideal S4000x1 .i32) (v9 v12 v15 : Vec Ideal S4000x128 .bf16)
    (p : Fin 4000) (q : Fin 128)
    (hcode : v0 (ix2 p (0 : Fin 1)) = IntOp.addi (i1.setWidth 32) (IntOp.muli 2#32 (i2.setWidth 32))) :
    Cert.KernelIdeal.Gen.k0_pay1 (F := Ideal) v0 v9 v12 v15 (ix2 p q)
      = if (i1 &&& i2) = 1#1 then
          Ideal.ofBits .f32 0x3F000000#32 * ((v9 (ix2 p q) : EReal) + (v12 (ix2 p q) : EReal))
        else if i1 = 1#1 then (v9 (ix2 p q) : EReal) else (v15 (ix2 p q) : EReal) :=
  pay_apply i1 i2 v0 v9 v12 v15 p q hcode

end Cert.KernelIdeal.BlendLaw
-- ==== Proof.XFull.lean ====
/-
  The blended table as the reference writes it is the blended table as the call leaves it.

  For every original node n (a row of the [500000, 128] table) the reference takes
      one half of (g1 + g2') where n is in both index sets, else g1 where n is in the first, else g2,
  by two selects under the membership columns.  The call gets the two membership bits packed in one code word per
  row, bit 0 for the first set and bit 1 for the second, and computes, block of 4000 rows by block,
      w_both · (½ (g1 + g2')) + (1 − w_both) · (w_1 · g1 + (1 − w_1) · g2)
  with the weights 0 or 1 read off the code.  Entry by entry the two agree on the extended reals: a weight 0 removes
  its summand whatever it is, a weight 1 keeps it.  Row n lies in block n / 4000 at row n mod 4000.
-/
import proofs.«138900_j62680752717907_2_alg».proof.Proof.KValueI
import proofs.«138900_j62680752717907_2_alg».proof.Proof.BlendLaw
import Idealize.ShloMosaic.Lib.ValueIdx
import Idealize.ShloMosaic.Lib.Pipeline.Value

noncomputable section

namespace Cert.KernelIdeal.XFull

open Idealize.ShloMosaic Idealize.ShloMosaic.ValueIdx
open Cert.KernelIdeal Cert.KernelIdeal.Hand

/-- A membership column [500000] laid out as [500000, 1] reads at (n, 0) as the column at n. -/
theorem col_apply {α : Type} (x : S500000.Idx → α) (h : S500000.BroadcastsInDim S500000x1 ![0]) (n : Fin 500000) (z : Fin 1) :
    broadcastInDim S500000x1 ![0] h x (ix2 n z) = x (ix1 n) :=
  broadcastInDim_apply _ h x _ _ (fun a => by match a with | ⟨0, _⟩ => rfl)

/-- A [500000, 1] column spread over the 128 features reads at (n, q) as the column at (n, 0). -/
theorem spread_apply {α : Type} (x : S500000x1.Idx → α) (h : S500000x1.BroadcastsInDim S500000x128 ![0, 1]) (n : Fin 500000) (q : Fin 128) :
    broadcastInDim S500000x128 ![0, 1] h x (ix2 n q) = x (ix2 n (0 : Fin 1)) :=
  broadcastInDim_apply _ h x _ _ (fun a => by match a with | ⟨0, _⟩ => rfl | ⟨1, _⟩ => rfl)

/-- A scalar spread over the whole table reads everywhere as the scalar. -/
theorem scalar_apply {α : Type} (x : S_.Idx → α) (h : S_.BroadcastsInDim S500000x128 ![]) (i : S500000x128.Idx) :
    broadcastInDim S500000x128 ![] h x i = x ix0 :=
  broadcastInDim_apply _ h x _ _ (fun a => a.elim0)

/-- The [500000] code column reshaped to [500000, 1] reads at (n, 0) as the column at n. -/
theorem reshape_col_apply {α : Type} (x : S500000.Idx → α) (h : S500000.ShapeCasts S500000x1) (n : Fin 500000) (z : Fin 1) :
    shapeCast S500000x1 x h (ix2 n z) = x (ix1 n) :=
  shapeCast_apply x h _ _ (by
    rw [Shape.rowMajor_val_one, Shape.rowMajor_val_two]
    have hz : z.val = 0 := by omega
    show n.val = n.val * 1 + z.val
    omega)

/-- The reference's two selects are the call's blend, entry by entry. -/
theorem xfull_eq (in1 in2 : IVec S500000 1) (g1 g2p g2 : Vec Ideal S500000x128 .bf16)
    (hb1 : S500000.BroadcastsInDim S500000x1 ![0]) (hb2 : S500000x1.BroadcastsInDim S500000x128 ![0, 1])
    (hb0 : S_.BroadcastsInDim S500000x128 ![]) (hc : S500000.ShapeCasts S500000x1) (hs : S_.BroadcastsInDim S500000 ![]) (hlt : 1 < 32) :
    select (broadcastInDim S500000x128 ![0, 1] hb2 (broadcastInDim S500000x1 ![0] hb1 (andi in1 in2)))
        (mulf (F := Ideal) (φ := .f32) (broadcastInDim S500000x128 ![] hb0 (constant (F := Ideal) S_ .f32 0x3F000000#32)) (addf (F := Ideal) (φ := .f32) g1 g2p))
        (select (broadcastInDim S500000x128 ![0, 1] hb2 (broadcastInDim S500000x1 ![0] hb1 in1)) g1 g2)
      = XF (F := Ideal) g1 g2p g2
          (shapeCast S500000x1 (addi (extui 32 in1 hlt) (muli (broadcastInDim S500000 ![] hs (constantI S_ 32 2#32)) (extui 32 in2 hlt))) hc) := by
  funext i
  obtain ⟨n, q, rfl⟩ : ∃ (n : Fin 500000) (q : Fin 128), i = ix2 n q := ⟨i 0, i 1, eq_ix2 i⟩
  have hdm : 4000 * (n.val / 4000) + n.val % 4000 = n.val := Nat.div_add_mod n.val 4000
  rw [XF_apply_rows]
  rw [BlendLaw.pay_apply (in1 (ix1 n)) (in2 (ix1 n)) _ _ _ _ ⟨n.val % 4000, Nat.mod_lt _ (by norm_num)⟩ q (by
    rw [rowsCode_apply]
    have e : (⟨4000 * (n.val / 4000) + n.val % 4000, by omega⟩ : Fin 500000) = n := Fin.ext hdm
    rw [e, reshape_col_apply]
    rfl)]
  rw [select_apply, select_apply, spread_apply, spread_apply, col_apply, col_apply, rowsFeat_apply, rowsFeat_apply, rowsFeat_apply]
  have e : (⟨4000 * (n.val / 4000) + n.val % 4000, by omega⟩ : Fin 500000) = n := Fin.ext hdm
  simp only [e]
  rfl

end Cert.KernelIdeal.XFull

end
-- ==== Proof.BridgeHead1.lean ====
/-
  The host lines before the call, program against program (1): the two membership columns and their union.

  Both programs build, from the two index lists perm1 and perm2, the membership columns in1 and in2 over the 500000
  original nodes (a scatter of ones into zeros at the wrapped indices) and their union; the lines are the same
  operations of the same arguments, so from launch contents that agree on the arguments the columns are equal.
-/
import proofs.«138900_j62680752717907_2_alg».proof.Proof.KDataI
import proofs.«138900_j62680752717907_2_alg».proof.Proof.RefOps
import Idealize.ShloMosaic.Lib.StableHlo.Run
import Idealize.ShloMosaic.PureOps.Ideal

noncomputable section

namespace Cert.Bridge

open Idealize.ShloMosaic Idealize.ShloMosaic.TcCoe Idealize.ShloMosaic.StableHlo
open Idealize.SL Idealize.SL.Sem

/-- The first membership column: the same scatter of the same index list in both programs. -/
theorem pair_in1 (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0)) :
    after (Cert.ReferenceIdeal.RefRun.opsHead (F := Ideal)) VR (Proc.devRef .tc Cert.ReferenceIdeal.main_v8)
      = after (List.flatten [Cert.KernelIdeal.Gen.hostOps0 (F := Ideal)]) VK (Proc.devRef .tc Cert.KernelIdeal.main_v8) := by
  simp only [Cert.ReferenceIdeal.RefRun.opsHead, Cert.KernelIdeal.Gen.hostOps0, List.flatten_cons, List.flatten_nil, List.append_nil]
  after_results_simp
  rw [h0]
  rfl

/-- The second membership column. -/
theorem pair_in2 (VK : Valuation Cert.KernelIdeal.τ Cert.KernelIdeal.sig (Elt Ideal)) (VR : Valuation Cert.ReferenceIdeal.τ Cert.ReferenceIdeal.sig (Elt Ideal))
    (h1 : VR (Proc.devRef .tc Cert.ReferenceIdeal.main_arg1) = VK (Proc.devRef .tc Cert.KernelIdeal.main_arg1)) :
    after (Cert.ReferenceIdeal.RefRun.opsHead (F := Ideal)) VR (Proc.devRef .tc Cert.ReferenceIdeal.main_v17)
      = after (List.flatten [Cert.KernelIdeal.Gen.hostOps0 (F := Ideal)]) VK (Proc.devRef .tc Cert.KernelIdeal.main_v17) := by
  simp only [Cert.ReferenceIdeal.RefRun.opsHead, Cert.KernelIdeal.Gen.hostOps0, List.flatten_cons, List.flatten_nil, List.append_nil]
  after_results_simp
  rw [h1]
  rfl

/-- The union of the two membership columns. -/
theorem pair_sel (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1)) :
    after (Cert.ReferenceIdeal.RefRun.opsHead (F := Ideal)) VR (Proc.devRef .tc Cert.ReferenceIdeal.main_v37)
      = after (List.flatten [Cert.KernelIdeal.Gen.hostOps0 (F := Ideal)]) VK (Proc.devRef .tc Cert.KernelIdeal.main_v36) := by
  simp only [Cert.ReferenceIdeal.RefRun.opsHead, Cert.KernelIdeal.Gen.hostOps0, List.flatten_cons, List.flatten_nil, List.append_nil]
  after_results_simp
  rw [h0, h1]
  rfl

end Cert.Bridge

end
-- ==== Proof.BridgeHead2.lean ====
/-
  The host lines before the call, program against program (2): the three gathered row tables.

  g1 gathers the rows of x1 at each node's position in perm1, g2' the rows of x2 at the same positions, g2 the rows of
  x2 at the positions in perm2.  The kernel's program first changes x1 and x2 to a narrower float format, which on the
  extended reals is the identity, so the gathered tables are the reference's.
-/
import proofs.«138900_j62680752717907_2_alg».proof.Proof.KDataI
import proofs.«138900_j62680752717907_2_alg».proof.Proof.RefOps
import Idealize.ShloMosaic.Lib.StableHlo.Run
import Idealize.ShloMosaic.PureOps.Ideal

noncomputable section

namespace Cert.Bridge

open Idealize.ShloMosaic Idealize.ShloMosaic.TcCoe Idealize.ShloMosaic.StableHlo
open Idealize.SL Idealize.SL.Sem

/-- g1: rows of x1 at the positions in perm1. -/
theorem pair_g1 (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h3 : VR (Proc.devRef .tc Cert.ReferenceIdeal.main_arg3) = VK (Proc.devRef .tc Cert.KernelIdeal.main_arg3)) :
    after (Cert.ReferenceIdeal.RefRun.opsHead (F := Ideal)) VR (Proc.devRef .tc Cert.ReferenceIdeal.main_v44)
      = after (List.flatten [Cert.KernelIdeal.Gen.hostOps0 (F := Ideal)]) VK (Proc.devRef .tc Cert.KernelIdeal.main_v51) := by
  simp only [Cert.ReferenceIdeal.RefRun.opsHead, Cert.KernelIdeal.Gen.hostOps0, List.flatten_cons, List.flatten_nil, List.append_nil]
  after_results_simp
  rw [h0, h3]
  rfl

/-- g2': rows of x2 at the positions in perm1. -/
theorem pair_g2p (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h4 : VR (Proc.devRef .tc Cert.ReferenceIdeal.main_arg4) = VK (Proc.devRef .tc Cert.KernelIdeal.main_arg4)) :
    after (Cert.ReferenceIdeal.RefRun.opsHead (F := Ideal)) VR (Proc.devRef .tc Cert.ReferenceIdeal.main_v51)
      = after (List.flatten [Cert.KernelIdeal.Gen.hostOps0 (F := Ideal)]) VK (Proc.devRef .tc Cert.KernelIdeal.main_v58) := by
  simp only [Cert.ReferenceIdeal.RefRun.opsHead, Cert.KernelIdeal.Gen.hostOps0, List.flatten_cons, List.flatten_nil, List.append_nil]
  after_results_simp
  rw [h0, h4]
  rfl

/-- g2: rows of x2 at the positions in perm2. -/
theorem pair_g2 (VK : Valuation Cert.KernelIdeal.τ Cert.KernelIdeal.sig (Elt Ideal)) (VR : Valuation Cert.ReferenceIdeal.τ Cert.ReferenceIdeal.sig (Elt Ideal))
    (h1 : VR (Proc.devRef .tc Cert.ReferenceIdeal.main_arg1) = VK (Proc.devRef .tc Cert.KernelIdeal.main_arg1))
    (h4 : VR (Proc.devRef .tc Cert.ReferenceIdeal.main_arg4) = VK (Proc.devRef .tc Cert.KernelIdeal.main_arg4)) :
    after (Cert.ReferenceIdeal.RefRun.opsHead (F := Ideal)) VR (Proc.devRef .tc Cert.ReferenceIdeal.main_v58)
      = after (List.flatten [Cert.KernelIdeal.Gen.hostOps0 (F := Ideal)]) VK (Proc.devRef .tc Cert.KernelIdeal.main_v65) := by
  simp only [Cert.ReferenceIdeal.RefRun.opsHead, Cert.KernelIdeal.Gen.hostOps0, List.flatten_cons, List.flatten_nil, List.append_nil]
  after_results_simp
  rw [h1, h4]
  rfl

end Cert.Bridge

end
-- ==== Proof.BridgeHead3.lean ====
/-
  The host lines before the call: the code column.

  In the kernel's program the code column handed to the call is in1 + 2 · in2, one 32-bit word per node, laid out as
  a [500000, 1] column: an identity between lines of one program, the later line's value written over the earlier
  lines' values.
-/
import proofs.«138900_j62680752717907_2_alg».proof.Proof.KDataI
import proofs.«138900_j62680752717907_2_alg».proof.Proof.RefOps
import Idealize.ShloMosaic.Lib.StableHlo.Run
import Idealize.ShloMosaic.PureOps.Ideal

noncomputable section

namespace Cert.Bridge

open Idealize.ShloMosaic Idealize.ShloMosaic.TcCoe Idealize.ShloMosaic.StableHlo
open Idealize.SL Idealize.SL.Sem

set_option maxHeartbeats 4000000 in
set_option maxRecDepth 65536 in
/-- The kernel's program's code column over its own earlier values: in1 + 2 · in2, as a [500000, 1] column. -/
theorem kernel_code (VK : Valuation Cert.KernelIdeal.τ Cert.KernelIdeal.sig (Elt Ideal)) :
    after (List.flatten [Cert.KernelIdeal.Gen.hostOps0 (F := Ideal)]) VK (Proc.devRef .tc Cert.KernelIdeal.main_v42)
      = shapeCast Cert.KernelIdeal.S500000x1 (addi (extui 32 (after (List.flatten [Cert.KernelIdeal.Gen.hostOps0 (F := Ideal)]) VK (Proc.devRef .tc Cert.KernelIdeal.main_v8)) Cert.KernelIdeal.Gen.natLt_1_32)
          (muli (broadcastInDim Cert.KernelIdeal.S500000 ![] Cert.KernelIdeal.Gen.bcast_S_S500000 (constantI Cert.KernelIdeal.S_ 32 2#32)) (extui 32 (after (List.flatten [Cert.KernelIdeal.Gen.hostOps0 (F := Ideal)]) VK (Proc.devRef .tc Cert.KernelIdeal.main_v17)) Cert.KernelIdeal.Gen.natLt_1_32)))
          Cert.KernelIdeal.Gen.shapeCasts_S500000_S500000x1 := by
  simp only [Cert.KernelIdeal.Gen.hostOps0, List.flatten_cons, List.flatten_nil, List.append_nil]
  after_results_simp
  rfl

end Cert.Bridge

end
-- ==== Proof.BridgeBlend.lean ====
/-
  The reference's blended table over the values the lines before it leave.

  The last ten of the reference's first 89 operations are the blend itself: the two membership columns laid out as
  [500000, 1] columns, g1 + g2', the half, the product, and the two calls of the select under a column spread over
  the 128 features.  They write none of the columns and gathered tables they read, so the blended table is two selects
  of those values, and the intersection column they read is the pointwise `and` of the two membership columns.
-/
import proofs.«138900_j62680752717907_2_alg».proof.Proof.RefRun
import Idealize.ShloMosaic.Lib.StableHlo.Run
import Idealize.ShloMosaic.PureOps.Ideal

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- The blend: the last ten operations of the head. -/
abbrev opsBlend : List (HloOp τ sig (Elt F)) :=
  [ StableHlo.unary main_v36 main_v59 (broadcastInDim S500000x1 ![0] bcast_S500000_S500000x1_0 : (⟨S500000, .i1⟩ : BufTy).Contents (Elt F) → (⟨S500000x1, .i1⟩ : BufTy).Contents (Elt F)),
    StableHlo.binary main_v44 main_v51 main_v60 (addf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x3F000000#32),
    StableHlo.unary main_cst main_v61 (broadcastInDim S500000x128 ![] bcast_S_S500000x128 : (⟨S_, .f32⟩ : BufTy).Contents (Elt F) → (⟨S500000x128, .f32⟩ : BufTy).Contents (Elt F)),
    StableHlo.binary main_v61 main_v60 main_v62 (mulf : (⟨S500000x128, .f32⟩ : BufTy).Contents (Elt F) → (⟨S500000x128, .f32⟩ : BufTy).Contents (Elt F) → (⟨S500000x128, .f32⟩ : BufTy).Contents (Elt F)),
    StableHlo.unary main_v8 main_v63 (broadcastInDim S500000x1 ![0] bcast_S500000_S500000x1_0 : (⟨S500000, .i1⟩ : BufTy).Contents (Elt F) → (⟨S500000x1, .i1⟩ : BufTy).Contents (Elt F)),
    StableHlo.TRef.unary (.of main_v63 : StableHlo.TRef sig ⟨S500000x1, .i1⟩) main_call0.v0 (broadcastInDim S500000x128 ![0, 1] bcast_S500000x1_S500000x128_0_1),
    StableHlo.TRef.ternary main_call0.v0 (.of main_v44 : StableHlo.TRef sig ⟨S500000x128, .f32⟩) (.of main_v58 : StableHlo.TRef sig ⟨S500000x128, .f32⟩) main_call0.v1 select,
    StableHlo.TRef.unary (.of main_v59 : StableHlo.TRef sig ⟨S500000x1, .i1⟩) main_call1.v0 (broadcastInDim S500000x128 ![0, 1] bcast_S500000x1_S500000x128_0_1),
    StableHlo.TRef.ternary main_call1.v0 (.of main_v62 : StableHlo.TRef sig ⟨S500000x128, .f32⟩) (.of main_v64 : StableHlo.TRef sig ⟨S500000x128, .f32⟩) main_call1.v1 select ]

/-- The head is its first 79 operations and then the blend. -/
theorem head_split : (opsHead : List (HloOp τ sig (Elt F))) = (opsHead : List (HloOp τ sig (Elt F))).take 79 ++ opsBlend := by
  rfl

/-- What the head leaves is what the blend leaves from what the 79 operations before it leave. -/
theorem after_head (V : Valuation τ sig (Elt F)) :
    after (opsHead : List (HloOp τ sig (Elt F))) V = after opsBlend (after ((opsHead : List (HloOp τ sig (Elt F))).take 79) V) := by
  have h := after_append ((opsHead : List (HloOp τ sig (Elt F))).take 79) opsBlend V
  rw [← head_split] at h
  exact h

/-- The blend writes none of the values it reads. -/
theorem blend_keeps_v8 (V : Valuation τ sig (Elt F)) : after (opsBlend (F := F)) V (Proc.devRef .tc main_v8) = V (Proc.devRef .tc main_v8) := by
  simp only [opsBlend]; after_results_simp
theorem blend_keeps_v17 (V : Valuation τ sig (Elt F)) : after (opsBlend (F := F)) V (Proc.devRef .tc main_v17) = V (Proc.devRef .tc main_v17) := by
  simp only [opsBlend]; after_results_simp
theorem blend_keeps_v36 (V : Valuation τ sig (Elt F)) : after (opsBlend (F := F)) V (Proc.devRef .tc main_v36) = V (Proc.devRef .tc main_v36) := by
  simp only [opsBlend]; after_results_simp
theorem blend_keeps_v44 (V : Valuation τ sig (Elt F)) : after (opsBlend (F := F)) V (Proc.devRef .tc main_v44) = V (Proc.devRef .tc main_v44) := by
  simp only [opsBlend]; after_results_simp
theorem blend_keeps_v51 (V : Valuation τ sig (Elt F)) : after (opsBlend (F := F)) V (Proc.devRef .tc main_v51) = V (Proc.devRef .tc main_v51) := by
  simp only [opsBlend]; after_results_simp
theorem blend_keeps_v58 (V : Valuation τ sig (Elt F)) : after (opsBlend (F := F)) V (Proc.devRef .tc main_v58) = V (Proc.devRef .tc main_v58) := by
  simp only [opsBlend]; after_results_simp

/-- The blended table is two selects of the values the blend starts from: one half of (g1 + g2') under the
    intersection column, else g1 under the first membership column, else g2. -/
theorem blend_xfull (V : Valuation τ sig (Elt F)) :
    after (opsBlend (F := F)) V (Proc.devRef .tc main_v65)
      = select (broadcastInDim S500000x128 ![0, 1] bcast_S500000x1_S500000x128_0_1
            (broadcastInDim S500000x1 ![0] bcast_S500000_S500000x1_0 (V (Proc.devRef .tc main_v36))))
          (mulf (F := F) (φ := .f32) (broadcastInDim S500000x128 ![] bcast_S_S500000x128 (constant (F := F) S_ .f32 0x3F000000#32))
            (addf (F := F) (φ := .f32) (V (Proc.devRef .tc main_v44)) (V (Proc.devRef .tc main_v51))))
          (select (broadcastInDim S500000x128 ![0, 1] bcast_S500000x1_S500000x128_0_1
              (broadcastInDim S500000x1 ![0] bcast_S500000_S500000x1_0 (V (Proc.devRef .tc main_v8))))
            (V (Proc.devRef .tc main_v44)) (V (Proc.devRef .tc main_v58))) := by
  simp only [opsBlend]
  after_results_simp
  rfl

/-- The intersection column is the pointwise `and` of the two membership columns. -/
theorem head_both (V : Valuation τ sig (Elt F)) :
    after (opsHead : List (HloOp τ sig (Elt F))) V (Proc.devRef .tc main_v36)
      = andi (after (opsHead : List (HloOp τ sig (Elt F))) V (Proc.devRef .tc main_v8)) (after (opsHead : List (HloOp τ sig (Elt F))) V (Proc.devRef .tc main_v17)) := by
  simp only [opsHead]
  after_results_simp

/-- The reference's blended table over its own earlier values. -/
theorem head_xfull_ref (V : Valuation τ sig (Elt F)) :
    after (opsHead : List (HloOp τ sig (Elt F))) V (Proc.devRef .tc main_v65)
      = select (broadcastInDim S500000x128 ![0, 1] bcast_S500000x1_S500000x128_0_1
            (broadcastInDim S500000x1 ![0] bcast_S500000_S500000x1_0
              (andi (after (opsHead : List (HloOp τ sig (Elt F))) V (Proc.devRef .tc main_v8)) (after (opsHead : List (HloOp τ sig (Elt F))) V (Proc.devRef .tc main_v17)))))
          (mulf (F := F) (φ := .f32) (broadcastInDim S500000x128 ![] bcast_S_S500000x128 (constant (F := F) S_ .f32 0x3F000000#32))
            (addf (F := F) (φ := .f32) (after (opsHead : List (HloOp τ sig (Elt F))) V (Proc.devRef .tc main_v44)) (after (opsHead : List (HloOp τ sig (Elt F))) V (Proc.devRef .tc main_v51))))
          (select (broadcastInDim S500000x128 ![0, 1] bcast_S500000x1_S500000x128_0_1
              (broadcastInDim S500000x1 ![0] bcast_S500000_S500000x1_0 (after (opsHead : List (HloOp τ sig (Elt F))) V (Proc.devRef .tc main_v8))))
            (after (opsHead : List (HloOp τ sig (Elt F))) V (Proc.devRef .tc main_v44)) (after (opsHead : List (HloOp τ sig (Elt F))) V (Proc.devRef .tc main_v58))) := by
  rw [← head_both V]
  simp only [after_head V]
  rw [blend_xfull, blend_keeps_v8, blend_keeps_v36, blend_keeps_v44, blend_keeps_v51, blend_keeps_v58]

end Cert.ReferenceIdeal.RefRun

end
-- ==== Proof.BridgeHeadArgs.lean ====
/-
  The first 89 operations of the reference's @main (opsHead) write none of the arguments main_arg5, main_arg6,
  main_arg7: every result buffer of the line is a different reference, so the line's fold leaves each of the three
  as it found it.
-/
import proofs.«138900_j62680752717907_2_alg».proof.Proof.RefOps
import Idealize.ShloMosaic.Lib.StableHlo.Run

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RefRun

variable {F : FTy → Type} [FloatOps F]

/-- No operation of the head writes main_arg5. -/
theorem opsHead_arg5 : ∀ op ∈ (opsHead : List (HloOp τ sig (Elt F))), (Proc.devRef .tc main_arg5 : DevRef τ sig) ∉ op.writes :=
  List.forall_iff_forall_mem.mp (by
    simp only [opsHead, List.Forall, nullary_writes, unary_writes, binary_writes, ternary_writes, reshape_writes,
      Finset.mem_singleton]
    repeat' apply And.intro
    all_goals exact devRef_ne_of_ne (by decide))

/-- No operation of the head writes main_arg6. -/
theorem opsHead_arg6 : ∀ op ∈ (opsHead : List (HloOp τ sig (Elt F))), (Proc.devRef .tc main_arg6 : DevRef τ sig) ∉ op.writes :=
  List.forall_iff_forall_mem.mp (by
    simp only [opsHead, List.Forall, nullary_writes, unary_writes, binary_writes, ternary_writes, reshape_writes,
      Finset.mem_singleton]
    repeat' apply And.intro
    all_goals exact devRef_ne_of_ne (by decide))

/-- No operation of the head writes main_arg7. -/
theorem opsHead_arg7 : ∀ op ∈ (opsHead : List (HloOp τ sig (Elt F))), (Proc.devRef .tc main_arg7 : DevRef τ sig) ∉ op.writes :=
  List.forall_iff_forall_mem.mp (by
    simp only [opsHead, List.Forall, nullary_writes, unary_writes, binary_writes, ternary_writes, reshape_writes,
      Finset.mem_singleton]
    repeat' apply And.intro
    all_goals exact devRef_ne_of_ne (by decide))

/-- The head's fold leaves main_arg5 as it found it. -/
theorem head_arg5 (VR : Valuation Cert.ReferenceIdeal.τ Cert.ReferenceIdeal.sig (Elt F)) :
    after (Cert.ReferenceIdeal.RefRun.opsHead (F := F)) VR (Proc.devRef .tc Cert.ReferenceIdeal.main_arg5)
      = VR (Proc.devRef .tc Cert.ReferenceIdeal.main_arg5) :=
  after_of_forall_not_mem _ _ opsHead_arg5

/-- The head's fold leaves main_arg6 as it found it. -/
theorem head_arg6 (VR : Valuation Cert.ReferenceIdeal.τ Cert.ReferenceIdeal.sig (Elt F)) :
    after (Cert.ReferenceIdeal.RefRun.opsHead (F := F)) VR (Proc.devRef .tc Cert.ReferenceIdeal.main_arg6)
      = VR (Proc.devRef .tc Cert.ReferenceIdeal.main_arg6) :=
  after_of_forall_not_mem _ _ opsHead_arg6

/-- The head's fold leaves main_arg7 as it found it. -/
theorem head_arg7 (VR : Valuation Cert.ReferenceIdeal.τ Cert.ReferenceIdeal.sig (Elt F)) :
    after (Cert.ReferenceIdeal.RefRun.opsHead (F := F)) VR (Proc.devRef .tc Cert.ReferenceIdeal.main_arg7)
      = VR (Proc.devRef .tc Cert.ReferenceIdeal.main_arg7) :=
  after_of_forall_not_mem _ _ opsHead_arg7

end Cert.Bridge

end
-- ==== Proof.BridgeTail1.lean ====
/-
  The host operations after the blended table, program against program: the compacted table.
  From contents that agree on the union column (the reference's %37, the kernel program's %36), on the blended
  table (the reference's %65; in the kernel program the output array of its call, %66) and on arguments 5, 6, 7,
  the reference's operations after %65 (`opsTail`) and the kernel program's fifteen stretches of host operations after
  its call (`tailOps`, flattened) leave the same value in the result's buffer. The two lines are the same operations
  in the same order: once each fold is read back at the result buffer (`after_results_simp`) and the agreeing
  contents are identified, the two terms differ only in which program's dimension records and typed references they
  name, and those are equal by unfolding.
-/
import proofs.«138900_j62680752717907_2_alg».proof.Proof.KDataI
import proofs.«138900_j62680752717907_2_alg».proof.Proof.RefOps
import Idealize.ShloMosaic.Lib.StableHlo.Run

noncomputable section

namespace Cert.Bridge

open Idealize.ShloMosaic Idealize.ShloMosaic.TcCoe Idealize.ShloMosaic.StableHlo
open Idealize.SL Idealize.SL.Sem

variable {F : FTy → Type} [FloatOps F]

set_option maxHeartbeats 4000000 in
/-- The compacted table `x3`: the union column's running count less one is a selected node's row (the spare last row
    for the others), the blended table's rows are scattered there over a zero table of 600001 rows, and the first
    600000 rows are kept — the same value in both programs. -/
theorem tail_x3 (W : Valuation Cert.KernelIdeal.τ Cert.KernelIdeal.sig (Elt F))
    (VH : Valuation Cert.ReferenceIdeal.τ Cert.ReferenceIdeal.sig (Elt F))
    (hsel : VH (Proc.devRef .tc Cert.ReferenceIdeal.main_v37) = W (Proc.devRef .tc Cert.KernelIdeal.main_v36))
    (hxf : VH (Proc.devRef .tc Cert.ReferenceIdeal.main_v65) = W (Proc.devRef .tc Cert.KernelIdeal.main_v66))
    (h5 : VH (Proc.devRef .tc Cert.ReferenceIdeal.main_arg5) = W (Proc.devRef .tc Cert.KernelIdeal.main_arg5))
    (h6 : VH (Proc.devRef .tc Cert.ReferenceIdeal.main_arg6) = W (Proc.devRef .tc Cert.KernelIdeal.main_arg6))
    (h7 : VH (Proc.devRef .tc Cert.ReferenceIdeal.main_arg7) = W (Proc.devRef .tc Cert.KernelIdeal.main_arg7)) :
    after (Cert.ReferenceIdeal.RefRun.opsTail (F := F)) VH (Proc.devRef .tc Cert.ReferenceIdeal.main_v79)
      = after (Cert.KernelIdeal.Hand.tailOps (F := F)).flatten W (Proc.devRef .tc Cert.KernelIdeal.main_v80) := by
  simp only [Cert.ReferenceIdeal.RefRun.opsTail, Cert.KernelIdeal.Hand.tailOps, Cert.KernelIdeal.Gen.hostOps1,
    Cert.KernelIdeal.Gen.hostOps1_1, Cert.KernelIdeal.Gen.hostOps1_2, Cert.KernelIdeal.Gen.hostOps1_3,
    Cert.KernelIdeal.Gen.hostOps1_4, Cert.KernelIdeal.Gen.hostOps1_5, Cert.KernelIdeal.Gen.hostOps1_6,
    Cert.KernelIdeal.Gen.hostOps1_7, Cert.KernelIdeal.Gen.hostOps1_8, Cert.KernelIdeal.Gen.hostOps1_9,
    Cert.KernelIdeal.Gen.hostOps1_10, Cert.KernelIdeal.Gen.hostOps1_11, Cert.KernelIdeal.Gen.hostOps1_12,
    Cert.KernelIdeal.Gen.hostOps1_13, Cert.KernelIdeal.Gen.hostOps1_14, List.flatten_cons, List.flatten_nil,
    List.append_nil, List.cons_append, List.nil_append]
  after_results_simp
  rw [hsel, hxf]
  rfl

end Cert.Bridge

end
-- ==== Proof.BridgeTail2.lean ====
/-
  The host operations after the blended table, program against program: the remapped batch column.
  From contents that agree on the union column (the reference's %37, the kernel program's %36), on the blended
  table (the reference's %65; in the kernel program the output array of its call, %66) and on arguments 5, 6, 7,
  the reference's operations after %65 (`opsTail`) and the kernel program's fifteen stretches of host operations after
  its call (`tailOps`, flattened) leave the same value in the result's buffer. The two lines are the same operations
  in the same order: once each fold is read back at the result buffer (`after_results_simp`) and the agreeing
  contents are identified, the two terms differ only in which program's dimension records and typed references they
  name, and those are equal by unfolding.
-/
import proofs.«138900_j62680752717907_2_alg».proof.Proof.KDataI
import proofs.«138900_j62680752717907_2_alg».proof.Proof.RefOps
import Idealize.ShloMosaic.Lib.StableHlo.Run

noncomputable section

namespace Cert.Bridge

open Idealize.ShloMosaic Idealize.ShloMosaic.TcCoe Idealize.ShloMosaic.StableHlo
open Idealize.SL Idealize.SL.Sem

variable {F : FTy → Type} [FloatOps F]

set_option maxHeartbeats 4000000 in
/-- The remapped batch column `new_batch`: the node ids are scattered to their compacted rows over −1 and the first
    600000 kept; argument 5 is gathered at them clipped to [0, 499999], and −1 stands where the id is negative — the
    same value in both programs. -/
theorem tail_batch (W : Valuation Cert.KernelIdeal.τ Cert.KernelIdeal.sig (Elt F))
    (VH : Valuation Cert.ReferenceIdeal.τ Cert.ReferenceIdeal.sig (Elt F))
    (hsel : VH (Proc.devRef .tc Cert.ReferenceIdeal.main_v37) = W (Proc.devRef .tc Cert.KernelIdeal.main_v36))
    (hxf : VH (Proc.devRef .tc Cert.ReferenceIdeal.main_v65) = W (Proc.devRef .tc Cert.KernelIdeal.main_v66))
    (h5 : VH (Proc.devRef .tc Cert.ReferenceIdeal.main_arg5) = W (Proc.devRef .tc Cert.KernelIdeal.main_arg5))
    (h6 : VH (Proc.devRef .tc Cert.ReferenceIdeal.main_arg6) = W (Proc.devRef .tc Cert.KernelIdeal.main_arg6))
    (h7 : VH (Proc.devRef .tc Cert.ReferenceIdeal.main_arg7) = W (Proc.devRef .tc Cert.KernelIdeal.main_arg7)) :
    after (Cert.ReferenceIdeal.RefRun.opsTail (F := F)) VH (Proc.devRef .tc Cert.ReferenceIdeal.main_v100)
      = after (Cert.KernelIdeal.Hand.tailOps (F := F)).flatten W (Proc.devRef .tc Cert.KernelIdeal.main_v101) := by
  simp only [Cert.ReferenceIdeal.RefRun.opsTail, Cert.KernelIdeal.Hand.tailOps, Cert.KernelIdeal.Gen.hostOps1,
    Cert.KernelIdeal.Gen.hostOps1_1, Cert.KernelIdeal.Gen.hostOps1_2, Cert.KernelIdeal.Gen.hostOps1_3,
    Cert.KernelIdeal.Gen.hostOps1_4, Cert.KernelIdeal.Gen.hostOps1_5, Cert.KernelIdeal.Gen.hostOps1_6,
    Cert.KernelIdeal.Gen.hostOps1_7, Cert.KernelIdeal.Gen.hostOps1_8, Cert.KernelIdeal.Gen.hostOps1_9,
    Cert.KernelIdeal.Gen.hostOps1_10, Cert.KernelIdeal.Gen.hostOps1_11, Cert.KernelIdeal.Gen.hostOps1_12,
    Cert.KernelIdeal.Gen.hostOps1_13, Cert.KernelIdeal.Gen.hostOps1_14, List.flatten_cons, List.flatten_nil,
    List.append_nil, List.cons_append, List.nil_append]
  after_results_simp
  rw [hsel, h5]
  rfl

end Cert.Bridge

end
-- ==== Proof.BridgeTail3.lean ====
/-
  The host operations after the blended table, program against program: the filtered edge index.

  Both programs keep the edges whose two endpoints are selected, send each kept edge to its rank among the kept ones
  (the dropped ones to one spare row), write there the pair of its endpoints' new ids, cut the spare row off and
  transpose.  The pair is the two id columns set side by side; naming that operation lets the two lines be read
  down to the columns themselves, and the lines are then the same operations of the union column and argument 6.
-/
import proofs.«138900_j62680752717907_2_alg».proof.Proof.KDataI
import proofs.«138900_j62680752717907_2_alg».proof.Proof.RefOps
import Idealize.ShloMosaic.Lib.StableHlo.Run

noncomputable section

namespace Cert.Bridge

open Idealize.ShloMosaic Idealize.ShloMosaic.TcCoe Idealize.ShloMosaic.StableHlo
open Idealize.SL Idealize.SL.Sem

variable {F : FTy → Type} [FloatOps F]

/-- Two [8000000, 1] columns side by side as one [8000000, 2] array. -/
def cat2 {α : Type} (a b : Cert.KernelIdeal.S8000000x1.Idx → α) : Cert.KernelIdeal.S8000000x2.Idx → α :=
  concatenate Cert.KernelIdeal.S8000000x2 1 [⟨Cert.KernelIdeal.S8000000x1, a⟩, ⟨Cert.KernelIdeal.S8000000x1, b⟩] Cert.KernelIdeal.Gen.concatenates_S8000000x1_S8000000x1_S8000000x2_d1

theorem catK_eq : ((fun a b => concatenate Cert.KernelIdeal.S8000000x2 1 [⟨Cert.KernelIdeal.S8000000x1, a⟩, ⟨Cert.KernelIdeal.S8000000x1, b⟩] Cert.KernelIdeal.Gen.concatenates_S8000000x1_S8000000x1_S8000000x2_d1) : (⟨Cert.KernelIdeal.S8000000x1, .i32⟩ : BufTy).Contents (Elt F) → (⟨Cert.KernelIdeal.S8000000x1, .i32⟩ : BufTy).Contents (Elt F) → (⟨Cert.KernelIdeal.S8000000x2, .i32⟩ : BufTy).Contents (Elt F)) = cat2 := rfl
theorem catR_eq : ((fun a b => concatenate Cert.ReferenceIdeal.S8000000x2 1 [⟨Cert.ReferenceIdeal.S8000000x1, a⟩, ⟨Cert.ReferenceIdeal.S8000000x1, b⟩] Cert.ReferenceIdeal.Gen.concatenates_S8000000x1_S8000000x1_S8000000x2_d1) : (⟨Cert.ReferenceIdeal.S8000000x1, .i32⟩ : BufTy).Contents (Elt F) → (⟨Cert.ReferenceIdeal.S8000000x1, .i32⟩ : BufTy).Contents (Elt F) → (⟨Cert.ReferenceIdeal.S8000000x2, .i32⟩ : BufTy).Contents (Elt F)) = cat2 := rfl

set_option maxHeartbeats 4000000 in
/-- The filtered, renumbered and transposed edge index is the same array after the reference's operations as after
    the kernel program's. -/
theorem tail_ei (W : Valuation Cert.KernelIdeal.τ Cert.KernelIdeal.sig (Elt F)) (VH : Valuation Cert.ReferenceIdeal.τ Cert.ReferenceIdeal.sig (Elt F))
    (hsel : VH (Proc.devRef .tc Cert.ReferenceIdeal.main_v37) = W (Proc.devRef .tc Cert.KernelIdeal.main_v36)) (hxf : VH (Proc.devRef .tc Cert.ReferenceIdeal.main_v65) = W (Proc.devRef .tc Cert.KernelIdeal.main_v66))
    (h5 : VH (Proc.devRef .tc Cert.ReferenceIdeal.main_arg5) = W (Proc.devRef .tc Cert.KernelIdeal.main_arg5)) (h6 : VH (Proc.devRef .tc Cert.ReferenceIdeal.main_arg6) = W (Proc.devRef .tc Cert.KernelIdeal.main_arg6))
    (h7 : VH (Proc.devRef .tc Cert.ReferenceIdeal.main_arg7) = W (Proc.devRef .tc Cert.KernelIdeal.main_arg7)) :
    after (Cert.ReferenceIdeal.RefRun.opsTail (F := F)) VH (Proc.devRef .tc Cert.ReferenceIdeal.main_v152)
      = after (Cert.KernelIdeal.Hand.tailOps (F := F)).flatten W (Proc.devRef .tc Cert.KernelIdeal.main_v153) := by
  simp only [Cert.ReferenceIdeal.RefRun.opsTail, catK_eq, catR_eq, Cert.KernelIdeal.Hand.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, List.flatten_cons, List.flatten_nil, List.append_nil, List.cons_append, List.nil_append]
  after_results_simp
  rw [hsel, h6]
  rfl

end Cert.Bridge

end
-- ==== Proof.BridgeTail4.lean ====
/-
  The host operations after the blended table, program against program: the filtered edge attribute.
  From contents that agree on the union column (the reference's %37, the kernel program's %36), on the blended
  table (the reference's %65; in the kernel program the output array of its call, %66) and on arguments 5, 6, 7,
  the reference's operations after %65 (`opsTail`) and the kernel program's fifteen stretches of host operations after
  its call (`tailOps`, flattened) leave the same value in the result's buffer. The two lines are the same operations
  in the same order: once each fold is read back at the result buffer (`after_results_simp`) and the agreeing
  contents are identified, the two terms differ only in which program's dimension records and typed references they
  name, and those are equal by unfolding.
-/
import proofs.«138900_j62680752717907_2_alg».proof.Proof.KDataI
import proofs.«138900_j62680752717907_2_alg».proof.Proof.RefOps
import Idealize.ShloMosaic.Lib.StableHlo.Run

noncomputable section

namespace Cert.Bridge

open Idealize.ShloMosaic Idealize.ShloMosaic.TcCoe Idealize.ShloMosaic.StableHlo
open Idealize.SL Idealize.SL.Sem

variable {F : FTy → Type} [FloatOps F]

set_option maxHeartbeats 4000000 in
/-- The filtered edge attribute `ea_new`: argument 7 is scattered to the kept edges' rows (the spare last entry for the
    others) over zero and the first 8000000 entries kept — the same value in both programs. -/
theorem tail_ea (W : Valuation Cert.KernelIdeal.τ Cert.KernelIdeal.sig (Elt F))
    (VH : Valuation Cert.ReferenceIdeal.τ Cert.ReferenceIdeal.sig (Elt F))
    (hsel : VH (Proc.devRef .tc Cert.ReferenceIdeal.main_v37) = W (Proc.devRef .tc Cert.KernelIdeal.main_v36))
    (hxf : VH (Proc.devRef .tc Cert.ReferenceIdeal.main_v65) = W (Proc.devRef .tc Cert.KernelIdeal.main_v66))
    (h5 : VH (Proc.devRef .tc Cert.ReferenceIdeal.main_arg5) = W (Proc.devRef .tc Cert.KernelIdeal.main_arg5))
    (h6 : VH (Proc.devRef .tc Cert.ReferenceIdeal.main_arg6) = W (Proc.devRef .tc Cert.KernelIdeal.main_arg6))
    (h7 : VH (Proc.devRef .tc Cert.ReferenceIdeal.main_arg7) = W (Proc.devRef .tc Cert.KernelIdeal.main_arg7)) :
    after (Cert.ReferenceIdeal.RefRun.opsTail (F := F)) VH (Proc.devRef .tc Cert.ReferenceIdeal.main_v161)
      = after (Cert.KernelIdeal.Hand.tailOps (F := F)).flatten W (Proc.devRef .tc Cert.KernelIdeal.main_v162) := by
  simp only [Cert.ReferenceIdeal.RefRun.opsTail, Cert.KernelIdeal.Hand.tailOps, Cert.KernelIdeal.Gen.hostOps1,
    Cert.KernelIdeal.Gen.hostOps1_1, Cert.KernelIdeal.Gen.hostOps1_2, Cert.KernelIdeal.Gen.hostOps1_3,
    Cert.KernelIdeal.Gen.hostOps1_4, Cert.KernelIdeal.Gen.hostOps1_5, Cert.KernelIdeal.Gen.hostOps1_6,
    Cert.KernelIdeal.Gen.hostOps1_7, Cert.KernelIdeal.Gen.hostOps1_8, Cert.KernelIdeal.Gen.hostOps1_9,
    Cert.KernelIdeal.Gen.hostOps1_10, Cert.KernelIdeal.Gen.hostOps1_11, Cert.KernelIdeal.Gen.hostOps1_12,
    Cert.KernelIdeal.Gen.hostOps1_13, Cert.KernelIdeal.Gen.hostOps1_14, List.flatten_cons, List.flatten_nil,
    List.append_nil, List.cons_append, List.nil_append]
  after_results_simp
  rw [hsel, h6, h7]
  rfl

end Cert.Bridge

end
-- ==== Proof.BridgeTail.lean ====
/-
  The host operations after the blended table, program against program: the four array results (the compacted table,
  the remapped batch column, the filtered edge index and attribute) hold the same value after the reference's
  operations as after the kernel program's, from contents that agree on the union column, the blended table and
  arguments 5, 6, 7 — `Cert.Bridge.tail_x3`, `tail_batch`, `tail_ei`, `tail_ea`, one module each.
-/
import proofs.«138900_j62680752717907_2_alg».proof.Proof.BridgeTail1
import proofs.«138900_j62680752717907_2_alg».proof.Proof.BridgeTail2
import proofs.«138900_j62680752717907_2_alg».proof.Proof.BridgeTail3
import proofs.«138900_j62680752717907_2_alg».proof.Proof.BridgeTail4
-- ==== Proof.LibCumsumLast.lean ====
import Idealize.ShloMosaic.PureOps.Contract
import Idealize.ShloMosaic.Lib.ValueIdx

/-!
# The last entry of a running fold is the whole fold

A rank-1 `reduce_window` whose window is the whole axis, padded low by the axis length less one (the shape in
which a running sum along an axis is written), read at its LAST position, folds the operand's elements
`0, 1, …, N - 1` in order from the initial value; the all-axes `reduce` of the same operand from the same initial
value is the same left fold. So the two agree for every combining function `f`: no commutativity and no
associativity is used. Everything is stated for a generic length `N`, so that instances at large literal lengths
evaluate nothing of that size.
-/

namespace Cert.CumsumLast

open Idealize.ShloMosaic Idealize.ShloMosaic.ValueIdx

/-- The last entry of the running fold along a rank-1 array is the fold of the whole array. -/
theorem reduceWindow_last {α : Type} (f : α → α → α) (N lo : Nat)
    (x : (⟨1, ![N]⟩ : Shape).Idx → α) (init : (⟨0, ![]⟩ : Shape).Idx → α)
    (h : (⟨1, ![N]⟩ : Shape).ReduceWindows ![N] ![1] ![lo] ![0] ⟨1, ![N]⟩) (hu : 0 < (⟨0, ![]⟩ : Shape).numel)
    (h' : (⟨1, ![N]⟩ : Shape).ReducesTo [0] ⟨0, ![]⟩) (j : (⟨1, ![N]⟩ : Shape).Idx) (hj : (j 0).val = lo)
    (k : (⟨0, ![]⟩ : Shape).Idx) :
    Host.reduceWindow f ![N] ![1] ![lo] ![0] x init h hu j = Host.reduce f x init h' hu k := by
  unfold Host.reduceWindow Host.reduce
  rw [List.filter_eq_self.mpr (fun n _ => decide_eq_true (Subsingleton.elim _ _))]
  refine List.foldl_ext _ _ _ fun r n _ => ?_
  -- the window position `n` of the last window is the operand's position `n`
  have hlt : (((⟨1, ![N]⟩ : Shape).rowMajor.symm n) 0).val < N := (((⟨1, ![N]⟩ : Shape).rowMajor.symm n) 0).isLt
  have hin : ∀ a : Fin (⟨1, ![N]⟩ : Shape).rank,
      (![lo] : Fin 1 → Nat) a ≤ (j (a.cast h.1.symm)).val * (![1] : Fin 1 → Nat) a
          + (((⟨1, ![N]⟩ : Shape).rowMajor.symm n) a).val
        ∧ (j (a.cast h.1.symm)).val * (![1] : Fin 1 → Nat) a + (((⟨1, ![N]⟩ : Shape).rowMajor.symm n) a).val
          - (![lo] : Fin 1 → Nat) a < (⟨1, ![N]⟩ : Shape).size a := by
    intro a
    match a with
    | ⟨0, _⟩ =>
      show lo ≤ (j 0).val * 1 + (((⟨1, ![N]⟩ : Shape).rowMajor.symm n) 0).val
        ∧ (j 0).val * 1 + (((⟨1, ![N]⟩ : Shape).rowMajor.symm n) 0).val - lo < N
      omega
  show f r (dite _ _ _) = _
  rw [dif_pos hin]
  refine congrArg (f r) (congrArg x (funext fun a => ?_))
  match a with
  | ⟨0, _⟩ =>
    refine Fin.ext ?_
    show (j 0).val * 1 + (((⟨1, ![N]⟩ : Shape).rowMajor.symm n) 0).val - lo
      = (((⟨1, ![N]⟩ : Shape).rowMajor.symm n) 0).val
    omega

/-- Adding one back to a word less one gives the word. -/
theorem sub_one_add_one (s : BitVec 32) : IntOp.addi (IntOp.subi s 1#32) 1#32 = s := by
  unfold IntOp.addi IntOp.subi
  exact BitVec.sub_add_cancel s 1#32

/-- A fold depends on its initial-value array only through that array's first element. -/
theorem reduce_congr_init {α : Type} {s t u : Shape} {axes : List (Fin s.rank)} (f : α → α → α) (x : s.Idx → α)
    (init init' : u.Idx → α) (h : s.ReducesTo axes t) (hu : 0 < u.numel)
    (hi : init (Shape.Idx.first hu) = init' (Shape.Idx.first hu)) :
    Host.reduce f x init h hu = Host.reduce f x init' h hu := by
  unfold Host.reduce
  rw [hi]

/-- The count read off a running sum: the running sum of `x` less one, read at its last position, reshaped to a
    scalar, plus one, is the sum of `x`. `zero` is the running sum's initial value (any rank-0 array whose element is
    the sum's initial value `0`), `ones` the array of ones subtracted. -/
theorem count_last (N lo : Nat) (x : IVec ⟨1, ![N]⟩ 32) (zero : IVec ⟨0, ![]⟩ 32) (ones : IVec ⟨1, ![N]⟩ 32)
    (hzero : ∀ k, zero k = 0#32) (hones : ∀ j, ones j = 1#32)
    (hw : (⟨1, ![N]⟩ : Shape).ReduceWindows ![N] ![1] ![lo] ![0] ⟨1, ![N]⟩) (hu : 0 < (⟨0, ![]⟩ : Shape).numel)
    (hs : (⟨1, ![N]⟩ : Shape).Slices ![lo] ⟨1, ![1]⟩) (hc : (⟨1, ![1]⟩ : Shape).ShapeCasts ⟨0, ![]⟩)
    (hr : (⟨1, ![N]⟩ : Shape).ReducesTo [0] ⟨0, ![]⟩) :
    addi (shapeCast ⟨0, ![]⟩ (extractStridedSlice ⟨1, ![1]⟩ ![lo]
        (subi (Host.reduceWindow IntOp.addi ![N] ![1] ![lo] ![0] x zero hw hu) ones) hs) hc)
      (constantI ⟨0, ![]⟩ 32 1#32)
      = Host.reduce IntOp.addi x (constantI ⟨0, ![]⟩ 32 0#32) hr hu := by
  funext k
  rw [← reduce_congr_init IntOp.addi x zero (constantI ⟨0, ![]⟩ 32 0#32) hr hu (hzero _)]
  show IntOp.addi (IntOp.subi (Host.reduceWindow IntOp.addi ![N] ![1] ![lo] ![0] x zero hw hu _) (ones _)) 1#32 = _
  rw [hones, sub_one_add_one]
  refine reduceWindow_last IntOp.addi N lo x zero hw hu hr _ ?_ k
  show lo + ((Shape.reshapeEquiv hc k) 0).val = lo
  have : ((Shape.reshapeEquiv hc k) 0).val < 1 := ((Shape.reshapeEquiv hc k) 0).isLt
  omega

end Cert.CumsumLast
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.BridgeCount.lean ====
import proofs.«138900_j62680752717907_2_alg».proof.Proof.KDataI
import proofs.«138900_j62680752717907_2_alg».proof.Proof.RefOps
import proofs.«138900_j62680752717907_2_alg».proof.Proof.LibCumsumLast
import proofs.«138900_j62680752717907_2_alg».proof.Proof.LibTypedHEq
import Idealize.ShloMosaic.Lib.StableHlo.Run

/-!
# The two counts, program against program

The reference sums the selection column (and the kept-edge column) outright; the kernel's program reads each
count off the running sum it already has: the last running sum less one, plus one. Both are the same left fold of
the same column from the zero word.
-/

noncomputable section

namespace Cert.Bridge

open Idealize.ShloMosaic Idealize.ShloMosaic.TcCoe Idealize.ShloMosaic.StableHlo
open Idealize.SL Idealize.SL.Sem

variable {F : FTy → Type} [FloatOps F]

/-! ## A typed reference's transport at a literal reference is the identity

One equation per typed reference the two running sums are written through. -/

theorem toBuf_main_v68 (p1 : Cert.KernelIdeal.main_v68.ty = ⟨Cert.KernelIdeal.S500000, .i32⟩) (p2 : Cert.KernelIdeal.main_v68.space ≠ .host) (p3 : Cert.KernelIdeal.main_v68.isScoped = false)
    (v : (⟨Cert.KernelIdeal.S500000, .i32⟩ : BufTy).Contents (Elt F)) :
    (TRef.of Cert.KernelIdeal.main_v68 p1 p2 p3).toBuf v = v := eq_of_heq (Cert.TypedRead.toBuf_heq _ v)
theorem ofBuf_main_v68 (p1 : Cert.KernelIdeal.main_v68.ty = ⟨Cert.KernelIdeal.S500000, .i32⟩) (p2 : Cert.KernelIdeal.main_v68.space ≠ .host) (p3 : Cert.KernelIdeal.main_v68.isScoped = false)
    (v : (⟨Cert.KernelIdeal.S500000, .i32⟩ : BufTy).Contents (Elt F)) :
    (TRef.of Cert.KernelIdeal.main_v68 p1 p2 p3).ofBuf v = v :=
  eq_of_heq (Cert.TypedRead.ofBuf_heq (Val := Elt F) (TRef.of Cert.KernelIdeal.main_v68 p1 p2 p3) v)
theorem toBuf_main_v67 (p1 : Cert.KernelIdeal.main_v67.ty = ⟨Cert.KernelIdeal.S500000, .i32⟩) (p2 : Cert.KernelIdeal.main_v67.space ≠ .host) (p3 : Cert.KernelIdeal.main_v67.isScoped = false)
    (v : (⟨Cert.KernelIdeal.S500000, .i32⟩ : BufTy).Contents (Elt F)) :
    (TRef.of Cert.KernelIdeal.main_v67 p1 p2 p3).toBuf v = v := eq_of_heq (Cert.TypedRead.toBuf_heq _ v)
theorem ofBuf_main_v67 (p1 : Cert.KernelIdeal.main_v67.ty = ⟨Cert.KernelIdeal.S500000, .i32⟩) (p2 : Cert.KernelIdeal.main_v67.space ≠ .host) (p3 : Cert.KernelIdeal.main_v67.isScoped = false)
    (v : (⟨Cert.KernelIdeal.S500000, .i32⟩ : BufTy).Contents (Elt F)) :
    (TRef.of Cert.KernelIdeal.main_v67 p1 p2 p3).ofBuf v = v :=
  eq_of_heq (Cert.TypedRead.ofBuf_heq (Val := Elt F) (TRef.of Cert.KernelIdeal.main_v67 p1 p2 p3) v)
theorem toBuf_main_call0_call0_v0 (p1 : Cert.KernelIdeal.main_call0_call0_v0.ty = ⟨Cert.KernelIdeal.S_, .i32⟩) (p2 : Cert.KernelIdeal.main_call0_call0_v0.space ≠ .host) (p3 : Cert.KernelIdeal.main_call0_call0_v0.isScoped = false)
    (v : (⟨Cert.KernelIdeal.S_, .i32⟩ : BufTy).Contents (Elt F)) :
    (TRef.of Cert.KernelIdeal.main_call0_call0_v0 p1 p2 p3).toBuf v = v := eq_of_heq (Cert.TypedRead.toBuf_heq _ v)
theorem ofBuf_main_call0_call0_v0 (p1 : Cert.KernelIdeal.main_call0_call0_v0.ty = ⟨Cert.KernelIdeal.S_, .i32⟩) (p2 : Cert.KernelIdeal.main_call0_call0_v0.space ≠ .host) (p3 : Cert.KernelIdeal.main_call0_call0_v0.isScoped = false)
    (v : (⟨Cert.KernelIdeal.S_, .i32⟩ : BufTy).Contents (Elt F)) :
    (TRef.of Cert.KernelIdeal.main_call0_call0_v0 p1 p2 p3).ofBuf v = v :=
  eq_of_heq (Cert.TypedRead.ofBuf_heq (Val := Elt F) (TRef.of Cert.KernelIdeal.main_call0_call0_v0 p1 p2 p3) v)
theorem toBuf_main_call0_call0_c (p1 : Cert.KernelIdeal.main_call0_call0_c.ty = ⟨Cert.KernelIdeal.S_, .i32⟩) (p2 : Cert.KernelIdeal.main_call0_call0_c.space ≠ .host) (p3 : Cert.KernelIdeal.main_call0_call0_c.isScoped = false)
    (v : (⟨Cert.KernelIdeal.S_, .i32⟩ : BufTy).Contents (Elt F)) :
    (TRef.of Cert.KernelIdeal.main_call0_call0_c p1 p2 p3).toBuf v = v := eq_of_heq (Cert.TypedRead.toBuf_heq _ v)
theorem ofBuf_main_call0_call0_c (p1 : Cert.KernelIdeal.main_call0_call0_c.ty = ⟨Cert.KernelIdeal.S_, .i32⟩) (p2 : Cert.KernelIdeal.main_call0_call0_c.space ≠ .host) (p3 : Cert.KernelIdeal.main_call0_call0_c.isScoped = false)
    (v : (⟨Cert.KernelIdeal.S_, .i32⟩ : BufTy).Contents (Elt F)) :
    (TRef.of Cert.KernelIdeal.main_call0_call0_c p1 p2 p3).ofBuf v = v :=
  eq_of_heq (Cert.TypedRead.ofBuf_heq (Val := Elt F) (TRef.of Cert.KernelIdeal.main_call0_call0_c p1 p2 p3) v)
theorem toBuf_main_v123 (p1 : Cert.KernelIdeal.main_v123.ty = ⟨Cert.KernelIdeal.S8000000, .i32⟩) (p2 : Cert.KernelIdeal.main_v123.space ≠ .host) (p3 : Cert.KernelIdeal.main_v123.isScoped = false)
    (v : (⟨Cert.KernelIdeal.S8000000, .i32⟩ : BufTy).Contents (Elt F)) :
    (TRef.of Cert.KernelIdeal.main_v123 p1 p2 p3).toBuf v = v := eq_of_heq (Cert.TypedRead.toBuf_heq _ v)
theorem ofBuf_main_v123 (p1 : Cert.KernelIdeal.main_v123.ty = ⟨Cert.KernelIdeal.S8000000, .i32⟩) (p2 : Cert.KernelIdeal.main_v123.space ≠ .host) (p3 : Cert.KernelIdeal.main_v123.isScoped = false)
    (v : (⟨Cert.KernelIdeal.S8000000, .i32⟩ : BufTy).Contents (Elt F)) :
    (TRef.of Cert.KernelIdeal.main_v123 p1 p2 p3).ofBuf v = v :=
  eq_of_heq (Cert.TypedRead.ofBuf_heq (Val := Elt F) (TRef.of Cert.KernelIdeal.main_v123 p1 p2 p3) v)
theorem toBuf_main_v122 (p1 : Cert.KernelIdeal.main_v122.ty = ⟨Cert.KernelIdeal.S8000000, .i32⟩) (p2 : Cert.KernelIdeal.main_v122.space ≠ .host) (p3 : Cert.KernelIdeal.main_v122.isScoped = false)
    (v : (⟨Cert.KernelIdeal.S8000000, .i32⟩ : BufTy).Contents (Elt F)) :
    (TRef.of Cert.KernelIdeal.main_v122 p1 p2 p3).toBuf v = v := eq_of_heq (Cert.TypedRead.toBuf_heq _ v)
theorem ofBuf_main_v122 (p1 : Cert.KernelIdeal.main_v122.ty = ⟨Cert.KernelIdeal.S8000000, .i32⟩) (p2 : Cert.KernelIdeal.main_v122.space ≠ .host) (p3 : Cert.KernelIdeal.main_v122.isScoped = false)
    (v : (⟨Cert.KernelIdeal.S8000000, .i32⟩ : BufTy).Contents (Elt F)) :
    (TRef.of Cert.KernelIdeal.main_v122 p1 p2 p3).ofBuf v = v :=
  eq_of_heq (Cert.TypedRead.ofBuf_heq (Val := Elt F) (TRef.of Cert.KernelIdeal.main_v122 p1 p2 p3) v)
theorem toBuf_main_call5_call0_v0 (p1 : Cert.KernelIdeal.main_call5_call0_v0.ty = ⟨Cert.KernelIdeal.S_, .i32⟩) (p2 : Cert.KernelIdeal.main_call5_call0_v0.space ≠ .host) (p3 : Cert.KernelIdeal.main_call5_call0_v0.isScoped = false)
    (v : (⟨Cert.KernelIdeal.S_, .i32⟩ : BufTy).Contents (Elt F)) :
    (TRef.of Cert.KernelIdeal.main_call5_call0_v0 p1 p2 p3).toBuf v = v := eq_of_heq (Cert.TypedRead.toBuf_heq _ v)
theorem ofBuf_main_call5_call0_v0 (p1 : Cert.KernelIdeal.main_call5_call0_v0.ty = ⟨Cert.KernelIdeal.S_, .i32⟩) (p2 : Cert.KernelIdeal.main_call5_call0_v0.space ≠ .host) (p3 : Cert.KernelIdeal.main_call5_call0_v0.isScoped = false)
    (v : (⟨Cert.KernelIdeal.S_, .i32⟩ : BufTy).Contents (Elt F)) :
    (TRef.of Cert.KernelIdeal.main_call5_call0_v0 p1 p2 p3).ofBuf v = v :=
  eq_of_heq (Cert.TypedRead.ofBuf_heq (Val := Elt F) (TRef.of Cert.KernelIdeal.main_call5_call0_v0 p1 p2 p3) v)
theorem toBuf_main_call5_call0_c (p1 : Cert.KernelIdeal.main_call5_call0_c.ty = ⟨Cert.KernelIdeal.S_, .i32⟩) (p2 : Cert.KernelIdeal.main_call5_call0_c.space ≠ .host) (p3 : Cert.KernelIdeal.main_call5_call0_c.isScoped = false)
    (v : (⟨Cert.KernelIdeal.S_, .i32⟩ : BufTy).Contents (Elt F)) :
    (TRef.of Cert.KernelIdeal.main_call5_call0_c p1 p2 p3).toBuf v = v := eq_of_heq (Cert.TypedRead.toBuf_heq _ v)
theorem ofBuf_main_call5_call0_c (p1 : Cert.KernelIdeal.main_call5_call0_c.ty = ⟨Cert.KernelIdeal.S_, .i32⟩) (p2 : Cert.KernelIdeal.main_call5_call0_c.space ≠ .host) (p3 : Cert.KernelIdeal.main_call5_call0_c.isScoped = false)
    (v : (⟨Cert.KernelIdeal.S_, .i32⟩ : BufTy).Contents (Elt F)) :
    (TRef.of Cert.KernelIdeal.main_call5_call0_c p1 p2 p3).ofBuf v = v :=
  eq_of_heq (Cert.TypedRead.ofBuf_heq (Val := Elt F) (TRef.of Cert.KernelIdeal.main_call5_call0_c p1 p2 p3) v)

/-- The count law with the summed column allowed to be spelt differently on the two sides. -/
theorem count_eq (N lo : Nat) (xR xK : IVec ⟨1, ![N]⟩ 32) (e : xR = xK) (zero : IVec ⟨0, ![]⟩ 32)
    (ones : IVec ⟨1, ![N]⟩ 32) (hzero : ∀ k, zero k = 0#32) (hones : ∀ j, ones j = 1#32)
    (hw : (⟨1, ![N]⟩ : Shape).ReduceWindows ![N] ![1] ![lo] ![0] ⟨1, ![N]⟩) (hu : 0 < (⟨0, ![]⟩ : Shape).numel)
    (hs : (⟨1, ![N]⟩ : Shape).Slices ![lo] ⟨1, ![1]⟩) (hc : (⟨1, ![1]⟩ : Shape).ShapeCasts ⟨0, ![]⟩)
    (hr : (⟨1, ![N]⟩ : Shape).ReducesTo [0] ⟨0, ![]⟩) :
    Host.reduce IntOp.addi xR (constantI ⟨0, ![]⟩ 32 0#32) hr hu
      = addi (shapeCast ⟨0, ![]⟩ (extractStridedSlice ⟨1, ![1]⟩ ![lo]
          (subi (Host.reduceWindow IntOp.addi ![N] ![1] ![lo] ![0] xK zero hw hu) ones) hs) hc)
        (constantI ⟨0, ![]⟩ 32 1#32) := by
  subst e
  exact (Cert.CumsumLast.count_last N lo xR zero ones hzero hones hw hu hs hc hr).symm

set_option maxHeartbeats 4000000 in
/-- The node count: the reference's sum of the selection column is the kernel program's last running sum less one,
    plus one, when the two programs hold the same selection column. -/
theorem tail_count (W : Valuation Cert.KernelIdeal.τ Cert.KernelIdeal.sig (Elt F))
    (VH : Valuation Cert.ReferenceIdeal.τ Cert.ReferenceIdeal.sig (Elt F))
    (hsel : VH (Proc.devRef .tc Cert.ReferenceIdeal.main_v37) = W (Proc.devRef .tc Cert.KernelIdeal.main_v36)) :
    after (Cert.ReferenceIdeal.RefRun.opsTail (F := F)) VH (Proc.devRef .tc Cert.ReferenceIdeal.main_v163)
      = after (Cert.KernelIdeal.Hand.tailOps (F := F)).flatten W (Proc.devRef .tc Cert.KernelIdeal.main_v165) := by
  simp only [Cert.ReferenceIdeal.RefRun.opsTail, Cert.KernelIdeal.Hand.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, List.flatten_cons, List.flatten_nil, List.append_nil, List.cons_append, List.nil_append]
  after_results_simp
  simp only [toBuf_main_v68, ofBuf_main_v68, toBuf_main_v67, ofBuf_main_v67, toBuf_main_call0_call0_v0, ofBuf_main_call0_call0_v0, toBuf_main_call0_call0_c, ofBuf_main_call0_call0_c, toBuf_main_v123, ofBuf_main_v123, toBuf_main_v122, ofBuf_main_v122, toBuf_main_call5_call0_v0, ofBuf_main_call5_call0_v0, toBuf_main_call5_call0_c, ofBuf_main_call5_call0_c]
  rw [hsel]
  refine count_eq 500000 499999 _ _ rfl _ _ ?_ ?_ _ _ _ _ _
  · intro _; rfl
  · intro _; rfl

set_option maxHeartbeats 4000000 in
/-- The edge count: likewise for the kept-edge column, which both programs build from the selection column and
    the edge list; equal selection columns and equal edge lists give equal kept-edge columns. -/
theorem tail_ecount (W : Valuation Cert.KernelIdeal.τ Cert.KernelIdeal.sig (Elt F))
    (VH : Valuation Cert.ReferenceIdeal.τ Cert.ReferenceIdeal.sig (Elt F))
    (hsel : VH (Proc.devRef .tc Cert.ReferenceIdeal.main_v37) = W (Proc.devRef .tc Cert.KernelIdeal.main_v36))
    (h6 : VH (Proc.devRef .tc Cert.ReferenceIdeal.main_arg6) = W (Proc.devRef .tc Cert.KernelIdeal.main_arg6)) :
    after (Cert.ReferenceIdeal.RefRun.opsTail (F := F)) VH (Proc.devRef .tc Cert.ReferenceIdeal.main_v165)
      = after (Cert.KernelIdeal.Hand.tailOps (F := F)).flatten W (Proc.devRef .tc Cert.KernelIdeal.main_v168) := by
  simp only [Cert.ReferenceIdeal.RefRun.opsTail, Cert.KernelIdeal.Hand.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, List.flatten_cons, List.flatten_nil, List.append_nil, List.cons_append, List.nil_append]
  after_results_simp
  simp only [toBuf_main_v68, ofBuf_main_v68, toBuf_main_v67, ofBuf_main_v67, toBuf_main_call0_call0_v0, ofBuf_main_call0_call0_v0, toBuf_main_call0_call0_c, ofBuf_main_call0_call0_c, toBuf_main_v123, ofBuf_main_v123, toBuf_main_v122, ofBuf_main_v122, toBuf_main_call5_call0_v0, ofBuf_main_call5_call0_v0, toBuf_main_call5_call0_c, ofBuf_main_call5_call0_c]
  rw [hsel, h6]
  refine count_eq 8000000 7999999 _ _ ?_ _ _ ?_ ?_ _ _ _ _ _
  · rfl
  · intro _; rfl
  · intro _; rfl

end Cert.Bridge

end
-- ==== Proof.BridgeMain.lean ====
/-
  The two programs' results, program against program.

  The reference is one line of 239 host operations; cut after the blended table it is a head of 89 operations and a
  tail of 150.  The kernel's program is 87 host operations, the call, and 152 host operations.  From launch contents
  that agree on the arguments:
  - the heads leave the same membership columns, the same union column and the same three gathered tables
    (operation for operation the same terms);
  - the reference's blended table, two selects under the membership columns, is the array the call leaves, the
    blend under the packed code, entry by entry (the blend law on the extended reals, block by block);
  - the tails are the same operations of the union column, the blended table and the arguments 5, 6, 7, except the
    two counts, where the last entry of a running sum, less one plus one, is the whole sum.
  So each of the six results is the same array in both programs.
-/
import proofs.«138900_j62680752717907_2_alg».proof.Proof.KTailI
import proofs.«138900_j62680752717907_2_alg».proof.Proof.KValueI
import proofs.«138900_j62680752717907_2_alg».proof.Proof.XFull
import proofs.«138900_j62680752717907_2_alg».proof.Proof.RefRun
import proofs.«138900_j62680752717907_2_alg».proof.Proof.BridgeHead1
import proofs.«138900_j62680752717907_2_alg».proof.Proof.BridgeHead2
import proofs.«138900_j62680752717907_2_alg».proof.Proof.BridgeHead3
import proofs.«138900_j62680752717907_2_alg».proof.Proof.BridgeBlend
import proofs.«138900_j62680752717907_2_alg».proof.Proof.BridgeHeadArgs
import proofs.«138900_j62680752717907_2_alg».proof.Proof.BridgeTail
import proofs.«138900_j62680752717907_2_alg».proof.Proof.BridgeCount
import Idealize.ShloMosaic.Lib.Pipeline.FrameSuffix

noncomputable section

namespace Cert.Bridge

open Idealize.ShloMosaic Idealize.ShloMosaic.TcCoe Idealize.ShloMosaic.StableHlo
open Idealize.SL Idealize.SL.Sem

/-- The reference's blended table is the call's blend of the kernel program's gathered tables under its code column. -/
theorem head_xfull (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0)) (h1 : VR (Proc.devRef .tc Cert.ReferenceIdeal.main_arg1) = VK (Proc.devRef .tc Cert.KernelIdeal.main_arg1))
    (h3 : VR (Proc.devRef .tc Cert.ReferenceIdeal.main_arg3) = VK (Proc.devRef .tc Cert.KernelIdeal.main_arg3)) (h4 : VR (Proc.devRef .tc Cert.ReferenceIdeal.main_arg4) = VK (Proc.devRef .tc Cert.KernelIdeal.main_arg4)) :
    after (Cert.ReferenceIdeal.RefRun.opsHead (F := Ideal)) VR (Proc.devRef .tc Cert.ReferenceIdeal.main_v65)
      = Cert.KernelIdeal.Hand.XF (F := Ideal) (after (List.flatten [Cert.KernelIdeal.Gen.hostOps0 (F := Ideal)]) VK (Proc.devRef .tc Cert.KernelIdeal.main_v51)) (after (List.flatten [Cert.KernelIdeal.Gen.hostOps0 (F := Ideal)]) VK (Proc.devRef .tc Cert.KernelIdeal.main_v58)) (after (List.flatten [Cert.KernelIdeal.Gen.hostOps0 (F := Ideal)]) VK (Proc.devRef .tc Cert.KernelIdeal.main_v65)) (after (List.flatten [Cert.KernelIdeal.Gen.hostOps0 (F := Ideal)]) VK (Proc.devRef .tc Cert.KernelIdeal.main_v42)) := by
  rw [Cert.ReferenceIdeal.RefRun.head_xfull_ref VR, pair_in1 VK VR h0, pair_in2 VK VR h1, pair_g1 VK VR h0 h3, pair_g2p VK VR h0 h4, pair_g2 VK VR h1 h4,
    kernel_code VK]
  exact Cert.KernelIdeal.XFull.xfull_eq _ _ _ _ _ _ _ _ _ _ _

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel program's buffer contents when the call returns: the arrays at what the write-backs left, every other
    buffer as the call found it. -/
abbrev Wk : Valuation Cert.KernelIdeal.τ Cert.KernelIdeal.sig (Elt Ideal) :=
  Pipeline.withArrays (Cert.KernelIdeal.cfgs 0).spec c (Cert.KernelIdeal.Hand.V0 m c) fun w => (Cert.KernelIdeal.Hand.dats m 0 c).arrAt w (Cert.KernelIdeal.cfgs 0).N

/-- A buffer that is no array of the call is as the call found it. -/
theorem Wk_rest (b : Ref Cert.KernelIdeal.sig .tc) (hb : ∀ w, Pipeline.arrRef Cert.KernelIdeal.spec0 w ≠ b) :
    Wk m c (Proc.devRef .tc b) = Cert.KernelIdeal.Hand.V0 m c (Proc.devRef .tc b) :=
  Pipeline.withArrays_of_ne _ c _ _ b hb

/-- The call's output array is the blend of the four input arrays. -/
theorem Wk_xf : Wk m c (Proc.devRef .tc Cert.KernelIdeal.main_v66)
    = Cert.KernelIdeal.Hand.XF (F := Ideal) (Cert.KernelIdeal.Hand.V m c Cert.KernelIdeal.main_v51) (Cert.KernelIdeal.Hand.V m c Cert.KernelIdeal.main_v58) (Cert.KernelIdeal.Hand.V m c Cert.KernelIdeal.main_v65) (Cert.KernelIdeal.Hand.V m c Cert.KernelIdeal.main_v42) :=
  (Pipeline.withArrays_arr Cert.KernelIdeal.spec0 Cert.KernelIdeal.Gen.launch0.win.arr_inj c _ _ 4).trans (Cert.KernelIdeal.Hand.final4 m c)

variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

include hag

/-- The union column the tails start from. -/
theorem start_sel : after (Cert.ReferenceIdeal.RefRun.opsHead (F := Ideal)) (launchContents m' c) (Proc.devRef .tc Cert.ReferenceIdeal.main_v37) = Wk m c (Proc.devRef .tc Cert.KernelIdeal.main_v36) :=
  (pair_sel (fun b => m (c, b)) (launchContents m' c) hag.1 hag.2.1).trans (Wk_rest m c Cert.KernelIdeal.main_v36 (by decide)).symm

/-- The blended table the tails start from. -/
theorem start_xf : after (Cert.ReferenceIdeal.RefRun.opsHead (F := Ideal)) (launchContents m' c) (Proc.devRef .tc Cert.ReferenceIdeal.main_v65) = Wk m c (Proc.devRef .tc Cert.KernelIdeal.main_v66) :=
  (head_xfull (fun b => m (c, b)) (launchContents m' c) hag.1 hag.2.1 hag.2.2.2.1 hag.2.2.2.2.1).trans (Wk_xf m c).symm

/-- The arguments the tails read. -/
theorem start_arg5 : after (Cert.ReferenceIdeal.RefRun.opsHead (F := Ideal)) (launchContents m' c) (Proc.devRef .tc Cert.ReferenceIdeal.main_arg5) = Wk m c (Proc.devRef .tc Cert.KernelIdeal.main_arg5) :=
  ((head_arg5 (launchContents m' c)).trans hag.2.2.2.2.2.1).trans (((Wk_rest m c Cert.KernelIdeal.main_arg5 (by decide)).trans (Cert.KernelIdeal.Hand.V_main_arg5 m c)).symm)
theorem start_arg6 : after (Cert.ReferenceIdeal.RefRun.opsHead (F := Ideal)) (launchContents m' c) (Proc.devRef .tc Cert.ReferenceIdeal.main_arg6) = Wk m c (Proc.devRef .tc Cert.KernelIdeal.main_arg6) :=
  ((head_arg6 (launchContents m' c)).trans hag.2.2.2.2.2.2.1).trans (((Wk_rest m c Cert.KernelIdeal.main_arg6 (by decide)).trans (Cert.KernelIdeal.Hand.V_main_arg6 m c)).symm)
theorem start_arg7 : after (Cert.ReferenceIdeal.RefRun.opsHead (F := Ideal)) (launchContents m' c) (Proc.devRef .tc Cert.ReferenceIdeal.main_arg7) = Wk m c (Proc.devRef .tc Cert.KernelIdeal.main_arg7) :=
  ((head_arg7 (launchContents m' c)).trans hag.2.2.2.2.2.2.2).trans (((Wk_rest m c Cert.KernelIdeal.main_arg7 (by decide)).trans (Cert.KernelIdeal.Hand.V_main_arg7 m c)).symm)

/-- What the kernel's program ends with at buffer `b`: the tail's operations from the call's exit contents. -/
abbrev resK (b : Ref Cert.KernelIdeal.sig .tc) : Buf (Elt Ideal) ((c.tc : Thread Cert.KernelIdeal.nD Cert.KernelIdeal.τ).loc b) :=
  Pipeline.afterTail₀ Cert.KernelIdeal.cfgs (Cert.KernelIdeal.Hand.dats m) 0 (Cert.KernelIdeal.Hand.V0 m) Cert.KernelIdeal.Hand.tailOps c b

omit hag in
theorem resK_eq (b : Ref Cert.KernelIdeal.sig .tc) : resK m c b = after (Cert.KernelIdeal.Hand.tailOps (F := Ideal)).flatten (Wk m c) (Proc.devRef .tc b) := rfl

/-- The six results. -/
theorem res_x3 : after (Cert.ReferenceIdeal.RefRun.ops (F := Ideal)) (launchContents m' c) (Proc.devRef .tc Cert.ReferenceIdeal.main_v79) = resK m c Cert.KernelIdeal.main_v80 := by
  rw [Cert.ReferenceIdeal.RefRun.after_ops, resK_eq]
  exact tail_x3 _ _ (start_sel m m' c hag) (start_xf m m' c hag) (start_arg5 m m' c hag) (start_arg6 m m' c hag) (start_arg7 m m' c hag)
theorem res_batch : after (Cert.ReferenceIdeal.RefRun.ops (F := Ideal)) (launchContents m' c) (Proc.devRef .tc Cert.ReferenceIdeal.main_v100) = resK m c Cert.KernelIdeal.main_v101 := by
  rw [Cert.ReferenceIdeal.RefRun.after_ops, resK_eq]
  exact tail_batch _ _ (start_sel m m' c hag) (start_xf m m' c hag) (start_arg5 m m' c hag) (start_arg6 m m' c hag) (start_arg7 m m' c hag)
theorem res_ei : after (Cert.ReferenceIdeal.RefRun.ops (F := Ideal)) (launchContents m' c) (Proc.devRef .tc Cert.ReferenceIdeal.main_v152) = resK m c Cert.KernelIdeal.main_v153 := by
  rw [Cert.ReferenceIdeal.RefRun.after_ops, resK_eq]
  exact tail_ei _ _ (start_sel m m' c hag) (start_xf m m' c hag) (start_arg5 m m' c hag) (start_arg6 m m' c hag) (start_arg7 m m' c hag)
theorem res_ea : after (Cert.ReferenceIdeal.RefRun.ops (F := Ideal)) (launchContents m' c) (Proc.devRef .tc Cert.ReferenceIdeal.main_v161) = resK m c Cert.KernelIdeal.main_v162 := by
  rw [Cert.ReferenceIdeal.RefRun.after_ops, resK_eq]
  exact tail_ea _ _ (start_sel m m' c hag) (start_xf m m' c hag) (start_arg5 m m' c hag) (start_arg6 m m' c hag) (start_arg7 m m' c hag)
theorem res_count : after (Cert.ReferenceIdeal.RefRun.ops (F := Ideal)) (launchContents m' c) (Proc.devRef .tc Cert.ReferenceIdeal.main_v163) = resK m c Cert.KernelIdeal.main_v165 := by
  rw [Cert.ReferenceIdeal.RefRun.after_ops, resK_eq]
  exact tail_count _ _ (start_sel m m' c hag)
theorem res_ecount : after (Cert.ReferenceIdeal.RefRun.ops (F := Ideal)) (launchContents m' c) (Proc.devRef .tc Cert.ReferenceIdeal.main_v165) = resK m c Cert.KernelIdeal.main_v168 := by
  rw [Cert.ReferenceIdeal.RefRun.after_ops, resK_eq]
  exact tail_ecount _ _ (start_sel m m' c hag) (start_arg6 m m' c hag)

end Results

end Cert.Bridge

end
-- ==== Proof.lean ====
/-
  A packed two-bit code against two selects: the blend of three gathered row tables, and everything around it.

  Both programs merge two index lists perm1, perm2 over 500000 original nodes: membership columns in1, in2 (a
  scatter of ones), position tables (a scatter of the running index), the gathered tables g1 = x1[pos1],
  g2' = x2[pos1], g2 = x2[pos2], and the blended table
      x_full[n] = ½ (g1[n] + g2'[n])  if n is in both lists,   g1[n]  if only in the first,   g2[n]  otherwise,
  which is then compacted in node order (a running sum of the union column gives each kept node its row), with the
  batch remap, the edge filter and the two counts following from the same union column.

  The reference writes x_full as two selects.  The kernel's program packs the two membership bits into one code word
  per node (in1 + 2 · in2), gathers the tables in a narrower float format, and computes x_full in ONE call over 125
  blocks of 4000 rows as  w_both · ½ (g1 + g2') + (1 − w_both) · (w_1 · g1 + (1 − w_1) · g2)  with the weights 0 or 1
  read off the code; it reads the counts off the last entry of the running sums instead of summing again.

  On the extended reals a change of float format is the identity, a weight 0 removes its summand whatever it is and a
  weight 1 keeps it, so the blend is the two selects entry by entry; the last entry of a running sum is the whole sum,
  and (s − 1) + 1 = s on 32-bit words.  Every other line is the same operation of the same values in both programs.

  The three frames: the reference is a straight line of host operations, none of which writes an argument; the kernel's
  program is host operations, the call (every block fetched, blended and written back; the staging buffers and the
  output array are the only things the call writes), and host operations, none of which writes an argument or an
  array of the call.  No operation was rewritten by the idealization, so there is nothing to preserve.
-/
import proofs.«138900_j62680752717907_2_alg».proof.Defs
import proofs.«138900_j62680752717907_2_alg».proof.Proof.Gen.Kernel
import proofs.«138900_j62680752717907_2_alg».proof.Proof.Gen.Kernel.Skeleton
import proofs.«138900_j62680752717907_2_alg».proof.Proof.Gen.Kernel.Launch
import proofs.«138900_j62680752717907_2_alg».proof.Proof.Gen.Kernel.Points
import proofs.«138900_j62680752717907_2_alg».proof.Proof.Gen.KernelIdeal
import proofs.«138900_j62680752717907_2_alg».proof.Proof.Gen.KernelIdeal.Skeleton
import proofs.«138900_j62680752717907_2_alg».proof.Proof.Gen.KernelIdeal.Launch
import proofs.«138900_j62680752717907_2_alg».proof.Proof.Gen.KernelIdeal.Points
import proofs.«138900_j62680752717907_2_alg».proof.Proof.Gen.ReferenceIdeal
import proofs.«138900_j62680752717907_2_alg».proof.Proof.Gen.Pre_finite_inputs
import proofs.«138900_j62680752717907_2_alg».proof.Proof.ClaimsK
import proofs.«138900_j62680752717907_2_alg».proof.Proof.ClaimsRef
import proofs.«138900_j62680752717907_2_alg».proof.Proof.BridgeMain
import Idealize.ShloMosaic.Adequacy
import Idealize.ShloMosaic.Init

noncomputable section

namespace Cert.Proof

open Idealize.ShloMosaic Idealize.ShloMosaic.TcCoe Idealize.ShloMosaic.StableHlo Idealize.SL.Sem

/-- From memories that agree on the arguments both idealized programs run to the end with the same six results: the
    kernel's program by its frame run, whose post names each result as the tail's value from the call's exit
    contents; the reference by its straight-line run, each result then the same array (`Cert.Bridge.res_…`). -/
theorem algebraic : Cert.algebraic_KernelIdeal_ReferenceIdeal := by
  intro m g m' g' _ hag
  refine ⟨fun c => Cert.Bridge.resK m c Cert.KernelIdeal.main_v80, fun c => Cert.Bridge.resK m c Cert.KernelIdeal.main_v101,
    fun c => Cert.Bridge.resK m c Cert.KernelIdeal.main_v153, fun c => Cert.Bridge.resK m c Cert.KernelIdeal.main_v162,
    fun c => Cert.Bridge.resK m c Cert.KernelIdeal.main_v165, fun c => Cert.Bridge.resK m c Cert.KernelIdeal.main_v168,
    Cert.Proof.Parts.kernel_results m g, ?_⟩
  refine (θ_run Cert.ReferenceIdeal.defs _ _).mono (fun r h c => ?_) (Cert.ReferenceIdeal.RefRun.run_main (F := Ideal) m' g')
  exact ⟨(h c Cert.ReferenceIdeal.main_v79).trans (Cert.Bridge.res_x3 m m' c (hag c)),
    (h c Cert.ReferenceIdeal.main_v100).trans (Cert.Bridge.res_batch m m' c (hag c)),
    (h c Cert.ReferenceIdeal.main_v152).trans (Cert.Bridge.res_ei m m' c (hag c)),
    (h c Cert.ReferenceIdeal.main_v161).trans (Cert.Bridge.res_ea m m' c (hag c)),
    (h c Cert.ReferenceIdeal.main_v163).trans (Cert.Bridge.res_count m m' c (hag c)),
    (h c Cert.ReferenceIdeal.main_v165).trans (Cert.Bridge.res_ecount m m' c (hag c)),
    (h c Cert.ReferenceIdeal.main_arg0).trans (Cert.ReferenceIdeal.RefRun.arg0_kept _), (h c Cert.ReferenceIdeal.main_arg1).trans (Cert.ReferenceIdeal.RefRun.arg1_kept _),
    (h c Cert.ReferenceIdeal.main_arg2).trans (Cert.ReferenceIdeal.RefRun.arg2_kept _), (h c Cert.ReferenceIdeal.main_arg3).trans (Cert.ReferenceIdeal.RefRun.arg3_kept _),
    (h c Cert.ReferenceIdeal.main_arg4).trans (Cert.ReferenceIdeal.RefRun.arg4_kept _), (h c Cert.ReferenceIdeal.main_arg5).trans (Cert.ReferenceIdeal.RefRun.arg5_kept _),
    (h c Cert.ReferenceIdeal.main_arg6).trans (Cert.ReferenceIdeal.RefRun.arg6_kept _), (h c Cert.ReferenceIdeal.main_arg7).trans (Cert.ReferenceIdeal.RefRun.arg7_kept _)⟩

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, trivial, algebraic⟩

end Cert.Proof

end
